-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : IVec S4x2048x2048 32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1024x1 : Shape := ⟨2, ![1024, 1]⟩
abbrev S512x1024 : Shape := ⟨2, ![512, 1024]⟩
abbrev S1024x512 : Shape := ⟨2, ![1024, 512]⟩

abbrev nBuf : Space → Nat
  | .hbm => 25
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8192x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S4x2048x1024, .bf16⟩
  | .hbm, ⟨22, _⟩ => ⟨S4x2048x1024, .bf16⟩
  | .hbm, ⟨23, _⟩ => ⟨S4x2048x1024, .bf16⟩
  | .hbm, ⟨24, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x512, .i32⟩
  | .local _ .vmem, ⟨21, _⟩ => ⟨S1x1024x512, .i32⟩
  | .local _ .vmem, ⟨22, _⟩ => ⟨S1x1024x1024, .f32⟩
  | .local _ .vmem, ⟨23, _⟩ => ⟨S1x1024x1024, .f32⟩
  | .local _ .vmem, ⟨24, _⟩ => ⟨S1024x1, .f32⟩
  | .local _ .vmem, ⟨25, _⟩ => ⟨S1024x1, .f32⟩
  | .local _ .vmem, ⟨26, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v49 : BitVec 1 := Scalar.cmpi .eq arg2 c3_i32
  let v50 : BitVec 32 := Scalar.extui v49
  let c0_i32_32 : BitVec 32 := 0#32
  let v51 : BitVec 1 := Scalar.cmpi .ne v50 c0_i32_32
  v51

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x1024.size a
  hwx0_7 : ∀ i : grid0.Coords, EltTy.bits .bf16 = 32 ∨ (Rect.block (s := S8192x1024) S1024x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S8192x1024.size a
  hwx0_8 : ∀ i : grid0.Coords, EltTy.bits .bf16 = 32 ∨ (Rect.block (s := S8192x1024) S1024x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S8192x1024.size a
  hwx0_9 : ∀ i : grid0.Coords, EltTy.bits .bf16 = 32 ∨ (Rect.block (s := S8192x1024) S1024x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S4x2048x2048.size a
  hwx1_3 : ∀ i : grid1.Coords, EltTy.bits .i32 = 32 ∨ (Rect.block (s := S4x2048x2048) S1x1024x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x2048x1024.size a
  hwx1_4 : ∀ i : grid1.Coords, EltTy.bits .f32 = 32 ∨ (Rect.block (s := S4x2048x1024) S1x1024x1024.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S1024x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S1024x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v11) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4x2048x1024, .f32⟩
  | .hbm, ⟨9, _⟩ => ⟨S1x1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x2048, .f32⟩
  | .hbm, ⟨21, _⟩ => ⟨S_, .i32⟩
  | .hbm, ⟨22, _⟩ => ⟨S4x2048x2048, .i32⟩
  | .hbm, ⟨23, _⟩ => ⟨S4x2048x2048, .i1⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_call0_v0 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BitsAttnStep.lean ====
/-
  One key/value tile of the streaming softmax, as pure functions of the tile's blocks and of the three running
  quantities the kernel keeps per query row: the running maximum `m`, the running normaliser `l` and the running
  weighted sum of value rows `acc`.  With scores `s = mask(q·kᵀ)·(1/32)` of the tile,
    m' = max m (rowmax s),   l' = exp(m - m')·l + Σ_k exp(s - m'),   acc' = exp(m - m')·acc + exp(s - m')·v,
  the first tile starting from m = -∞, l = 0, acc = 0, and the last tile's output being acc' / l'.
-/
import proofs.«151986_j46763603919067_2_alg».proof.Proof.Gen.Kernel.Skeleton
import proofs.«151986_j46763603919067_2_alg».proof.Proof.Gen.Kernel.Launch

noncomputable section

namespace Cert.Kernel.Hand

open Idealize.ShloMosaic Idealize.ShloMosaic.TcCoe Idealize.SL.Sem Cert.Kernel Cert.Kernel.Gen

variable {F : FTy → Type} [FloatOps F]

/-- The running triple (maximum, normaliser, weighted sum) of a block of 1024 query rows. -/
abbrev Run3 (F : FTy → Type) [FloatOps F] : Type :=
  FVec F S1024x1 .f32 × FVec F S1024x1 .f32 × FVec F S1024x1024 .f32

/-- The triple before the first tile: maximum -∞, normaliser 0, weighted sum 0. -/
def init1 : Run3 F := (k1_pay5, k1_pay6, k1_pay7)

/-- One tile folded in: the new maximum, the rescaled normaliser plus the tile's weights, the rescaled weighted sum
    plus the tile's weights times its value rows. -/
def step1 (q : Vec F S1x1024x1024 .bf16) (k v : Vec F S1x512x1024 .bf16) (msk : Vec F S1x1024x512 .i32)
    (s : Run3 F) : Run3 F :=
  (k1_pay3 (k1_pay9 q k msk s.1),
   k1_pay1 (k1_pay12 q k msk s.1 s.1 s.2.1),
   k1_pay2 (k1_pay10 q k msk s.1 s.1) (k1_pay11 q k msk s.1) s.2.2 v)

/-- The output block after the last tile: the weighted sum over the normaliser, row by row. -/
def fin1 (s : Run3 F) : FVec F S1x1024x1024 .f32 := k1_pay4 s.2.2 s.2.1

/-! ## A window's block at a grid point, read off the array the region finds -/

section Blocks
variable (V : (c : Dev nD) → (b : Ref sig .tc) → Buf (Elt F) ((c : Thread nD τ).loc b))

/-- Window `w` of the projection call at point `t`: the block of its array that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the attention call at point `t`: the block of its array that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Blocks

end Cert.Kernel.Hand

end
-- ==== Proof.BitsProjBody.lean ====
/-
  The projection call's body as a triple.  The body reads the block of input rows, the three transposed weights and
  the three biases through the whole-buffer rectangle at the origin, and stores each of the three products
    y = bf16( bf16(x) · Wt + b )
  through the same rectangle into its output buffer, after a read of that buffer whose value is never used.  So
  whatever the output buffers held, each ends holding its payload of the input blocks, and the inputs are unchanged.
-/
import proofs.«151986_j46763603919067_2_alg».proof.Proof.Gen.Kernel.Launch
import proofs.«151986_j46763603919067_2_alg».proof.Proof.Gen.Kernel.Skeleton
import proofs.«151986_j46763603919067_2_alg».proof.Proof.Gen.Kernel.Points
import proofs.«151986_j46763603919067_2_alg».proof.Proof.BitsAttnStep
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: the whole-buffer rectangle at the origin, per shape -/

abbrev rM : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The origin of a rank-two shape, spelt as the programs spell it. -/
theorem zeros2 : (![0, 0] : Fin 2 → Nat) = fun _ => 0 := funext fun a => by fin_cases a <;> rfl

/-- A load through the whole-buffer rectangle reads the buffer. -/
theorem ld_rM {e : EltTy} (X : S1024x1024.Idx → Elt F e) : View.ld X rM = X :=
  View.ld_unit_zero (S := S1024x1024) zeros2 inb_S1024x1024_S1024x1024_0_0 X
theorem ld_rB {e : EltTy} (X : S1x1024.Idx → Elt F e) : View.ld X rB = X :=
  View.ld_unit_zero (S := S1x1024) zeros2 inb_S1x1024_S1x1024_0_0 X

/-- One store through the whole-buffer rectangle leaves its payload. -/
theorem canon_rM {e : EltTy} (w : S1024x1024.Idx → Elt F e) :
    View.canon [(⟨rM, w⟩ : View.Piece (Elt F) S1024x1024 e)] = w :=
  View.canon_unit_zero (S := S1024x1024) zeros2 inb_S1024x1024_S1024x1024_0_0 w

/-- The one store covers the buffer: every index lies in the whole-buffer rectangle. -/
theorem cover_rM {e : EltTy} (p0 : S1024x1024.Idx → Elt F e) (y : S1024x1024.Idx) :
    ∃ pc ∈ ([⟨rM, p0⟩] : List (View.Piece (Elt F) S1024x1024 e)), y ∈ pc.1.set :=
  View.cover_of_tiled [⟨rM, p0⟩] S1024x1024.size (by rfl) y

/-- A load through the whole-buffer rectangle, as the run states it of a view's raw contents, reads the view. -/
theorem readAt_rM {e : EltTy} (v : View sig .tc .vmem S1024x1024 e) (f : v.ty.Contents (Elt F)) :
    v.readAt (Elt F) rM.toLoadRect f = v.read (Elt F) f := ld_rM _
theorem readAt_rB {e : EltTy} (v : View sig .tc .vmem S1x1024 e) (f : v.ty.Contents (Elt F)) :
    v.readAt (Elt F) rB.toLoadRect f = v.read (Elt F) f := ld_rB _

/-! ## The body's triple -/

set_option maxHeartbeats 1000000 in
/-- The body on whole staging memrefs — the seven inputs at read contents `x0 … x6`, the three outputs at anything —
    runs to the continuation holding the inputs as they were and each output at its payload of the inputs:
    q from (x, Wq, bq), k from (x, Wk, bk), v from (x, Wv, bv). -/
theorem sound_kernel0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1024x1024 .bf16) (harg8 : arg8.IsWhole)
    (arg9 : Memref sig .tc .vmem S1024x1024 .bf16) (harg9 : arg9.IsWhole)
    (arg10 : Memref sig .tc .vmem S1024x1024 .bf16) (harg10 : arg10.IsWhole)
    (x0 : Vec F S1024x1024 .f32) (x1 x2 x3 : Vec F S1024x1024 .bf16) (x4 x5 x6 : Vec F S1x1024 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (k0_pay2 x0 x1 x4)
            ∗ owns (c : Thread nD τ) arg9 fullShare (k0_pay3 x0 x2 x5)
            ∗ owns (c : Thread nD τ) arg10 fullShare (k0_pay4 x0 x3 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_rM _)).trans ((canon_rM _).trans ?_)
    rw [readAt_rM, readAt_rM, readAt_rB]
  isplitl [H8]
  · iexists _; isplitr
    swap; · iexact H8
    ipureintro
    refine (View.read_writes_eq_canon _ _ _ (cover_rM _)).trans ((canon_rM _).trans ?_)
    rw [readAt_rM, readAt_rM, readAt_rB]
  · iexists _; isplitr
    swap; · iexact H9
    ipureintro
    refine (View.read_writes_eq_canon _ _ _ (cover_rM _)).trans ((canon_rM _).trans ?_)
    rw [readAt_rM, readAt_rM, readAt_rB]

end Cert.Kernel.Hand

end
-- ==== Proof.BitsProjFrame.lean ====
/-
  REGION 0, the projection call, at the contents `V` the region finds: the pipeline's proof data and the body
  obligation.  Ten windows on a grid of eight points: window 0 the block of 1024 input rows of the point, windows 1–3
  the three transposed weights and 4–6 the three biases (whole, fetched at the first point only, so at every later
  point the staging buffer still holds the same whole array), windows 7–9 the blocks of q, k, v of the point, written
  back at every point.  After the body each input buffer holds its block, and each output buffer holds
    bf16( bf16(x) · Wt + b )
  of the point's input rows x with the matching weight and bias.
-/
import proofs.«151986_j46763603919067_2_alg».proof.Proof.Gen.Kernel.Launch
import proofs.«151986_j46763603919067_2_alg».proof.Proof.Gen.Kernel.Skeleton
import proofs.«151986_j46763603919067_2_alg».proof.Proof.Gen.Kernel.Points
import proofs.«151986_j46763603919067_2_alg».proof.Proof.BitsAttnStep
import proofs.«151986_j46763603919067_2_alg».proof.Proof.BitsProjBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the projection pipeline on core `c`: the arrays as the region finds them; after the body at
    point `t` each input's buffer at its block and each output's at its payload of the input blocks (q from windows
    0, 1, 4; k from 0, 2, 5; v from 0, 3, 6); the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay2 (iblk0 V c 0 t) (iblk0 V c 1 t) (iblk0 V c 4 t)
    | ⟨8, _⟩ => k0_pay3 (iblk0 V c 0 t) (iblk0 V c 2 t) (iblk0 V c 5 t)
    | ⟨9, _⟩ => k0_pay4 (iblk0 V c 0 t) (iblk0 V c 3 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = k0_pay2 (iblk0 V c 0 t) (iblk0 V c 1 t) (iblk0 V c 4 t) := by dsimp only [dat0]
theorem after0_8 (c : Dev nD) (t : Fin cfg0.N) : (dat0 V c).after 8 t = k0_pay3 (iblk0 V c 0 t) (iblk0 V c 2 t) (iblk0 V c 5 t) := by dsimp only [dat0]
theorem after0_9 (c : Dev nD) (t : Fin cfg0.N) : (dat0 V c).after 9 t = k0_pay4 (iblk0 V c 0 t) (iblk0 V c 3 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsAttnRuns.lean ====
/-
  What the three control cases of the attention call's body share: its two branch conditions in closed form over the
  32 grid points (the first holds where the key/value tile coordinate is 0, the second where it is 3), where each
  window is idle or live, the staging memrefs the body is called with, the three scratch buffers the kernel carries
  between points (running maximum, running normaliser, running weighted sum) as whole memrefs, and the region
  invariant with those three buffers split off the rest of the core's scoped buffers.
-/
import proofs.«151986_j46763603919067_2_alg».proof.Proof.Gen.Kernel.Launch
import proofs.«151986_j46763603919067_2_alg».proof.Proof.Gen.Kernel.Skeleton
import proofs.«151986_j46763603919067_2_alg».proof.Proof.Gen.Kernel.Points
import proofs.«151986_j46763603919067_2_alg».proof.Proof.BitsAttnStep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The first condition (the tile coordinate is 0: the three scratch buffers are initialised), from the grid
    coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (the tile coordinate is 3: the output block is stored). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second condition fails the output window is idle, -/
theorem idleAt1_4 : ∀ t : Fin cfg1.N, ¬cond1_1 (grid1.coords t) → cfg1.idle 4 (grid1.coords t) = true := by decide +kernel
/-- and not written back; -/
theorem noFlush1_4 : ∀ t : Fin cfg1.N, ¬cond1_1 (grid1.coords t) → (cfg1.win 4).flush t = false := by decide +kernel
/-- where it holds the window is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The running maximum's buffer, -/
abbrev scM1_0 : Memref sig .tc .vmem S1024x1 .f32 := Memref.whole cc1_scratch0
/-- the running normaliser's, -/
abbrev scM1_1 : Memref sig .tc .vmem S1024x1 .f32 := Memref.whole cc1_scratch1
/-- the running weighted sum's. -/
abbrev scM1_2 : Memref sig .tc .vmem S1024x1024 .f32 := Memref.whole cc1_scratch2

/-! ## The region invariant with the three scratch buffers split off -/

/-- Every other scoped buffer of the core, at some contents each, unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The invariant the launch hands the region: the three scratch buffers owned at some contents, the other scoped
    buffers, the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ restBut1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole, bigSepL_cons_cons, bigSepL_singleton]; try rfl

end Cert.Kernel.Hand

end
-- ==== Proof.BitsAttnData.lean ====
/-
  The attention call's proof data at the contents `V` the region finds.

  The kernel carries three scratch buffers between grid points: the running maximum, the running normaliser and the
  running weighted sum of one block of 1024 query rows.  `scr1` is what they hold after the body at each position
  of the grid, by the streaming-softmax recursion itself: one step from the starting triple where the key/value tile
  coordinate is 0, one step from what the position before left elsewhere.  The invariant before a position is the
  launch's before the first, and afterwards the three scratch buffers owned at `scr1` of the position before, with
  the core's other scoped buffers and the generator register untouched.
-/
import proofs.«151986_j46763603919067_2_alg».proof.Proof.BitsAttnRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The three running quantities after each position -/

/-- The running triple after the body at position `n`: one step of the streaming softmax over the position's blocks,
    from the starting triple where the tile coordinate is 0 and from the position before's triple elsewhere. -/
def scr1 (c : Dev nD) : (n : ℕ) → n < cfg1.N → Run3 F
  | 0, hn => step1 (iblk1 V c 0 ⟨0, hn⟩) (iblk1 V c 1 ⟨0, hn⟩) (iblk1 V c 2 ⟨0, hn⟩) (iblk1 V c 3 ⟨0, hn⟩) init1
  | n + 1, hn =>
    if (n + 1) % 4 = 0 then
      step1 (iblk1 V c 0 ⟨n + 1, hn⟩) (iblk1 V c 1 ⟨n + 1, hn⟩) (iblk1 V c 2 ⟨n + 1, hn⟩) (iblk1 V c 3 ⟨n + 1, hn⟩) init1
    else
      step1 (iblk1 V c 0 ⟨n + 1, hn⟩) (iblk1 V c 1 ⟨n + 1, hn⟩) (iblk1 V c 2 ⟨n + 1, hn⟩) (iblk1 V c 3 ⟨n + 1, hn⟩) (scr1 c n (Nat.lt_of_succ_lt hn))

/-- At a first tile: one step from the starting triple. -/
theorem scr1_first (c : Dev nD) (t : Fin cfg1.N) (h : t.val % 4 = 0) :
    scr1 V c t.val t.isLt = step1 (iblk1 V c 0 t) (iblk1 V c 1 t) (iblk1 V c 2 t) (iblk1 V c 3 t) init1 := by
  obtain ⟨n, hn⟩ := t
  cases n with
  | zero => exact rfl
  | succ n => exact (if_pos h).trans rfl

/-- At any other tile: one step from what the position before left. -/
theorem scr1_next (c : Dev nD) (t : Fin cfg1.N) (h : t.val % 4 ≠ 0) :
    scr1 V c t.val t.isLt = step1 (iblk1 V c 0 t) (iblk1 V c 1 t) (iblk1 V c 2 t) (iblk1 V c 3 t) (scr1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant -/

/-- Before position `n`: the launch's invariant before the first; afterwards the three scratch buffers owned at the
    triple the position before left, the core's other scoped buffers, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (scr1 V c n hn).1 ∗ owns (c : Thread nD τ) scM1_1 fullShare (scr1 V c n hn).2.1 ∗ owns (c : Thread nD τ) scM1_2 fullShare (scr1 V c n hn).2.2)
      ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (scr1 V c n hn).1 ∗ owns (c : Thread nD τ) scM1_1 fullShare (scr1 V c n hn).2.1 ∗ owns (c : Thread nD τ) scM1_2 fullShare (scr1 V c n hn).2.2)
      ∗ restBut1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (scr1 V c (n - 1) (by omega)).1 ∗ owns (c : Thread nD τ) scM1_1 fullShare (scr1 V c (n - 1) (by omega)).2.1 ∗ owns (c : Thread nD τ) scM1_2 fullShare (scr1 V c (n - 1) (by omega)).2.2)
      ∗ restBut1 c) ∗ (∃ r, prngReg c r)) := by
  cases n with
  | zero => exact absurd rfl hz
  | succ n => rfl

/-! ## The proof data -/

/-- The attention call's proof data on core `c`: the arrays as the region finds them; after the body each input's
    buffer at its block and the output's at the quotient of the position's weighted sum by its normaliser (consulted
    at the last tile only: elsewhere the window is idle); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => fin1 (scr1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = fin1 (scr1 V c t.val t.isLt) := by dsimp only [dat1]

/-- At a last tile the output block is the quotient of that position's weighted sum by its normaliser. -/
theorem after1_4_last (c : Dev nD) (t : Fin cfg1.N) (h : t.val % 4 = 3) : (dat1 V c).after 4 t = fin1 (scr1 V c t.val t.isLt) :=
  after1_4 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

end Cert.Kernel.Hand

end
-- ==== Proof.BitsAttnRunB.lean ====
/-
  The attention call's body at a point whose key/value tile is neither the first nor the last: neither branch is
  taken.  The body reads the four input blocks and the three running quantities, and stores the new running
  normaliser, the new running weighted sum and the new running maximum, each through the whole-buffer rectangle;
  the output block is not touched.  The pieces each scratch buffer ends with are what the run finds.
-/
import proofs.«151986_j46763603919067_2_alg».proof.Proof.BitsAttnRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the three scratch buffers at such a point, with the proof that on whole memrefs —
    the inputs' at their blocks, the output's at contents handed back untouched, the scratch buffers at what the
    point before left — the body runs to the continuation holding the inputs' and the output's as they were and each
    scratch buffer with its pieces written. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .i32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨?_, ?_, ?_, fun xi4 E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Hand

end
-- ==== Proof.BitsAttnRunA.lean ====
/-
  The attention call's body at a point whose key/value tile is the first: the first branch is taken, the second is
  not.  The three scratch buffers are first stored whole with the starting triple (maximum -∞, normaliser 0, weighted
  sum 0) and then read back, so what they held before does not matter; the rest is as at any other point, and the
  output block is not touched.  The pieces each scratch buffer ends with are what the run finds.
-/
import proofs.«151986_j46763603919067_2_alg».proof.Proof.BitsAttnRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the three scratch buffers at such a point, with the proof that on whole memrefs —
    the inputs' at their blocks, the output's at contents handed back untouched, the scratch buffers at anything — the
    body runs to the continuation holding the inputs' and the output's as they were and each scratch buffer with its
    pieces written. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .i32) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨?_, ?_, ?_, fun xi4 E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.Kernel.Hand

end
-- ==== Proof.BitsAttnRunC.lean ====
/-
  The attention call's body at a point whose key/value tile is the last: the first branch is not taken, the second
  is.  After the three scratch buffers are stored as at any other point, the new weighted sum and the new normaliser
  are read back and their row-by-row quotient is stored whole into the output block.  The pieces the output block and
  each scratch buffer end with are what the run finds.
-/
import proofs.«151986_j46763603919067_2_alg».proof.Proof.BitsAttnRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the output block and in the three scratch buffers at such a point, with the proof
    that on whole memrefs — the inputs' at their blocks, the output's at anything, the scratch buffers at what the
    point before left — the body runs to the continuation holding the inputs' as they were and the output's and each
    scratch buffer with its pieces written. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .i32) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.Kernel.Hand

end
-- ==== Proof.BitsAttnClean.lean ====
/-
  What the found pieces are.  In each control case every scratch buffer's last store goes through the whole-buffer
  rectangle, so what the buffer reads afterwards is that store's payload; the payload's arguments are loads through
  whole-buffer rectangles of whole memrefs, which read the contents (or, in the first-tile case, the starting triple
  just stored).  Hence each scratch buffer ends at the corresponding component of one streaming-softmax step, and in
  the last-tile case the output block ends at the quotient of the new weighted sum by the new normaliser.
-/
import proofs.«151986_j46763603919067_2_alg».proof.Proof.BitsAttnRunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem attn_hz2 : (![0, 0] : Fin 2 → ℕ) = fun _ => 0 := by funext a; fin_cases a <;> rfl
theorem attn_hz3 : (![0, 0, 0] : Fin 3 → ℕ) = fun _ => 0 := by funext a; fin_cases a <;> rfl

/-- The raw contents of a whole memref that read `X`, loaded through the whole-shape rectangle at zero offsets, read `X`. -/
theorem attn_rd_unit {S : Shape} {e : EltTy} {m : Memref sig .tc .vmem S e} (h : m.IsWhole) {off : Fin S.rank → ℕ} (hz : off = fun _ => 0)
    (inb : ∀ a, off a + S.size a ≤ S.size a) (X : S.Idx → Elt F e) :
    View.readAt (Elt F) m.view (Rect.unit off S.size inb).toLoadRect (h.unread X) = X :=
  (View.readAt_eq_ld m.view (h.unread X) _).trans
    ((congrArg (fun Y => View.ld Y (Rect.unit off S.size inb)) (h.read_unread X)).trans (View.ld_unit_zero hz inb X))

/-- Writes whose last goes through the whole-shape rectangle at zero offsets leave its payload, whatever the view,
    the prior contents and the earlier writes. -/
theorem attn_read_writes_unit_cons {S : Shape} {e : EltTy} {κ : Kind} {sp : Space} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero hz inb y⟩)).trans
    (View.canon_cons_unit_zero hz inb w L)

/-- A load through the whole-shape rectangle of what ONE store through it left reads the store's payload. -/
theorem attn_readCov_unit {S : Shape} {e : EltTy} {κ : Kind} {sp : Space} (v : View sig κ sp S e) {off : Fin S.rank → ℕ} (hz : off = fun _ => 0)
    (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero (Val := Elt F) v hz inb w

section Clean
variable {κ : Kind} {sp : Space}

/-! ## A middle tile: one step from what the point before left -/

theorem clean1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .i32) (s : Run3 F) (v : View sig κ sp S1024x1 .f32) (f : v.ty.Contents (Elt F)) :
    v.read (Elt F) (v.writes (Elt F) f (kernelRun1_B c i arg3 harg3 arg4 harg4 arg5 harg5 arg6 harg6 arg7 harg7 arg8 harg8 arg9 harg9 arg10 harg10 hc0 hc1 x0 x1 x2 x3 s.1 s.2.1 s.2.2).1) = (step1 x0 x1 x2 x3 s).1 := by
  unfold kernelRun1_B; dsimp only; sl_unfold_words
  rw [attn_rd_unit harg3 attn_hz3 _ x0, attn_rd_unit harg4 attn_hz3 _ x1, attn_rd_unit harg6 attn_hz3 _ x3, attn_rd_unit harg8 attn_hz2 _ s.1]
  exact attn_read_writes_unit_cons v f attn_hz2 _ _ _

theorem clean1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .i32) (s : Run3 F) (v : View sig κ sp S1024x1 .f32) (f : v.ty.Contents (Elt F)) :
    v.read (Elt F) (v.writes (Elt F) f (kernelRun1_B c i arg3 harg3 arg4 harg4 arg5 harg5 arg6 harg6 arg7 harg7 arg8 harg8 arg9 harg9 arg10 harg10 hc0 hc1 x0 x1 x2 x3 s.1 s.2.1 s.2.2).2.1) = (step1 x0 x1 x2 x3 s).2.1 := by
  unfold kernelRun1_B; dsimp only; sl_unfold_words
  rw [attn_rd_unit harg3 attn_hz3 _ x0, attn_rd_unit harg4 attn_hz3 _ x1, attn_rd_unit harg6 attn_hz3 _ x3, attn_rd_unit harg8 attn_hz2 _ s.1, attn_rd_unit harg9 attn_hz2 _ s.2.1]
  exact attn_read_writes_unit_cons v f attn_hz2 _ _ _

theorem clean1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .i32) (s : Run3 F) (v : View sig κ sp S1024x1024 .f32) (f : v.ty.Contents (Elt F)) :
    v.read (Elt F) (v.writes (Elt F) f (kernelRun1_B c i arg3 harg3 arg4 harg4 arg5 harg5 arg6 harg6 arg7 harg7 arg8 harg8 arg9 harg9 arg10 harg10 hc0 hc1 x0 x1 x2 x3 s.1 s.2.1 s.2.2).2.2.1) = (step1 x0 x1 x2 x3 s).2.2 := by
  unfold kernelRun1_B; dsimp only; sl_unfold_words
  rw [attn_rd_unit harg3 attn_hz3 _ x0, attn_rd_unit harg4 attn_hz3 _ x1, attn_rd_unit harg6 attn_hz3 _ x3, attn_rd_unit harg5 attn_hz3 _ x2, attn_rd_unit harg8 attn_hz2 _ s.1, attn_rd_unit harg10 attn_hz2 _ s.2.2]
  exact attn_read_writes_unit_cons v f attn_hz2 _ _ _

/-! ## The first tile: one step from the starting triple, which the body has just stored -/

theorem clean1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .i32) (v : View sig κ sp S1024x1 .f32) (f : v.ty.Contents (Elt F)) :
    v.read (Elt F) (v.writes (Elt F) f (kernelRun1_A c i arg3 harg3 arg4 harg4 arg5 harg5 arg6 harg6 arg7 harg7 arg8 harg8 arg9 harg9 arg10 harg10 hc0 hc1 x0 x1 x2 x3).1) = (step1 x0 x1 x2 x3 init1).1 := by
  unfold kernelRun1_A; dsimp only; sl_unfold_words
  rw [attn_rd_unit harg3 attn_hz3 _ x0, attn_rd_unit harg4 attn_hz3 _ x1, attn_rd_unit harg6 attn_hz3 _ x3, attn_readCov_unit arg8.view attn_hz2 _ k1_pay5]
  exact attn_read_writes_unit_cons v f attn_hz2 _ _ _

theorem clean1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .i32) (v : View sig κ sp S1024x1 .f32) (f : v.ty.Contents (Elt F)) :
    v.read (Elt F) (v.writes (Elt F) f (kernelRun1_A c i arg3 harg3 arg4 harg4 arg5 harg5 arg6 harg6 arg7 harg7 arg8 harg8 arg9 harg9 arg10 harg10 hc0 hc1 x0 x1 x2 x3).2.1) = (step1 x0 x1 x2 x3 init1).2.1 := by
  unfold kernelRun1_A; dsimp only; sl_unfold_words
  rw [attn_rd_unit harg3 attn_hz3 _ x0, attn_rd_unit harg4 attn_hz3 _ x1, attn_rd_unit harg6 attn_hz3 _ x3, attn_readCov_unit arg8.view attn_hz2 _ k1_pay5, attn_readCov_unit arg9.view attn_hz2 _ k1_pay6]
  exact attn_read_writes_unit_cons v f attn_hz2 _ _ _

theorem clean1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .i32) (v : View sig κ sp S1024x1024 .f32) (f : v.ty.Contents (Elt F)) :
    v.read (Elt F) (v.writes (Elt F) f (kernelRun1_A c i arg3 harg3 arg4 harg4 arg5 harg5 arg6 harg6 arg7 harg7 arg8 harg8 arg9 harg9 arg10 harg10 hc0 hc1 x0 x1 x2 x3).2.2.1) = (step1 x0 x1 x2 x3 init1).2.2 := by
  unfold kernelRun1_A; dsimp only; sl_unfold_words
  rw [attn_rd_unit harg3 attn_hz3 _ x0, attn_rd_unit harg4 attn_hz3 _ x1, attn_rd_unit harg6 attn_hz3 _ x3, attn_rd_unit harg5 attn_hz3 _ x2, attn_readCov_unit arg8.view attn_hz2 _ k1_pay5, attn_readCov_unit arg10.view attn_hz2 _ k1_pay7]
  exact attn_read_writes_unit_cons v f attn_hz2 _ _ _

/-! ## The last tile: one step from what the point before left, and the output block -/

theorem clean1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .i32) (s : Run3 F) (v : View sig κ sp S1024x1 .f32) (f : v.ty.Contents (Elt F)) :
    v.read (Elt F) (v.writes (Elt F) f (kernelRun1_C c i arg3 harg3 arg4 harg4 arg5 harg5 arg6 harg6 arg7 harg7 arg8 harg8 arg9 harg9 arg10 harg10 hc0 hc1 x0 x1 x2 x3 s.1 s.2.1 s.2.2).2.1) = (step1 x0 x1 x2 x3 s).1 := by
  unfold kernelRun1_C; dsimp only; sl_unfold_words
  rw [attn_rd_unit harg3 attn_hz3 _ x0, attn_rd_unit harg4 attn_hz3 _ x1, attn_rd_unit harg6 attn_hz3 _ x3, attn_rd_unit harg8 attn_hz2 _ s.1]
  exact attn_read_writes_unit_cons v f attn_hz2 _ _ _

theorem clean1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .i32) (s : Run3 F) (v : View sig κ sp S1024x1 .f32) (f : v.ty.Contents (Elt F)) :
    v.read (Elt F) (v.writes (Elt F) f (kernelRun1_C c i arg3 harg3 arg4 harg4 arg5 harg5 arg6 harg6 arg7 harg7 arg8 harg8 arg9 harg9 arg10 harg10 hc0 hc1 x0 x1 x2 x3 s.1 s.2.1 s.2.2).2.2.1) = (step1 x0 x1 x2 x3 s).2.1 := by
  unfold kernelRun1_C; dsimp only; sl_unfold_words
  rw [attn_rd_unit harg3 attn_hz3 _ x0, attn_rd_unit harg4 attn_hz3 _ x1, attn_rd_unit harg6 attn_hz3 _ x3, attn_rd_unit harg8 attn_hz2 _ s.1, attn_rd_unit harg9 attn_hz2 _ s.2.1]
  exact attn_read_writes_unit_cons v f attn_hz2 _ _ _

theorem clean1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .i32) (s : Run3 F) (v : View sig κ sp S1024x1024 .f32) (f : v.ty.Contents (Elt F)) :
    v.read (Elt F) (v.writes (Elt F) f (kernelRun1_C c i arg3 harg3 arg4 harg4 arg5 harg5 arg6 harg6 arg7 harg7 arg8 harg8 arg9 harg9 arg10 harg10 hc0 hc1 x0 x1 x2 x3 s.1 s.2.1 s.2.2).2.2.2.1) = (step1 x0 x1 x2 x3 s).2.2 := by
  unfold kernelRun1_C; dsimp only; sl_unfold_words
  rw [attn_rd_unit harg3 attn_hz3 _ x0, attn_rd_unit harg4 attn_hz3 _ x1, attn_rd_unit harg6 attn_hz3 _ x3, attn_rd_unit harg5 attn_hz3 _ x2, attn_rd_unit harg8 attn_hz2 _ s.1, attn_rd_unit harg10 attn_hz2 _ s.2.2]
  exact attn_read_writes_unit_cons v f attn_hz2 _ _ _

theorem clean1_C_4 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .i32) (s : Run3 F) (v : View sig κ sp S1x1024x1024 .f32) (f : v.ty.Contents (Elt F)) :
    v.read (Elt F) (v.writes (Elt F) f (kernelRun1_C c i arg3 harg3 arg4 harg4 arg5 harg5 arg6 harg6 arg7 harg7 arg8 harg8 arg9 harg9 arg10 harg10 hc0 hc1 x0 x1 x2 x3 s.1 s.2.1 s.2.2).1) = fin1 (step1 x0 x1 x2 x3 s) := by
  unfold kernelRun1_C; dsimp only; sl_unfold_words
  rw [attn_rd_unit harg3 attn_hz3 _ x0, attn_rd_unit harg4 attn_hz3 _ x1, attn_rd_unit harg6 attn_hz3 _ x3, attn_rd_unit harg5 attn_hz3 _ x2, attn_rd_unit harg8 attn_hz2 _ s.1, attn_rd_unit harg9 attn_hz2 _ s.2.1, attn_rd_unit harg10 attn_hz2 _ s.2.2,
    attn_readCov_unit arg10.view attn_hz2, attn_readCov_unit arg9.view attn_hz2]
  exact attn_read_writes_unit_cons v f attn_hz3 _ _ _

end Clean

end Cert.Kernel.Hand

end
-- ==== Proof.BitsAttnFrame.lean ====
/-
  The attention call's body obligation, at the contents `V` the region finds: at every grid point the body, run on
  the point's staging memrefs and the three scratch buffers, takes the invariant before the point to the invariant
  after it.  The output window is idle except at the last key/value tile, where the body stores the quotient of the
  new weighted sum by the new normaliser.
-/
import proofs.«151986_j46763603919067_2_alg».proof.Proof.BitsAttnData
import proofs.«151986_j46763603919067_2_alg».proof.Proof.BitsAttnClean

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
/-- The body at any point.  The inputs' memrefs hold their blocks; the closed forms of the two conditions say which
    control case the point is in; that case's run applies, the invariant handing it the three scratch buffers at what
    the position before left (at anything before the first position, and at a first tile, where they are overwritten
    before being read) and taking them back at this position's triple, each buffer's found pieces read back as the
    step's component; the output window is handed back untouched where idle and holds the quotient at a last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 32 := lt_of_lt_of_eq t.isLt (show cfg1.N = 32 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [scr1_first V c t h0]
    by_cases hz : t.val = 0
    · rw [PhiS1_castSucc V c t, PhiS1_zero V c _ _ hz, PhiA1_eq]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact clean1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
            isplitl [HS1]
            · unfold owns; iexists _; isplitr
              swap; · iexact HS1
              ipureintro; exact clean1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
            unfold owns; iexists _; isplitr
            swap; · iexact HS2
            ipureintro; exact clean1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%e0, HS0⟩, ⟨%e1, HS1⟩, ⟨%e2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact clean1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
            isplitl [HS1]
            · unfold owns; iexists _; isplitr
              swap; · iexact HS1
              ipureintro; exact clean1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
            unfold owns; iexists _; isplitr
            swap; · iexact HS2
            ipureintro; exact clean1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    have hc0 : ¬cond1_0 (grid1.coords t) := fun h => h0 ((hcond1_0 t).mp h)
    rw [scr1_next V c t h0]
    rw [PhiS1_castSucc V c t, PhiS1_pos V c _ _ hz]
    by_cases h1 : t.val % 4 = 3
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4, scr1_next V c t h0]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)).1 (scr1 V c (t.val - 1) (Nat.lt_of_le_of_lt (Nat.sub_le _ _) t.isLt)).2.1 (scr1 V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%e0, HS0⟩, ⟨%e1, HS1⟩, ⟨%e2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact clean1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
            isplitl [HS1]
            · unfold owns; iexists _; isplitr
              swap; · iexact HS1
              ipureintro; exact clean1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
            unfold owns; iexists _; isplitr
            swap; · iexact HS2
            ipureintro; exact clean1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact clean1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
    · have hc1 : ¬cond1_1 (grid1.coords t) := fun h => h1 ((hcond1_1 t).mp h)
      rw [Dat.leavesExact_idle (dat1 V c) 4 t (idleAt1_4 t hc1) (noFlush1_4 t hc1)]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)).1 (scr1 V c (t.val - 1) (Nat.lt_of_le_of_lt (Nat.sub_le _ _) t.isLt)).2.1 (scr1 V c (t.val - 1) (Nat.lt_of_le_of_lt (Nat.sub_le _ _) t.isLt)).2.2).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact clean1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
            isplitl [HS1]
            · unfold owns; iexists _; isplitr
              swap; · iexact HS1
              ipureintro; exact clean1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
            unfold owns; iexists _; isplitr
            swap; · iexact HS2
            ipureintro; exact clean1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position but the first the invariant gives the launch's back: the triple's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last position. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.BitsRun.lean ====
/-
  The whole run of the kernel's program: a stretch of host operations (the input flattened to rows, the three weights
  transposed, the biases made rows), the projection call over eight row blocks, three reshapes back to
  [batch, sequence, hidden], and the attention call over its 4 × 2 × 4 grid.  Between two of these items every buffer
  of the TensorCore outside the calls' scoped memory holds a named content: the launch memory, then each host stretch
  applied to it, then — after a call — the call's arrays at what its write-backs leave and every other buffer
  untouched.  The run ends with every such buffer at the last of these contents; from that, the argument arrays are
  read back as launched (no host operation and no write-back touches one) and the result buffer is read as the
  attention call's output array after its last grid point.
-/
import proofs.«151986_j46763603919067_2_alg».proof.Proof.BitsProjFrame
import proofs.«151986_j46763603919067_2_alg».proof.Proof.BitsAttnFrame
import proofs.«151986_j46763603919067_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev B0 : Dev nD → Valuation τ sig (Elt F) := fun c b => (s₀ m ρ).mem ((c : Dev nD), b)
/-- After the first host stretch: what the projection call is entered with. -/
abbrev B1 : Dev nD → Valuation τ sig (Elt F) := fun c => StableHlo.after hostOps0 (B0 m ρ c)
/-- The same, read at the TensorCore's references. -/
abbrev E1 : (c : Dev nD) → (b : Ref sig .tc) → Buf (Elt F) ((c : Thread nD τ).loc b) := fun c b => B1 m ρ c b
/-- After the projection call: its arrays at what its write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the three reshapes: what the attention call is entered with. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the attention call. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## A buffer nothing writes ends as launched -/

/-- A buffer that is no array of either call and that no host operation writes keeps its launch contents to the end. -/
theorem B4_bypass (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    B4 m ρ c (Proc.devRef .tc r) = m ((c : Thread nD τ).loc r) :=
  calc B4 m ρ c (Proc.devRef .tc r)
    _ = B3 m ρ c (Proc.devRef .tc r) := B4_of_ne m ρ c r h4
    _ = B2 m ρ c (Proc.devRef .tc r) := StableHlo.after_of_writes_sub hostOps1 _ hostOps1_writes h3
    _ = B1 m ρ c (Proc.devRef .tc r) := B2_of_ne m ρ c r h2
    _ = B0 m ρ c (Proc.devRef .tc r) := StableHlo.after_of_writes_sub hostOps0 _ hostOps0_writes h1
    _ = m ((c : Thread nD τ).loc r) := rfl

theorem B4_main_arg0 (c : Dev nD) : B4 m ρ c (Proc.devRef .tc main_arg0) = m ((c : Thread nD τ).loc main_arg0) :=
  B4_bypass m ρ c main_arg0 (by decide) (by decide) (by decide) (by decide)
theorem B4_main_arg2 (c : Dev nD) : B4 m ρ c (Proc.devRef .tc main_arg2) = m ((c : Thread nD τ).loc main_arg2) :=
  B4_bypass m ρ c main_arg2 (by decide) (by decide) (by decide) (by decide)
theorem B4_main_arg3 (c : Dev nD) : B4 m ρ c (Proc.devRef .tc main_arg3) = m ((c : Thread nD τ).loc main_arg3) :=
  B4_bypass m ρ c main_arg3 (by decide) (by decide) (by decide) (by decide)
theorem B4_main_arg4 (c : Dev nD) : B4 m ρ c (Proc.devRef .tc main_arg4) = m ((c : Thread nD τ).loc main_arg4) :=
  B4_bypass m ρ c main_arg4 (by decide) (by decide) (by decide) (by decide)
theorem B4_main_arg5 (c : Dev nD) : B4 m ρ c (Proc.devRef .tc main_arg5) = m ((c : Thread nD τ).loc main_arg5) :=
  B4_bypass m ρ c main_arg5 (by decide) (by decide) (by decide) (by decide)
theorem B4_main_arg6 (c : Dev nD) : B4 m ρ c (Proc.devRef .tc main_arg6) = m ((c : Thread nD τ).loc main_arg6) :=
  B4_bypass m ρ c main_arg6 (by decide) (by decide) (by decide) (by decide)
theorem B4_main_arg7 (c : Dev nD) : B4 m ρ c (Proc.devRef .tc main_arg7) = m ((c : Thread nD τ).loc main_arg7) :=
  B4_bypass m ρ c main_arg7 (by decide) (by decide) (by decide) (by decide)
/-- The mask is an INPUT array of the attention call: an input's array is never written back, and nothing before the
    call writes it. -/
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) :=
          (B4_arr m ρ c 3).trans (((dat1 (E3 m ρ) c).arrAt_in 3 rfl _).trans (A_eq1 (E3 m ρ) c 3))
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl
/-- The result buffer is the attention call's output array: it ends at what the call's write-backs leave. -/
theorem B4_main_v14 (c : Dev nD) : B4 m ρ c (Proc.devRef .tc main_v14) = (dat1 (E3 m ρ) c).arrAt 4 cfg1.N :=
  B4_arr m ρ c 4

/-! ## The proof data family and the thread state -/

/-- No call has a prefetched table. -/
abbrev noTables : (p : Fin 2) → (pcfgs (F := F) p).Adm := fun p => (cfgs p).toPCfg_adm
/-- Each call's proof data at its entry contents. -/
def pdat : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
abbrev 𝒱₀ : Variants := Variants.none
/-- No core owes another anything. -/
abbrev Lv : GSem nD τ sig → Finset Unit := fun _ => ∅
abbrev lvl : GSem nD τ sig → Unit → ℕ := fun _ _ => 0
/-- What rides beside the buffers through every item: the generator register at some state and the core owing nothing. -/
abbrev Rest (c : Dev nD) : sProp 𝕄 := iprop((∃ r, prngReg c r) ∗ ∃ W, owes (c : Thread nD τ) (0 : CellTallies nD τ sig Unit) W)
/-- A host stretch as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues. -/
abbrev Tend (c : Dev nD) : sProp 𝕄 := iprop(StableHlo.held (c : Thread nD τ) (Pipeline.ucRefs τ sig) (B4 m ρ c) ∗ ∃ r, prngReg c r)

/-! ## The two calls as segments -/

set_option backward.isDefEq.respectTransparency.types false in
/-- The projection call: entered with every unscoped buffer at `B1`, left at `B2`. Its arrays are split out of the
    unscoped buffers and put back at their final contents; the generator register goes into the call's invariant and
    comes back; nothing is owed; the kernel has no semaphore of its own. -/
def region0 : Pipeline.RegionSeg (pcfgs (F := F)) noTables (pdat m ρ) () defs₀ 𝒱₀ Lv lvl 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lv lvl 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (pdat m ρ) launch0.win launch0.arr_whole c
      ((pdat m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdat m ρ) ((pdat m ρ 0 c).share_full fun _ => rfl)
      (E1 m ρ c) (E2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered with every unscoped buffer at `B3`, left at `B4`. Its invariant starts as the plain one
    (every scratch at anything) and, after the last point, gives the plain one back (the scratches' named contents are
    forgotten). -/
def region1 : Pipeline.RegionSeg (pcfgs (F := F)) noTables (pdat m ρ) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lv lvl 1 fun _ _ => rfl
  pre c := iprop(StableHlo.held (c : Thread nD τ) (Pipeline.ucRefs τ sig) (B3 m ρ c) ∗ Rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (pdat m ρ) launch1.win launch1.arr_whole c
      ((pdat m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (E3 m ρ) c)
    unfold Pipeline.ΦA
    iintro ⟨Hp, -, Hr⟩
    isplitl [Hr]; · iexact Hr
    iexact Hp
  hout c := by
    rw [Pipeline.ownSems0_none]
    refine (hout1 (E3 m ρ) c).trans (?_ : Pipeline.ΦA spec1 c ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdat m ρ) ((pdat m ρ 1 c).share_full fun _ => rfl)
      (E3 m ρ c) (E4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

/-- The four items in order. -/
abbrev segments : List (Pipeline.Seg (pcfgs (F := F)) noTables (pdat m ρ) () defs₀ 𝒱₀ Lv lvl) :=
  [ .host (hostSeg hostOps0 hostOps0_sub hostOps0_fresh (B0 m ρ)),
    .region (region0 m ρ),
    .host (hostSeg hostOps1 hostOps1_sub hostOps1_fresh (B2 m ρ)),
    .region (region1 m ρ) ]
/-- The program IS the run of the four items. -/
theorem main_is_run (c : Dev nD) : main (F := F) c = Pipeline.Seg.run (segments m ρ) := (main_chain c).trans (by chain_rfl)

set_option backward.isDefEq.respectTransparency.types false in
/-- THE RUN. From any memory with zero counters every weakly fair execution of the program on the TensorCores
    terminates, nothing faulting, and in every final state each buffer outside the calls' scoped memory holds the last
    boundary's contents `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) noTables (pdat m ρ) () cellOf_inj emb₁ defs₀ 𝒱₀ Lv lvl m ρ main (segments m ρ)
    (fun c Q => by rw [main_is_run m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tend m ρ)
    (hch := ⟨fun _ => .rfl, fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The run with the result named and the arguments read back: the result buffer ends at the attention call's output
    array after its last grid point, every argument array as launched. -/
theorem run_named : θ_run defs (onTc (τ := τ) (main (F := F))) ⟨m, fun _ => 0, ρ⟩ (fun r => ∀ c : Dev nD,
      r.2.mem ((c.tc : Thread nD τ).loc main_v14) = (dat1 (E3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v14 (by decide))).trans (B4_main_v14 m ρ c),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c),
     (h c _ (mem_uc main_arg6 (by decide))).trans (B4_main_arg6 m ρ c),
     (h c _ (mem_uc main_arg7 (by decide))).trans (B4_main_arg7 m ρ c)⟩) (run_all m ρ)

/-- The frame: the program runs to the end and leaves its eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_named m ρ)

end Cert.Kernel.Hand

end
-- ==== Proof.IdealAttnStep.lean ====
/-
  One key/value tile of the streaming softmax, as pure functions of the tile's blocks and of the three running
  quantities the kernel keeps per query row: the running maximum `m`, the running normaliser `l` and the running
  weighted sum of value rows `acc`.  With scores `s = mask(q·kᵀ)·(1/32)` of the tile,
    m' = max m (rowmax s),   l' = exp(m - m')·l + Σ_k exp(s - m'),   acc' = exp(m - m')·acc + exp(s - m')·v,
  the first tile starting from m = -∞, l = 0, acc = 0, and the last tile's output being acc' / l'.
-/
import proofs.«151986_j46763603919067_2_alg».proof.Proof.Gen.KernelIdeal.Skeleton
import proofs.«151986_j46763603919067_2_alg».proof.Proof.Gen.KernelIdeal.Launch

noncomputable section

namespace Cert.KernelIdeal.Hand

open Idealize.ShloMosaic Idealize.ShloMosaic.TcCoe Idealize.SL.Sem Cert.KernelIdeal Cert.KernelIdeal.Gen

variable {F : FTy → Type} [FloatOps F]

/-- The running triple (maximum, normaliser, weighted sum) of a block of 1024 query rows. -/
abbrev Run3 (F : FTy → Type) [FloatOps F] : Type :=
  FVec F S1024x1 .f32 × FVec F S1024x1 .f32 × FVec F S1024x1024 .f32

/-- The triple before the first tile: maximum -∞, normaliser 0, weighted sum 0. -/
def init1 : Run3 F := (k1_pay5, k1_pay6, k1_pay7)

/-- One tile folded in: the new maximum, the rescaled normaliser plus the tile's weights, the rescaled weighted sum
    plus the tile's weights times its value rows. -/
def step1 (q : Vec F S1x1024x1024 .bf16) (k v : Vec F S1x512x1024 .bf16) (msk : Vec F S1x1024x512 .i32)
    (s : Run3 F) : Run3 F :=
  (k1_pay3 (k1_pay9 q k msk s.1),
   k1_pay1 (k1_pay12 q k msk s.1 s.1 s.2.1),
   k1_pay2 (k1_pay10 q k msk s.1 s.1) (k1_pay11 q k msk s.1) s.2.2 v)

/-- The output block after the last tile: the weighted sum over the normaliser, row by row. -/
def fin1 (s : Run3 F) : FVec F S1x1024x1024 .f32 := k1_pay4 s.2.2 s.2.1

/-! ## A window's block at a grid point, read off the array the region finds -/

section Blocks
variable (V : (c : Dev nD) → (b : Ref sig .tc) → Buf (Elt F) ((c : Thread nD τ).loc b))

/-- Window `w` of the projection call at point `t`: the block of its array that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of the attention call at point `t`: the block of its array that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Blocks

end Cert.KernelIdeal.Hand

end
-- ==== Proof.IdealProjBody.lean ====
/-
  The projection call's body as a triple.  The body reads the block of input rows, the three transposed weights and
  the three biases through the whole-buffer rectangle at the origin, and stores each of the three products
    y = bf16( bf16(x) · Wt + b )
  through the same rectangle into its output buffer, after a read of that buffer whose value is never used.  So
  whatever the output buffers held, each ends holding its payload of the input blocks, and the inputs are unchanged.
-/
import proofs.«151986_j46763603919067_2_alg».proof.Proof.Gen.KernelIdeal.Launch
import proofs.«151986_j46763603919067_2_alg».proof.Proof.Gen.KernelIdeal.Skeleton
import proofs.«151986_j46763603919067_2_alg».proof.Proof.Gen.KernelIdeal.Points
import proofs.«151986_j46763603919067_2_alg».proof.Proof.IdealAttnStep
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: the whole-buffer rectangle at the origin, per shape -/

abbrev rM : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- The origin of a rank-two shape, spelt as the programs spell it. -/
theorem zeros2 : (![0, 0] : Fin 2 → Nat) = fun _ => 0 := funext fun a => by fin_cases a <;> rfl

/-- A load through the whole-buffer rectangle reads the buffer. -/
theorem ld_rM {e : EltTy} (X : S1024x1024.Idx → Elt F e) : View.ld X rM = X :=
  View.ld_unit_zero (S := S1024x1024) zeros2 inb_S1024x1024_S1024x1024_0_0 X
theorem ld_rB {e : EltTy} (X : S1x1024.Idx → Elt F e) : View.ld X rB = X :=
  View.ld_unit_zero (S := S1x1024) zeros2 inb_S1x1024_S1x1024_0_0 X

/-- One store through the whole-buffer rectangle leaves its payload. -/
theorem canon_rM {e : EltTy} (w : S1024x1024.Idx → Elt F e) :
    View.canon [(⟨rM, w⟩ : View.Piece (Elt F) S1024x1024 e)] = w :=
  View.canon_unit_zero (S := S1024x1024) zeros2 inb_S1024x1024_S1024x1024_0_0 w

/-- The one store covers the buffer: every index lies in the whole-buffer rectangle. -/
theorem cover_rM {e : EltTy} (p0 : S1024x1024.Idx → Elt F e) (y : S1024x1024.Idx) :
    ∃ pc ∈ ([⟨rM, p0⟩] : List (View.Piece (Elt F) S1024x1024 e)), y ∈ pc.1.set :=
  View.cover_of_tiled [⟨rM, p0⟩] S1024x1024.size (by rfl) y

/-- A load through the whole-buffer rectangle, as the run states it of a view's raw contents, reads the view. -/
theorem readAt_rM {e : EltTy} (v : View sig .tc .vmem S1024x1024 e) (f : v.ty.Contents (Elt F)) :
    v.readAt (Elt F) rM.toLoadRect f = v.read (Elt F) f := ld_rM _
theorem readAt_rB {e : EltTy} (v : View sig .tc .vmem S1x1024 e) (f : v.ty.Contents (Elt F)) :
    v.readAt (Elt F) rB.toLoadRect f = v.read (Elt F) f := ld_rB _

/-! ## The body's triple -/

set_option maxHeartbeats 1000000 in
/-- The body on whole staging memrefs — the seven inputs at read contents `x0 … x6`, the three outputs at anything —
    runs to the continuation holding the inputs as they were and each output at its payload of the inputs:
    q from (x, Wq, bq), k from (x, Wk, bk), v from (x, Wv, bv). -/
theorem sound_kernel0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1024x1024 .bf16) (harg8 : arg8.IsWhole)
    (arg9 : Memref sig .tc .vmem S1024x1024 .bf16) (harg9 : arg9.IsWhole)
    (arg10 : Memref sig .tc .vmem S1024x1024 .bf16) (harg10 : arg10.IsWhole)
    (x0 : Vec F S1024x1024 .f32) (x1 x2 x3 : Vec F S1024x1024 .bf16) (x4 x5 x6 : Vec F S1x1024 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (k0_pay2 x0 x1 x4)
            ∗ owns (c : Thread nD τ) arg9 fullShare (k0_pay3 x0 x2 x5)
            ∗ owns (c : Thread nD τ) arg10 fullShare (k0_pay4 x0 x3 x6)) -∗ K ⟨⟩))
      ⊢ wp frame (wpE (defs₀ (F := F)) Variants.none c none) E
          (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_rM _)).trans ((canon_rM _).trans ?_)
    rw [readAt_rM, readAt_rM, readAt_rB]
  isplitl [H8]
  · iexists _; isplitr
    swap; · iexact H8
    ipureintro
    refine (View.read_writes_eq_canon _ _ _ (cover_rM _)).trans ((canon_rM _).trans ?_)
    rw [readAt_rM, readAt_rM, readAt_rB]
  · iexists _; isplitr
    swap; · iexact H9
    ipureintro
    refine (View.read_writes_eq_canon _ _ _ (cover_rM _)).trans ((canon_rM _).trans ?_)
    rw [readAt_rM, readAt_rM, readAt_rB]

end Cert.KernelIdeal.Hand

end
-- ==== Proof.IdealProjFrame.lean ====
/-
  REGION 0, the projection call, at the contents `V` the region finds: the pipeline's proof data and the body
  obligation.  Ten windows on a grid of eight points: window 0 the block of 1024 input rows of the point, windows 1–3
  the three transposed weights and 4–6 the three biases (whole, fetched at the first point only, so at every later
  point the staging buffer still holds the same whole array), windows 7–9 the blocks of q, k, v of the point, written
  back at every point.  After the body each input buffer holds its block, and each output buffer holds
    bf16( bf16(x) · Wt + b )
  of the point's input rows x with the matching weight and bias.
-/
import proofs.«151986_j46763603919067_2_alg».proof.Proof.Gen.KernelIdeal.Launch
import proofs.«151986_j46763603919067_2_alg».proof.Proof.Gen.KernelIdeal.Skeleton
import proofs.«151986_j46763603919067_2_alg».proof.Proof.Gen.KernelIdeal.Points
import proofs.«151986_j46763603919067_2_alg».proof.Proof.IdealAttnStep
import proofs.«151986_j46763603919067_2_alg».proof.Proof.IdealProjBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the projection pipeline on core `c`: the arrays as the region finds them; after the body at
    point `t` each input's buffer at its block and each output's at its payload of the input blocks (q from windows
    0, 1, 4; k from 0, 2, 5; v from 0, 3, 6); the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay2 (iblk0 V c 0 t) (iblk0 V c 1 t) (iblk0 V c 4 t)
    | ⟨8, _⟩ => k0_pay3 (iblk0 V c 0 t) (iblk0 V c 2 t) (iblk0 V c 5 t)
    | ⟨9, _⟩ => k0_pay4 (iblk0 V c 0 t) (iblk0 V c 3 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = k0_pay2 (iblk0 V c 0 t) (iblk0 V c 1 t) (iblk0 V c 4 t) := by dsimp only [dat0]
theorem after0_8 (c : Dev nD) (t : Fin cfg0.N) : (dat0 V c).after 8 t = k0_pay3 (iblk0 V c 0 t) (iblk0 V c 2 t) (iblk0 V c 5 t) := by dsimp only [dat0]
theorem after0_9 (c : Dev nD) (t : Fin cfg0.N) : (dat0 V c).after 9 t = k0_pay4 (iblk0 V c 0 t) (iblk0 V c 3 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealAttnRuns.lean ====
/-
  What the three control cases of the attention call's body share: its two branch conditions in closed form over the
  32 grid points (the first holds where the key/value tile coordinate is 0, the second where it is 3), where each
  window is idle or live, the staging memrefs the body is called with, the three scratch buffers the kernel carries
  between points (running maximum, running normaliser, running weighted sum) as whole memrefs, and the region
  invariant with those three buffers split off the rest of the core's scoped buffers.
-/
import proofs.«151986_j46763603919067_2_alg».proof.Proof.Gen.KernelIdeal.Launch
import proofs.«151986_j46763603919067_2_alg».proof.Proof.Gen.KernelIdeal.Skeleton
import proofs.«151986_j46763603919067_2_alg».proof.Proof.Gen.KernelIdeal.Points
import proofs.«151986_j46763603919067_2_alg».proof.Proof.IdealAttnStep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The first condition (the tile coordinate is 0: the three scratch buffers are initialised), from the grid
    coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second condition (the tile coordinate is 3: the output block is stored). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second condition fails the output window is idle, -/
theorem idleAt1_4 : ∀ t : Fin cfg1.N, ¬cond1_1 (grid1.coords t) → cfg1.idle 4 (grid1.coords t) = true := by decide +kernel
/-- and not written back; -/
theorem noFlush1_4 : ∀ t : Fin cfg1.N, ¬cond1_1 (grid1.coords t) → (cfg1.win 4).flush t = false := by decide +kernel
/-- where it holds the window is live. -/
theorem liveAt1_4 : ∀ t : Fin cfg1.N, cond1_1 (grid1.coords t) → cfg1.idle 4 (grid1.coords t) = false := by decide +kernel

/-! ## The memrefs the body is called with -/

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x1024 .f32 := win1_4.stage (cfg1.slots t 4)
abbrev hs1_4 (t : Fin cfg1.N) : (ms1_4 t).IsWhole := hstage1_4 ((cfg1.slots t 4).cast nbuf1_4)
/-- The running maximum's buffer, -/
abbrev scM1_0 : Memref sig .tc .vmem S1024x1 .f32 := Memref.whole cc1_scratch0
/-- the running normaliser's, -/
abbrev scM1_1 : Memref sig .tc .vmem S1024x1 .f32 := Memref.whole cc1_scratch1
/-- the running weighted sum's. -/
abbrev scM1_2 : Memref sig .tc .vmem S1024x1024 .f32 := Memref.whole cc1_scratch2

/-! ## The region invariant with the three scratch buffers split off -/

/-- Every other scoped buffer of the core, at some contents each, unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The invariant the launch hands the region: the three scratch buffers owned at some contents, the other scoped
    buffers, the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ restBut1 c) ∗ (∃ r, prngReg c r)) := by
  unfold Pipeline.ΦA
  rw [Pipeline.scopedRest_split_of_list spec1 c [cc1_scratch0, cc1_scratch1, cc1_scratch2] (by decide) (by decide)]
  simp only [scM1_0, scM1_1, scM1_2, owns_whole, bigSepL_cons_cons, bigSepL_singleton]; try rfl

end Cert.KernelIdeal.Hand

end
-- ==== Proof.IdealAttnData.lean ====
/-
  The attention call's proof data at the contents `V` the region finds.

  The kernel carries three scratch buffers between grid points: the running maximum, the running normaliser and the
  running weighted sum of one block of 1024 query rows.  `scr1` is what they hold after the body at each position
  of the grid, by the streaming-softmax recursion itself: one step from the starting triple where the key/value tile
  coordinate is 0, one step from what the position before left elsewhere.  The invariant before a position is the
  launch's before the first, and afterwards the three scratch buffers owned at `scr1` of the position before, with
  the core's other scoped buffers and the generator register untouched.
-/
import proofs.«151986_j46763603919067_2_alg».proof.Proof.IdealAttnRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' staging buffers hold their blocks -/

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The three running quantities after each position -/

/-- The running triple after the body at position `n`: one step of the streaming softmax over the position's blocks,
    from the starting triple where the tile coordinate is 0 and from the position before's triple elsewhere. -/
def scr1 (c : Dev nD) : (n : ℕ) → n < cfg1.N → Run3 F
  | 0, hn => step1 (iblk1 V c 0 ⟨0, hn⟩) (iblk1 V c 1 ⟨0, hn⟩) (iblk1 V c 2 ⟨0, hn⟩) (iblk1 V c 3 ⟨0, hn⟩) init1
  | n + 1, hn =>
    if (n + 1) % 4 = 0 then
      step1 (iblk1 V c 0 ⟨n + 1, hn⟩) (iblk1 V c 1 ⟨n + 1, hn⟩) (iblk1 V c 2 ⟨n + 1, hn⟩) (iblk1 V c 3 ⟨n + 1, hn⟩) init1
    else
      step1 (iblk1 V c 0 ⟨n + 1, hn⟩) (iblk1 V c 1 ⟨n + 1, hn⟩) (iblk1 V c 2 ⟨n + 1, hn⟩) (iblk1 V c 3 ⟨n + 1, hn⟩) (scr1 c n (Nat.lt_of_succ_lt hn))

/-- At a first tile: one step from the starting triple. -/
theorem scr1_first (c : Dev nD) (t : Fin cfg1.N) (h : t.val % 4 = 0) :
    scr1 V c t.val t.isLt = step1 (iblk1 V c 0 t) (iblk1 V c 1 t) (iblk1 V c 2 t) (iblk1 V c 3 t) init1 := by
  obtain ⟨n, hn⟩ := t
  cases n with
  | zero => exact rfl
  | succ n => exact (if_pos h).trans rfl

/-- At any other tile: one step from what the position before left. -/
theorem scr1_next (c : Dev nD) (t : Fin cfg1.N) (h : t.val % 4 ≠ 0) :
    scr1 V c t.val t.isLt = step1 (iblk1 V c 0 t) (iblk1 V c 1 t) (iblk1 V c 2 t) (iblk1 V c 3 t) (scr1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant -/

/-- Before position `n`: the launch's invariant before the first; afterwards the three scratch buffers owned at the
    triple the position before left, the core's other scoped buffers, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (scr1 V c n hn).1 ∗ owns (c : Thread nD τ) scM1_1 fullShare (scr1 V c n hn).2.1 ∗ owns (c : Thread nD τ) scM1_2 fullShare (scr1 V c n hn).2.2)
      ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (scr1 V c n hn).1 ∗ owns (c : Thread nD τ) scM1_1 fullShare (scr1 V c n hn).2.1 ∗ owns (c : Thread nD τ) scM1_2 fullShare (scr1 V c n hn).2.2)
      ∗ restBut1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (scr1 V c (n - 1) (by omega)).1 ∗ owns (c : Thread nD τ) scM1_1 fullShare (scr1 V c (n - 1) (by omega)).2.1 ∗ owns (c : Thread nD τ) scM1_2 fullShare (scr1 V c (n - 1) (by omega)).2.2)
      ∗ restBut1 c) ∗ (∃ r, prngReg c r)) := by
  cases n with
  | zero => exact absurd rfl hz
  | succ n => rfl

/-! ## The proof data -/

/-- The attention call's proof data on core `c`: the arrays as the region finds them; after the body each input's
    buffer at its block and the output's at the quotient of the position's weighted sum by its normaliser (consulted
    at the last tile only: elsewhere the window is idle); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => fin1 (scr1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = fin1 (scr1 V c t.val t.isLt) := by dsimp only [dat1]

/-- At a last tile the output block is the quotient of that position's weighted sum by its normaliser. -/
theorem after1_4_last (c : Dev nD) (t : Fin cfg1.N) (h : t.val % 4 = 3) : (dat1 V c).after 4 t = fin1 (scr1 V c t.val t.isLt) :=
  after1_4 V c t

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

end Cert.KernelIdeal.Hand

end
-- ==== Proof.IdealAttnRunB.lean ====
/-
  The attention call's body at a point whose key/value tile is neither the first nor the last: neither branch is
  taken.  The body reads the four input blocks and the three running quantities, and stores the new running
  normaliser, the new running weighted sum and the new running maximum, each through the whole-buffer rectangle;
  the output block is not touched.  The pieces each scratch buffer ends with are what the run finds.
-/
import proofs.«151986_j46763603919067_2_alg».proof.Proof.IdealAttnRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the three scratch buffers at such a point, with the proof that on whole memrefs —
    the inputs' at their blocks, the output's at contents handed back untouched, the scratch buffers at what the
    point before left — the body runs to the continuation holding the inputs' and the output's as they were and each
    scratch buffer with its pieces written. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .i32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨?_, ?_, ?_, fun xi4 E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.IdealAttnRunA.lean ====
/-
  The attention call's body at a point whose key/value tile is the first: the first branch is taken, the second is
  not.  The three scratch buffers are first stored whole with the starting triple (maximum -∞, normaliser 0, weighted
  sum 0) and then read back, so what they held before does not matter; the rest is as at any other point, and the
  output block is not touched.  The pieces each scratch buffer ends with are what the run finds.
-/
import proofs.«151986_j46763603919067_2_alg».proof.Proof.IdealAttnRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the three scratch buffers at such a point, with the proof that on whole memrefs —
    the inputs' at their blocks, the output's at contents handed back untouched, the scratch buffers at anything — the
    body runs to the continuation holding the inputs' and the output's as they were and each scratch buffer with its
    pieces written. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .i32) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨?_, ?_, ?_, fun xi4 E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    iexists _; iexact HS2

end Cert.KernelIdeal.Hand

end
-- ==== Proof.IdealAttnRunC.lean ====
/-
  The attention call's body at a point whose key/value tile is the last: the first branch is not taken, the second
  is.  After the three scratch buffers are stored as at any other point, the new weighted sum and the new normaliser
  are read back and their row-by-row quotient is stored whole into the output block.  The pieces the output block and
  each scratch buffer end with are what the run finds.
-/
import proofs.«151986_j46763603919067_2_alg».proof.Proof.IdealAttnRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the output block and in the three scratch buffers at such a point, with the proof
    that on whole memrefs — the inputs' at their blocks, the output's at anything, the scratch buffers at what the
    point before left — the body runs to the continuation holding the inputs' as they were and the output's and each
    scratch buffer with its pieces written. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .i32) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.IdealAttnClean.lean ====
/-
  What the found pieces are.  In each control case every scratch buffer's last store goes through the whole-buffer
  rectangle, so what the buffer reads afterwards is that store's payload; the payload's arguments are loads through
  whole-buffer rectangles of whole memrefs, which read the contents (or, in the first-tile case, the starting triple
  just stored).  Hence each scratch buffer ends at the corresponding component of one streaming-softmax step, and in
  the last-tile case the output block ends at the quotient of the new weighted sum by the new normaliser.
-/
import proofs.«151986_j46763603919067_2_alg».proof.Proof.IdealAttnRunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem attn_hz2 : (![0, 0] : Fin 2 → ℕ) = fun _ => 0 := by funext a; fin_cases a <;> rfl
theorem attn_hz3 : (![0, 0, 0] : Fin 3 → ℕ) = fun _ => 0 := by funext a; fin_cases a <;> rfl

/-- The raw contents of a whole memref that read `X`, loaded through the whole-shape rectangle at zero offsets, read `X`. -/
theorem attn_rd_unit {S : Shape} {e : EltTy} {m : Memref sig .tc .vmem S e} (h : m.IsWhole) {off : Fin S.rank → ℕ} (hz : off = fun _ => 0)
    (inb : ∀ a, off a + S.size a ≤ S.size a) (X : S.Idx → Elt F e) :
    View.readAt (Elt F) m.view (Rect.unit off S.size inb).toLoadRect (h.unread X) = X :=
  (View.readAt_eq_ld m.view (h.unread X) _).trans
    ((congrArg (fun Y => View.ld Y (Rect.unit off S.size inb)) (h.read_unread X)).trans (View.ld_unit_zero hz inb X))

/-- Writes whose last goes through the whole-shape rectangle at zero offsets leave its payload, whatever the view,
    the prior contents and the earlier writes. -/
theorem attn_read_writes_unit_cons {S : Shape} {e : EltTy} {κ : Kind} {sp : Space} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons.mpr (Or.inl rfl), View.mem_set_unit_zero hz inb y⟩)).trans
    (View.canon_cons_unit_zero hz inb w L)

/-- A load through the whole-shape rectangle of what ONE store through it left reads the store's payload. -/
theorem attn_readCov_unit {S : Shape} {e : EltTy} {κ : Kind} {sp : Space} (v : View sig κ sp S e) {off : Fin S.rank → ℕ} (hz : off = fun _ => 0)
    (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero (Val := Elt F) v hz inb w

section Clean
variable {κ : Kind} {sp : Space}

/-! ## A middle tile: one step from what the point before left -/

theorem clean1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .i32) (s : Run3 F) (v : View sig κ sp S1024x1 .f32) (f : v.ty.Contents (Elt F)) :
    v.read (Elt F) (v.writes (Elt F) f (kernelRun1_B c i arg3 harg3 arg4 harg4 arg5 harg5 arg6 harg6 arg7 harg7 arg8 harg8 arg9 harg9 arg10 harg10 hc0 hc1 x0 x1 x2 x3 s.1 s.2.1 s.2.2).1) = (step1 x0 x1 x2 x3 s).1 := by
  unfold kernelRun1_B; dsimp only; sl_unfold_words
  rw [attn_rd_unit harg3 attn_hz3 _ x0, attn_rd_unit harg4 attn_hz3 _ x1, attn_rd_unit harg6 attn_hz3 _ x3, attn_rd_unit harg8 attn_hz2 _ s.1]
  exact attn_read_writes_unit_cons v f attn_hz2 _ _ _

theorem clean1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .i32) (s : Run3 F) (v : View sig κ sp S1024x1 .f32) (f : v.ty.Contents (Elt F)) :
    v.read (Elt F) (v.writes (Elt F) f (kernelRun1_B c i arg3 harg3 arg4 harg4 arg5 harg5 arg6 harg6 arg7 harg7 arg8 harg8 arg9 harg9 arg10 harg10 hc0 hc1 x0 x1 x2 x3 s.1 s.2.1 s.2.2).2.1) = (step1 x0 x1 x2 x3 s).2.1 := by
  unfold kernelRun1_B; dsimp only; sl_unfold_words
  rw [attn_rd_unit harg3 attn_hz3 _ x0, attn_rd_unit harg4 attn_hz3 _ x1, attn_rd_unit harg6 attn_hz3 _ x3, attn_rd_unit harg8 attn_hz2 _ s.1, attn_rd_unit harg9 attn_hz2 _ s.2.1]
  exact attn_read_writes_unit_cons v f attn_hz2 _ _ _

theorem clean1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .i32) (s : Run3 F) (v : View sig κ sp S1024x1024 .f32) (f : v.ty.Contents (Elt F)) :
    v.read (Elt F) (v.writes (Elt F) f (kernelRun1_B c i arg3 harg3 arg4 harg4 arg5 harg5 arg6 harg6 arg7 harg7 arg8 harg8 arg9 harg9 arg10 harg10 hc0 hc1 x0 x1 x2 x3 s.1 s.2.1 s.2.2).2.2.1) = (step1 x0 x1 x2 x3 s).2.2 := by
  unfold kernelRun1_B; dsimp only; sl_unfold_words
  rw [attn_rd_unit harg3 attn_hz3 _ x0, attn_rd_unit harg4 attn_hz3 _ x1, attn_rd_unit harg6 attn_hz3 _ x3, attn_rd_unit harg5 attn_hz3 _ x2, attn_rd_unit harg8 attn_hz2 _ s.1, attn_rd_unit harg10 attn_hz2 _ s.2.2]
  exact attn_read_writes_unit_cons v f attn_hz2 _ _ _

/-! ## The first tile: one step from the starting triple, which the body has just stored -/

theorem clean1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .i32) (v : View sig κ sp S1024x1 .f32) (f : v.ty.Contents (Elt F)) :
    v.read (Elt F) (v.writes (Elt F) f (kernelRun1_A c i arg3 harg3 arg4 harg4 arg5 harg5 arg6 harg6 arg7 harg7 arg8 harg8 arg9 harg9 arg10 harg10 hc0 hc1 x0 x1 x2 x3).1) = (step1 x0 x1 x2 x3 init1).1 := by
  unfold kernelRun1_A; dsimp only; sl_unfold_words
  rw [attn_rd_unit harg3 attn_hz3 _ x0, attn_rd_unit harg4 attn_hz3 _ x1, attn_rd_unit harg6 attn_hz3 _ x3, attn_readCov_unit arg8.view attn_hz2 _ k1_pay5]
  exact attn_read_writes_unit_cons v f attn_hz2 _ _ _

theorem clean1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .i32) (v : View sig κ sp S1024x1 .f32) (f : v.ty.Contents (Elt F)) :
    v.read (Elt F) (v.writes (Elt F) f (kernelRun1_A c i arg3 harg3 arg4 harg4 arg5 harg5 arg6 harg6 arg7 harg7 arg8 harg8 arg9 harg9 arg10 harg10 hc0 hc1 x0 x1 x2 x3).2.1) = (step1 x0 x1 x2 x3 init1).2.1 := by
  unfold kernelRun1_A; dsimp only; sl_unfold_words
  rw [attn_rd_unit harg3 attn_hz3 _ x0, attn_rd_unit harg4 attn_hz3 _ x1, attn_rd_unit harg6 attn_hz3 _ x3, attn_readCov_unit arg8.view attn_hz2 _ k1_pay5, attn_readCov_unit arg9.view attn_hz2 _ k1_pay6]
  exact attn_read_writes_unit_cons v f attn_hz2 _ _ _

theorem clean1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .i32) (v : View sig κ sp S1024x1024 .f32) (f : v.ty.Contents (Elt F)) :
    v.read (Elt F) (v.writes (Elt F) f (kernelRun1_A c i arg3 harg3 arg4 harg4 arg5 harg5 arg6 harg6 arg7 harg7 arg8 harg8 arg9 harg9 arg10 harg10 hc0 hc1 x0 x1 x2 x3).2.2.1) = (step1 x0 x1 x2 x3 init1).2.2 := by
  unfold kernelRun1_A; dsimp only; sl_unfold_words
  rw [attn_rd_unit harg3 attn_hz3 _ x0, attn_rd_unit harg4 attn_hz3 _ x1, attn_rd_unit harg6 attn_hz3 _ x3, attn_rd_unit harg5 attn_hz3 _ x2, attn_readCov_unit arg8.view attn_hz2 _ k1_pay5, attn_readCov_unit arg10.view attn_hz2 _ k1_pay7]
  exact attn_read_writes_unit_cons v f attn_hz2 _ _ _

/-! ## The last tile: one step from what the point before left, and the output block -/

theorem clean1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .i32) (s : Run3 F) (v : View sig κ sp S1024x1 .f32) (f : v.ty.Contents (Elt F)) :
    v.read (Elt F) (v.writes (Elt F) f (kernelRun1_C c i arg3 harg3 arg4 harg4 arg5 harg5 arg6 harg6 arg7 harg7 arg8 harg8 arg9 harg9 arg10 harg10 hc0 hc1 x0 x1 x2 x3 s.1 s.2.1 s.2.2).2.1) = (step1 x0 x1 x2 x3 s).1 := by
  unfold kernelRun1_C; dsimp only; sl_unfold_words
  rw [attn_rd_unit harg3 attn_hz3 _ x0, attn_rd_unit harg4 attn_hz3 _ x1, attn_rd_unit harg6 attn_hz3 _ x3, attn_rd_unit harg8 attn_hz2 _ s.1]
  exact attn_read_writes_unit_cons v f attn_hz2 _ _ _

theorem clean1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .i32) (s : Run3 F) (v : View sig κ sp S1024x1 .f32) (f : v.ty.Contents (Elt F)) :
    v.read (Elt F) (v.writes (Elt F) f (kernelRun1_C c i arg3 harg3 arg4 harg4 arg5 harg5 arg6 harg6 arg7 harg7 arg8 harg8 arg9 harg9 arg10 harg10 hc0 hc1 x0 x1 x2 x3 s.1 s.2.1 s.2.2).2.2.1) = (step1 x0 x1 x2 x3 s).2.1 := by
  unfold kernelRun1_C; dsimp only; sl_unfold_words
  rw [attn_rd_unit harg3 attn_hz3 _ x0, attn_rd_unit harg4 attn_hz3 _ x1, attn_rd_unit harg6 attn_hz3 _ x3, attn_rd_unit harg8 attn_hz2 _ s.1, attn_rd_unit harg9 attn_hz2 _ s.2.1]
  exact attn_read_writes_unit_cons v f attn_hz2 _ _ _

theorem clean1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .i32) (s : Run3 F) (v : View sig κ sp S1024x1024 .f32) (f : v.ty.Contents (Elt F)) :
    v.read (Elt F) (v.writes (Elt F) f (kernelRun1_C c i arg3 harg3 arg4 harg4 arg5 harg5 arg6 harg6 arg7 harg7 arg8 harg8 arg9 harg9 arg10 harg10 hc0 hc1 x0 x1 x2 x3 s.1 s.2.1 s.2.2).2.2.2.1) = (step1 x0 x1 x2 x3 s).2.2 := by
  unfold kernelRun1_C; dsimp only; sl_unfold_words
  rw [attn_rd_unit harg3 attn_hz3 _ x0, attn_rd_unit harg4 attn_hz3 _ x1, attn_rd_unit harg6 attn_hz3 _ x3, attn_rd_unit harg5 attn_hz3 _ x2, attn_rd_unit harg8 attn_hz2 _ s.1, attn_rd_unit harg10 attn_hz2 _ s.2.2]
  exact attn_read_writes_unit_cons v f attn_hz2 _ _ _

theorem clean1_C_4 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .i32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .i32) (s : Run3 F) (v : View sig κ sp S1x1024x1024 .f32) (f : v.ty.Contents (Elt F)) :
    v.read (Elt F) (v.writes (Elt F) f (kernelRun1_C c i arg3 harg3 arg4 harg4 arg5 harg5 arg6 harg6 arg7 harg7 arg8 harg8 arg9 harg9 arg10 harg10 hc0 hc1 x0 x1 x2 x3 s.1 s.2.1 s.2.2).1) = fin1 (step1 x0 x1 x2 x3 s) := by
  unfold kernelRun1_C; dsimp only; sl_unfold_words
  rw [attn_rd_unit harg3 attn_hz3 _ x0, attn_rd_unit harg4 attn_hz3 _ x1, attn_rd_unit harg6 attn_hz3 _ x3, attn_rd_unit harg5 attn_hz3 _ x2, attn_rd_unit harg8 attn_hz2 _ s.1, attn_rd_unit harg9 attn_hz2 _ s.2.1, attn_rd_unit harg10 attn_hz2 _ s.2.2,
    attn_readCov_unit arg10.view attn_hz2, attn_readCov_unit arg9.view attn_hz2]
  exact attn_read_writes_unit_cons v f attn_hz3 _ _ _

end Clean

end Cert.KernelIdeal.Hand

end
-- ==== Proof.IdealAttnFrame.lean ====
/-
  The attention call's body obligation, at the contents `V` the region finds: at every grid point the body, run on
  the point's staging memrefs and the three scratch buffers, takes the invariant before the point to the invariant
  after it.  The output window is idle except at the last key/value tile, where the body stores the quotient of the
  new weighted sum by the new normaliser.
-/
import proofs.«151986_j46763603919067_2_alg».proof.Proof.IdealAttnData
import proofs.«151986_j46763603919067_2_alg».proof.Proof.IdealAttnClean

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4800000 in
/-- The body at any point.  The inputs' memrefs hold their blocks; the closed forms of the two conditions say which
    control case the point is in; that case's run applies, the invariant handing it the three scratch buffers at what
    the position before left (at anything before the first position, and at a first tile, where they are overwritten
    before being read) and taking them back at this position's triple, each buffer's found pieces read back as the
    step's component; the output window is handed back untouched where idle and holds the quotient at a last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 32 := lt_of_lt_of_eq t.isLt (show cfg1.N = 32 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [scr1_first V c t h0]
    by_cases hz : t.val = 0
    · rw [PhiS1_castSucc V c t, PhiS1_zero V c _ _ hz, PhiA1_eq]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact clean1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
            isplitl [HS1]
            · unfold owns; iexists _; isplitr
              swap; · iexact HS1
              ipureintro; exact clean1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
            unfold owns; iexists _; isplitr
            swap; · iexact HS2
            ipureintro; exact clean1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%e0, HS0⟩, ⟨%e1, HS1⟩, ⟨%e2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact clean1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
            isplitl [HS1]
            · unfold owns; iexists _; isplitr
              swap; · iexact HS1
              ipureintro; exact clean1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
            unfold owns; iexists _; isplitr
            swap; · iexact HS2
            ipureintro; exact clean1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) _ _
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    have hc0 : ¬cond1_0 (grid1.coords t) := fun h => h0 ((hcond1_0 t).mp h)
    rw [scr1_next V c t h0]
    rw [PhiS1_castSucc V c t, PhiS1_pos V c _ _ hz]
    by_cases h1 : t.val % 4 = 3
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4, scr1_next V c t h0]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)).1 (scr1 V c (t.val - 1) (Nat.lt_of_le_of_lt (Nat.sub_le _ _) t.isLt)).2.1 (scr1 V c (t.val - 1) (Nat.lt_of_le_of_lt (Nat.sub_le _ _) t.isLt)).2.2).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%e0, HS0⟩, ⟨%e1, HS1⟩, ⟨%e2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact clean1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
            isplitl [HS1]
            · unfold owns; iexists _; isplitr
              swap; · iexact HS1
              ipureintro; exact clean1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
            unfold owns; iexists _; isplitr
            swap; · iexact HS2
            ipureintro; exact clean1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact clean1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
    · have hc1 : ¬cond1_1 (grid1.coords t) := fun h => h1 ((hcond1_1 t).mp h)
      rw [Dat.leavesExact_idle (dat1 V c) 4 t (idleAt1_4 t hc1) (noFlush1_4 t hc1)]
      iintro ⟨⟨⟨⟨HS0, HS1, HS2⟩, HR⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)).1 (scr1 V c (t.val - 1) (Nat.lt_of_le_of_lt (Nat.sub_le _ _) t.isLt)).2.1 (scr1 V c (t.val - 1) (Nat.lt_of_le_of_lt (Nat.sub_le _ _) t.isLt)).2.2).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 HR Hg]
      · isplitl [HS0 HS1 HS2 HR]
        · isplitl [HS0 HS1 HS2]
          · isplitl [HS0]
            · unfold owns; iexists _; isplitr
              swap; · iexact HS0
              ipureintro; exact clean1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
            isplitl [HS1]
            · unfold owns; iexists _; isplitr
              swap; · iexact HS1
              ipureintro; exact clean1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
            unfold owns; iexists _; isplitr
            swap; · iexact HS2
            ipureintro; exact clean1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) hc0 hc1 (iblk1 V c 0 t) (iblk1 V c 1 t) (iblk1 V c 2 t) (iblk1 V c 3 t) (scr1 V c (t.val - 1) (Nat.lt_of_le_of_lt (Nat.sub_le _ _) t.isLt)) _ _
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first position. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any position but the first the invariant gives the launch's back: the triple's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last position. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.IdealRun.lean ====
/-
  The whole run of the kernel's program: a stretch of host operations (the input flattened to rows, the three weights
  transposed, the biases made rows), the projection call over eight row blocks, three reshapes back to
  [batch, sequence, hidden], and the attention call over its 4 × 2 × 4 grid.  Between two of these items every buffer
  of the TensorCore outside the calls' scoped memory holds a named content: the launch memory, then each host stretch
  applied to it, then — after a call — the call's arrays at what its write-backs leave and every other buffer
  untouched.  The run ends with every such buffer at the last of these contents; from that, the argument arrays are
  read back as launched (no host operation and no write-back touches one) and the result buffer is read as the
  attention call's output array after its last grid point.
-/
import proofs.«151986_j46763603919067_2_alg».proof.Proof.IdealProjFrame
import proofs.«151986_j46763603919067_2_alg».proof.Proof.IdealAttnFrame
import proofs.«151986_j46763603919067_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev B0 : Dev nD → Valuation τ sig (Elt F) := fun c b => (s₀ m ρ).mem ((c : Dev nD), b)
/-- After the first host stretch: what the projection call is entered with. -/
abbrev B1 : Dev nD → Valuation τ sig (Elt F) := fun c => StableHlo.after hostOps0 (B0 m ρ c)
/-- The same, read at the TensorCore's references. -/
abbrev E1 : (c : Dev nD) → (b : Ref sig .tc) → Buf (Elt F) ((c : Thread nD τ).loc b) := fun c b => B1 m ρ c b
/-- After the projection call: its arrays at what its write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the three reshapes: what the attention call is entered with. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- After the attention call. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-! ## A buffer nothing writes ends as launched -/

/-- A buffer that is no array of either call and that no host operation writes keeps its launch contents to the end. -/
theorem B4_bypass (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    B4 m ρ c (Proc.devRef .tc r) = m ((c : Thread nD τ).loc r) :=
  calc B4 m ρ c (Proc.devRef .tc r)
    _ = B3 m ρ c (Proc.devRef .tc r) := B4_of_ne m ρ c r h4
    _ = B2 m ρ c (Proc.devRef .tc r) := StableHlo.after_of_writes_sub hostOps1 _ hostOps1_writes h3
    _ = B1 m ρ c (Proc.devRef .tc r) := B2_of_ne m ρ c r h2
    _ = B0 m ρ c (Proc.devRef .tc r) := StableHlo.after_of_writes_sub hostOps0 _ hostOps0_writes h1
    _ = m ((c : Thread nD τ).loc r) := rfl

theorem B4_main_arg0 (c : Dev nD) : B4 m ρ c (Proc.devRef .tc main_arg0) = m ((c : Thread nD τ).loc main_arg0) :=
  B4_bypass m ρ c main_arg0 (by decide) (by decide) (by decide) (by decide)
theorem B4_main_arg2 (c : Dev nD) : B4 m ρ c (Proc.devRef .tc main_arg2) = m ((c : Thread nD τ).loc main_arg2) :=
  B4_bypass m ρ c main_arg2 (by decide) (by decide) (by decide) (by decide)
theorem B4_main_arg3 (c : Dev nD) : B4 m ρ c (Proc.devRef .tc main_arg3) = m ((c : Thread nD τ).loc main_arg3) :=
  B4_bypass m ρ c main_arg3 (by decide) (by decide) (by decide) (by decide)
theorem B4_main_arg4 (c : Dev nD) : B4 m ρ c (Proc.devRef .tc main_arg4) = m ((c : Thread nD τ).loc main_arg4) :=
  B4_bypass m ρ c main_arg4 (by decide) (by decide) (by decide) (by decide)
theorem B4_main_arg5 (c : Dev nD) : B4 m ρ c (Proc.devRef .tc main_arg5) = m ((c : Thread nD τ).loc main_arg5) :=
  B4_bypass m ρ c main_arg5 (by decide) (by decide) (by decide) (by decide)
theorem B4_main_arg6 (c : Dev nD) : B4 m ρ c (Proc.devRef .tc main_arg6) = m ((c : Thread nD τ).loc main_arg6) :=
  B4_bypass m ρ c main_arg6 (by decide) (by decide) (by decide) (by decide)
theorem B4_main_arg7 (c : Dev nD) : B4 m ρ c (Proc.devRef .tc main_arg7) = m ((c : Thread nD τ).loc main_arg7) :=
  B4_bypass m ρ c main_arg7 (by decide) (by decide) (by decide) (by decide)
/-- The mask is an INPUT array of the attention call: an input's array is never written back, and nothing before the
    call writes it. -/
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) :=
          (B4_arr m ρ c 3).trans (((dat1 (E3 m ρ) c).arrAt_in 3 rfl _).trans (A_eq1 (E3 m ρ) c 3))
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl
/-- The result buffer is the attention call's output array: it ends at what the call's write-backs leave. -/
theorem B4_main_v14 (c : Dev nD) : B4 m ρ c (Proc.devRef .tc main_v14) = (dat1 (E3 m ρ) c).arrAt 4 cfg1.N :=
  B4_arr m ρ c 4

/-! ## The proof data family and the thread state -/

/-- No call has a prefetched table. -/
abbrev noTables : (p : Fin 2) → (pcfgs (F := F) p).Adm := fun p => (cfgs p).toPCfg_adm
/-- Each call's proof data at its entry contents. -/
def pdat : (p : Fin 2) → (c : Dev nD) → Dat τ (Elt F) Unit ℕ (UR sig nD τ) ℕ (Pipeline.pin (pcfgs (F := F)) noTables p) c
  | ⟨0, _⟩ => fun c => dat0 (E1 m ρ) c
  | ⟨1, _⟩ => fun c => dat1 (E3 m ρ) c
abbrev 𝒱₀ : Variants := Variants.none
/-- No core owes another anything. -/
abbrev Lv : GSem nD τ sig → Finset Unit := fun _ => ∅
abbrev lvl : GSem nD τ sig → Unit → ℕ := fun _ _ => 0
/-- What rides beside the buffers through every item: the generator register at some state and the core owing nothing. -/
abbrev Rest (c : Dev nD) : sProp 𝕄 := iprop((∃ r, prngReg c r) ∗ ∃ W, owes (c : Thread nD τ) (0 : CellTallies nD τ sig Unit) W)
/-- A host stretch as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues. -/
abbrev Tend (c : Dev nD) : sProp 𝕄 := iprop(StableHlo.held (c : Thread nD τ) (Pipeline.ucRefs τ sig) (B4 m ρ c) ∗ ∃ r, prngReg c r)

/-! ## The two calls as segments -/

set_option backward.isDefEq.respectTransparency.types false in
/-- The projection call: entered with every unscoped buffer at `B1`, left at `B2`. Its arrays are split out of the
    unscoped buffers and put back at their final contents; the generator register goes into the call's invariant and
    comes back; nothing is owed; the kernel has no semaphore of its own. -/
def region0 : Pipeline.RegionSeg (pcfgs (F := F)) noTables (pdat m ρ) () defs₀ 𝒱₀ Lv lvl 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lv lvl 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) noTables (pdat m ρ) launch0.win launch0.arr_whole c
      ((pdat m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdat m ρ) ((pdat m ρ 0 c).share_full fun _ => rfl)
      (E1 m ρ c) (E2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered with every unscoped buffer at `B3`, left at `B4`. Its invariant starts as the plain one
    (every scratch at anything) and, after the last point, gives the plain one back (the scratches' named contents are
    forgotten). -/
def region1 : Pipeline.RegionSeg (pcfgs (F := F)) noTables (pdat m ρ) () defs₀ 𝒱₀ Lv lvl 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lv lvl 1 fun _ _ => rfl
  pre c := iprop(StableHlo.held (c : Thread nD τ) (Pipeline.ucRefs τ sig) (B3 m ρ c) ∗ Rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) noTables (pdat m ρ) launch1.win launch1.arr_whole c
      ((pdat m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (E3 m ρ) c)
    unfold Pipeline.ΦA
    iintro ⟨Hp, -, Hr⟩
    isplitl [Hr]; · iexact Hr
    iexact Hp
  hout c := by
    rw [Pipeline.ownSems0_none]
    refine (hout1 (E3 m ρ) c).trans (?_ : Pipeline.ΦA spec1 c ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdat m ρ) ((pdat m ρ 1 c).share_full fun _ => rfl)
      (E3 m ρ c) (E4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

/-- The four items in order. -/
abbrev segments : List (Pipeline.Seg (pcfgs (F := F)) noTables (pdat m ρ) () defs₀ 𝒱₀ Lv lvl) :=
  [ .host (hostSeg hostOps0 hostOps0_sub hostOps0_fresh (B0 m ρ)),
    .region (region0 m ρ),
    .host (hostSeg hostOps1 hostOps1_sub hostOps1_fresh (B2 m ρ)),
    .region (region1 m ρ) ]
/-- The program IS the run of the four items. -/
theorem main_is_run (c : Dev nD) : main (F := F) c = Pipeline.Seg.run (segments m ρ) := (main_chain c).trans (by chain_rfl)

set_option backward.isDefEq.respectTransparency.types false in
/-- THE RUN. From any memory with zero counters every weakly fair execution of the program on the TensorCores
    terminates, nothing faulting, and in every final state each buffer outside the calls' scoped memory holds the last
    boundary's contents `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) noTables (pdat m ρ) () cellOf_inj emb₁ defs₀ 𝒱₀ Lv lvl m ρ main (segments m ρ)
    (fun c Q => by rw [main_is_run m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tend m ρ)
    (hch := ⟨fun _ => .rfl, fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- The run with the result named and the arguments read back: the result buffer ends at the attention call's output
    array after its last grid point, every argument array as launched. -/
theorem run_named : θ_run defs (onTc (τ := τ) (main (F := F))) ⟨m, fun _ => 0, ρ⟩ (fun r => ∀ c : Dev nD,
      r.2.mem ((c.tc : Thread nD τ).loc main_v14) = (dat1 (E3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v14 (by decide))).trans (B4_main_v14 m ρ c),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c),
     (h c _ (mem_uc main_arg6 (by decide))).trans (B4_main_arg6 m ρ c),
     (h c _ (mem_uc main_arg7 (by decide))).trans (B4_main_arg7 m ρ c)⟩) (run_all m ρ)

/-- The frame: the program runs to the end and leaves its eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_named m ρ)

end Cert.KernelIdeal.Hand

end
-- ==== Proof.IdealProjPay.lean ====
/-
  The projection kernel's arithmetic at one entry.

  A point of the projection call holds a block x of 1024 input rows, the whole transposed weight w [1024, 1024] and the
  bias as a row b [1, 1024].  What it stores is  x·w + b  with the bias row repeated over the rows; changes of float
  format are the identity on extended reals.  So entry (p, q) of the stored block is
      Σ_h x[p, h] · w[h, q]  +  b[0, q].
  The three outputs (queries, keys, values) apply the same arithmetic to their own weight and bias.
-/
import proofs.«151986_j46763603919067_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.HandValue.Proj

open Idealize.ShloMosaic Idealize.SL.Sem Idealize.ShloMosaic.ValueIdx Cert.KernelIdeal Cert.KernelIdeal.Gen

/-! ## The block product's operand indices

The product contracts axis 1 of the left block with axis 0 of the right block.  At output entry i and contraction
index k the left operand is read at (i 0, k) and the right operand at (k, i 1). -/

theorem mm_lhs0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem mm_lhs1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem mm_rhs0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem mm_rhs1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block product into the zero accumulator at entry (p, q): row p of the left block against column q of the right
    block, summed over the shared coordinate. -/
theorem mm_apply (l r : FVec Ideal S1024x1024 .bf16) (p q : Fin 1024) :
    matmul dot_S1024x1024_S1024x1024_S1024x1024_1_0_0_1_n_n none l r (constant (F := Ideal) S1024x1024 .f32 0x00000000#32) (ix2 p q)
      = ∑ h : Fin 1024, l (ix2 p h) * r (ix2 h q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun a => Fin.ext (by
      match a with
      | ⟨0, _⟩ => exact mm_lhs0 _ _
      | ⟨1, _⟩ => exact (mm_lhs1 _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun a => Fin.ext (by
      match a with
      | ⟨0, _⟩ => exact (mm_rhs0 _ _).trans hk
      | ⟨1, _⟩ => exact mm_rhs1 _ _)
  rw [el, er]

/-- The bias row repeated over the rows reads, at (p, q), entry q of the row. -/
theorem bias_apply (b : FVec Ideal S1x1024 .f32) (p q : Fin 1024) :
    broadcastTo S1024x1024 b broadcasts_S1x1024_S1024x1024 (ix2 p q) = b (ix2 0 q) :=
  broadcastTo_apply b broadcasts_S1x1024_S1024x1024 (ix2 p q) (ix2 0 q) (fun a => by
    match a with
    | ⟨0, _⟩ => rfl
    | ⟨1, _⟩ => rfl)

/-- The query output's payload at entry (p, q): row p of the input block against column q of the weight, plus the
    bias at q. -/
theorem pay_apply (x : Vec Ideal S1024x1024 .f32) (w : Vec Ideal S1024x1024 .bf16) (b : Vec Ideal S1x1024 .f32) (p q : Fin 1024) :
    k0_pay2 (F := Ideal) x w b (ix2 p q) = (∑ h : Fin 1024, x (ix2 p h) * w (ix2 h q)) + b (ix2 0 q) := by
  unfold k0_pay2 k0_pay1
  simp only [shapeCast_self]
  refine (addf_apply _ _ (ix2 p q)).trans ?_
  rw [mm_apply, bias_apply]
  rfl

/-- The key and value outputs' payloads are the same arithmetic on their own weight and bias. -/
theorem pay3_eq (x : Vec Ideal S1024x1024 .f32) (w : Vec Ideal S1024x1024 .bf16) (b : Vec Ideal S1x1024 .f32) :
    k0_pay3 (F := Ideal) x w b = k0_pay2 (F := Ideal) x w b := rfl
theorem pay4_eq (x : Vec Ideal S1024x1024 .f32) (w : Vec Ideal S1024x1024 .bf16) (b : Vec Ideal S1x1024 .f32) :
    k0_pay4 (F := Ideal) x w b = k0_pay2 (F := Ideal) x w b := rfl

end Cert.KernelIdeal.HandValue.Proj

end
-- ==== Proof.AttnSpec.lean ====
/-
  The mathematics both programs compute, as functions of coordinates over the extended reals.

  Three linear layers  y[r,o] = Σ_h x[r,h]·W[o,h] + b[o]  give queries, keys and values.  A score is the inner product
  of a query row and a key row, replaced by -10⁹ where the mask is zero, and THEN scaled by 1/32.  Attention is the
  softmax of a row of scores applied to the value rows.  The kernel scales by multiplying with 1/32 and divides the
  weighted sum of value rows by the sum of the weights; the reference divides the scores by 32 and normalises each
  weight before summing.  Both orders are written here; they agree on real data.
-/
import Idealize.ShloMosaic.PureOps.Ideal

noncomputable section

namespace Cert.Attn

open Idealize.ShloMosaic

/-- The score written where the mask is zero: -10⁹ as a single-precision number. -/
def negBig : EReal := Ideal.ofBits .f32 0xCE6E6B28#32
/-- The kernel's scale 1/32, as a single-precision number. -/
def scaleMul : EReal := Ideal.ofBits .f32 0x3D000000#32
/-- The reference's divisor 32, as a single-precision number. -/
def scaleDiv : EReal := Ideal.ofBits .f32 0x42000000#32

/-- A linear layer in the kernel's layout: row `r` of the flattened input against column `o` of the TRANSPOSED weight,
    plus the bias. -/
def lin (X : Fin 8192 → Fin 1024 → EReal) (Wt : Fin 1024 → Fin 1024 → EReal) (B : Fin 1024 → EReal)
    (r : Fin 8192) (o : Fin 1024) : EReal :=
  (∑ h : Fin 1024, X r h * Wt h o) + B o

/-- The row maximum of a row of scores (-∞ for no scores). -/
def rowMax (s : Fin 2048 → EReal) : EReal := Finset.univ.sup s

/-- The kernel's score: masked inner product times 1/32. -/
def score (Q K : Fin 4 → Fin 2048 → Fin 1024 → EReal) (Msk : Fin 4 → Fin 2048 → Fin 2048 → BitVec 32)
    (b : Fin 4) (q k : Fin 2048) : EReal :=
  (if Msk b q k = 0#32 then negBig else ∑ h : Fin 1024, Q b q h * K b k h) * scaleMul

/-- Attention in the kernel's order: the weighted sum of value rows over the sum of the weights. -/
def attn (Q K V : Fin 4 → Fin 2048 → Fin 1024 → EReal) (Msk : Fin 4 → Fin 2048 → Fin 2048 → BitVec 32)
    (b : Fin 4) (q : Fin 2048) (h : Fin 1024) : EReal :=
  Ideal.div
    (∑ k : Fin 2048, Ideal.exp (score Q K Msk b q k - rowMax (score Q K Msk b q)) * V b k h)
    (∑ k : Fin 2048, Ideal.exp (score Q K Msk b q k - rowMax (score Q K Msk b q)))

/-- A linear layer in the reference's layout: `x[b,s,·]` against row `o` of the weight, plus the bias. -/
def linR (x : Fin 4 → Fin 2048 → Fin 1024 → EReal) (W : Fin 1024 → Fin 1024 → EReal) (B : Fin 1024 → EReal)
    (b : Fin 4) (s : Fin 2048) (o : Fin 1024) : EReal :=
  (∑ h : Fin 1024, x b s h * W o h) + B o

/-- The reference's score: masked inner product divided by 32. -/
def scoreR (Q K : Fin 4 → Fin 2048 → Fin 1024 → EReal) (Msk : Fin 4 → Fin 2048 → Fin 2048 → BitVec 32)
    (b : Fin 4) (q k : Fin 2048) : EReal :=
  Ideal.div (if Msk b q k = 0#32 then negBig else ∑ h : Fin 1024, Q b q h * K b k h) scaleDiv

/-- Attention in the reference's order: each weight normalised, then the weighted sum of value rows. -/
def attnR (Q K V : Fin 4 → Fin 2048 → Fin 1024 → EReal) (Msk : Fin 4 → Fin 2048 → Fin 2048 → BitVec 32)
    (b : Fin 4) (q : Fin 2048) (h : Fin 1024) : EReal :=
  ∑ k : Fin 2048,
    Ideal.div (Ideal.exp (scoreR Q K Msk b q k - rowMax (scoreR Q K Msk b q)))
      (∑ k' : Fin 2048, Ideal.exp (scoreR Q K Msk b q k' - rowMax (scoreR Q K Msk b q))) * V b k h

end Cert.Attn

end
-- ==== Proof.IdealProjValue.lean ====
/-
  The projection call's three outputs as whole arrays.

  The call runs over eight points; point t holds rows 1024·t … 1024·t + 1023 of the flattened input, the whole
  transposed weights and the whole bias rows, and writes back a block of 1024 rows to each of the three outputs.
  By the payload's arithmetic, entry (p, q) of the block point t writes is
      Σ_h X[1024·t + p, h] · W[h, q] + B[0, q],
  entry (1024·t + p, q) of the linear layer of the arrays the call finds.  Every row r of an output lies in the block
  of point r / 1024, so after the call each output array holds the linear layer at every entry.
-/
import proofs.«151986_j46763603919067_2_alg».proof.Proof.IdealProjPay
import proofs.«151986_j46763603919067_2_alg».proof.Proof.IdealAttnStep
import proofs.«151986_j46763603919067_2_alg».proof.Proof.AttnSpec
import proofs.«151986_j46763603919067_2_alg».proof.Proof.Gen.KernelIdeal.Points
import Idealize.ShloMosaic.Lib.ValueIdx
import Idealize.ShloMosaic.Lib.Pipeline.Value

noncomputable section

namespace Cert.KernelIdeal.HandValue.Proj

open Idealize.ShloMosaic Idealize.ShloMosaic.TcCoe Idealize.SL.Sem Idealize.ShloMosaic.ValueIdx Cert.KernelIdeal Cert.KernelIdeal.Gen Cert.KernelIdeal.Hand
open Idealize.ShloMosaic.Pipeline (Dat)

/-! ## Where each window's block sits, decided once over the eight points

The input rows and the three outputs move one block of 1024 rows per point; the weights' and biases' blocks are the
whole arrays at every point. -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)

/-- Row p of point t's block is row 1024·t + p of the array. -/
theorem row_lt (t : Fin cfg0.N) (p : Fin 1024) : t.val * 1024 + p.val < 8192 := by
  have h1 := t.isLt
  have h2 : cfg0.N = 8 := N_0
  have h3 := p.isLt
  omega

variable (V : (c : Dev nD) → (b : Ref sig .tc) → Buf (Elt Ideal) ((c : Thread nD τ).loc b)) (c : Dev nD)

/-- The input block at point t: rows 1024·t … 1024·t + 1023 of the flattened input. -/
theorem blk_x (t : Fin cfg0.N) (p h : Fin 1024) :
    (iblk0 V c 0 t : Vec Ideal S1024x1024 .f32) (ix2 p h)
      = (V c main_v0 : S8192x1024.Idx → EReal) (ix2 ⟨t.val * 1024 + p.val, row_lt t p⟩ h) := by
  unfold iblk0
  rw [View.read_apply]
  show V c main_v0 _ = V c main_v0 _
  congr 1
  funext a
  apply Fin.ext
  match a with
  | ⟨0, _⟩ => show win0_0.index t 0 * 1024 + 1 * p.val = t.val * 1024 + p.val; rw [(idx0_0 t).1]; omega
  | ⟨1, _⟩ => show win0_0.index t 1 * 1024 + 1 * h.val = h.val; rw [(idx0_0 t).2]; omega

/-- The query weight's block at any point is the whole transposed weight. -/
theorem blk_wq (t : Fin cfg0.N) (h q : Fin 1024) :
    (iblk0 V c 1 t : Vec Ideal S1024x1024 .bf16) (ix2 h q) = (V c main_v2 : S1024x1024.Idx → EReal) (ix2 h q) := by
  unfold iblk0
  rw [View.read_apply]
  show V c main_v2 _ = V c main_v2 _
  congr 1
  funext a
  apply Fin.ext
  match a with
  | ⟨0, _⟩ => show win0_1.index t 0 * 1024 + 1 * h.val = h.val; rw [(idx0_1 t).1]; omega
  | ⟨1, _⟩ => show win0_1.index t 1 * 1024 + 1 * q.val = q.val; rw [(idx0_1 t).2]; omega

/-- The key weight's block at any point is the whole transposed weight. -/
theorem blk_wk (t : Fin cfg0.N) (h q : Fin 1024) :
    (iblk0 V c 2 t : Vec Ideal S1024x1024 .bf16) (ix2 h q) = (V c main_v4 : S1024x1024.Idx → EReal) (ix2 h q) := by
  unfold iblk0
  rw [View.read_apply]
  show V c main_v4 _ = V c main_v4 _
  congr 1
  funext a
  apply Fin.ext
  match a with
  | ⟨0, _⟩ => show win0_2.index t 0 * 1024 + 1 * h.val = h.val; rw [(idx0_2 t).1]; omega
  | ⟨1, _⟩ => show win0_2.index t 1 * 1024 + 1 * q.val = q.val; rw [(idx0_2 t).2]; omega

/-- The value weight's block at any point is the whole transposed weight. -/
theorem blk_wv (t : Fin cfg0.N) (h q : Fin 1024) :
    (iblk0 V c 3 t : Vec Ideal S1024x1024 .bf16) (ix2 h q) = (V c main_v6 : S1024x1024.Idx → EReal) (ix2 h q) := by
  unfold iblk0
  rw [View.read_apply]
  show V c main_v6 _ = V c main_v6 _
  congr 1
  funext a
  apply Fin.ext
  match a with
  | ⟨0, _⟩ => show win0_3.index t 0 * 1024 + 1 * h.val = h.val; rw [(idx0_3 t).1]; omega
  | ⟨1, _⟩ => show win0_3.index t 1 * 1024 + 1 * q.val = q.val; rw [(idx0_3 t).2]; omega

/-- The query bias's block at any point is the whole bias row. -/
theorem blk_bq (t : Fin cfg0.N) (q : Fin 1024) :
    (iblk0 V c 4 t : Vec Ideal S1x1024 .f32) (ix2 0 q) = (V c main_v7 : S1x1024.Idx → EReal) (ix2 0 q) := by
  unfold iblk0
  rw [View.read_apply]
  show V c main_v7 _ = V c main_v7 _
  congr 1
  funext a
  apply Fin.ext
  match a with
  | ⟨0, _⟩ => show win0_4.index t 0 * 1 + 1 * 0 = 0; rw [(idx0_4 t).1]
  | ⟨1, _⟩ => show win0_4.index t 1 * 1024 + 1 * q.val = q.val; rw [(idx0_4 t).2]; omega

/-- The key bias's block at any point is the whole bias row. -/
theorem blk_bk (t : Fin cfg0.N) (q : Fin 1024) :
    (iblk0 V c 5 t : Vec Ideal S1x1024 .f32) (ix2 0 q) = (V c main_v8 : S1x1024.Idx → EReal) (ix2 0 q) := by
  unfold iblk0
  rw [View.read_apply]
  show V c main_v8 _ = V c main_v8 _
  congr 1
  funext a
  apply Fin.ext
  match a with
  | ⟨0, _⟩ => show win0_5.index t 0 * 1 + 1 * 0 = 0; rw [(idx0_5 t).1]
  | ⟨1, _⟩ => show win0_5.index t 1 * 1024 + 1 * q.val = q.val; rw [(idx0_5 t).2]; omega

/-- The value bias's block at any point is the whole bias row. -/
theorem blk_bv (t : Fin cfg0.N) (q : Fin 1024) :
    (iblk0 V c 6 t : Vec Ideal S1x1024 .f32) (ix2 0 q) = (V c main_v9 : S1x1024.Idx → EReal) (ix2 0 q) := by
  unfold iblk0
  rw [View.read_apply]
  show V c main_v9 _ = V c main_v9 _
  congr 1
  funext a
  apply Fin.ext
  match a with
  | ⟨0, _⟩ => show win0_6.index t 0 * 1 + 1 * 0 = 0; rw [(idx0_6 t).1]
  | ⟨1, _⟩ => show win0_6.index t 1 * 1024 + 1 * q.val = q.val; rw [(idx0_6 t).2]; omega

/-- Entry (p, q) of output 7's block at point t is entry (1024·t + p, q) of its array. -/
theorem emb7 (t : Fin cfg0.N) (p q : Fin 1024) :
    ((cfg0.win 7).blk t).view.emb (ix2 p q) = (ix2 ⟨t.val * 1024 + p.val, row_lt t p⟩ q : S8192x1024.Idx) := by
  funext a
  apply Fin.ext
  match a with
  | ⟨0, _⟩ => show win0_7.index t 0 * 1024 + 1 * p.val = t.val * 1024 + p.val; rw [(idx0_7 t).1]; omega
  | ⟨1, _⟩ => show win0_7.index t 1 * 1024 + 1 * q.val = q.val; rw [(idx0_7 t).2]; omega

/-- An entry of the array lies in point t's block of output 7 iff its row is one of the block's 1024 rows. -/
theorem mem_blk7 (t : Fin cfg0.N) (i : S8192x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v10_0).slice (win0_7.rect t)).set ↔ _
  rw [View.set_slice_whole, Rect.mem_set_unit]
  exact Iff.rfl

/-- Every entry of output 7's array is in the block of the point its row falls in. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 8 := N_0
  refine ⟨⟨(i 0).val / 1024, by omega⟩, flush0_7 _, ?_⟩
  rw [mem_blk7]
  intro a
  match a with
  | ⟨0, _⟩ =>
    show win0_7.index _ (0 : Fin 2) * 1024 ≤ (i 0).val ∧ (i 0).val < win0_7.index _ (0 : Fin 2) * 1024 + 1024
    rw [(idx0_7 _).1]
    show (i 0).val / 1024 * 1024 ≤ (i 0).val ∧ (i 0).val < (i 0).val / 1024 * 1024 + 1024
    omega
  | ⟨1, _⟩ =>
    show win0_7.index _ (1 : Fin 2) * 1024 ≤ (i 1).val ∧ (i 1).val < win0_7.index _ (1 : Fin 2) * 1024 + 1024
    rw [(idx0_7 _).2]
    omega

/-- Entry (p, q) of output 8's block at point t is entry (1024·t + p, q) of its array. -/
theorem emb8 (t : Fin cfg0.N) (p q : Fin 1024) :
    ((cfg0.win 8).blk t).view.emb (ix2 p q) = (ix2 ⟨t.val * 1024 + p.val, row_lt t p⟩ q : S8192x1024.Idx) := by
  funext a
  apply Fin.ext
  match a with
  | ⟨0, _⟩ => show win0_8.index t 0 * 1024 + 1 * p.val = t.val * 1024 + p.val; rw [(idx0_8 t).1]; omega
  | ⟨1, _⟩ => show win0_8.index t 1 * 1024 + 1 * q.val = q.val; rw [(idx0_8 t).2]; omega

/-- An entry of the array lies in point t's block of output 8 iff its row is one of the block's 1024 rows. -/
theorem mem_blk8 (t : Fin cfg0.N) (i : S8192x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v10_1).slice (win0_8.rect t)).set ↔ _
  rw [View.set_slice_whole, Rect.mem_set_unit]
  exact Iff.rfl

/-- Every entry of output 8's array is in the block of the point its row falls in. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 8 := N_0
  refine ⟨⟨(i 0).val / 1024, by omega⟩, flush0_8 _, ?_⟩
  rw [mem_blk8]
  intro a
  match a with
  | ⟨0, _⟩ =>
    show win0_8.index _ (0 : Fin 2) * 1024 ≤ (i 0).val ∧ (i 0).val < win0_8.index _ (0 : Fin 2) * 1024 + 1024
    rw [(idx0_8 _).1]
    show (i 0).val / 1024 * 1024 ≤ (i 0).val ∧ (i 0).val < (i 0).val / 1024 * 1024 + 1024
    omega
  | ⟨1, _⟩ =>
    show win0_8.index _ (1 : Fin 2) * 1024 ≤ (i 1).val ∧ (i 1).val < win0_8.index _ (1 : Fin 2) * 1024 + 1024
    rw [(idx0_8 _).2]
    omega

/-- Entry (p, q) of output 9's block at point t is entry (1024·t + p, q) of its array. -/
theorem emb9 (t : Fin cfg0.N) (p q : Fin 1024) :
    ((cfg0.win 9).blk t).view.emb (ix2 p q) = (ix2 ⟨t.val * 1024 + p.val, row_lt t p⟩ q : S8192x1024.Idx) := by
  funext a
  apply Fin.ext
  match a with
  | ⟨0, _⟩ => show win0_9.index t 0 * 1024 + 1 * p.val = t.val * 1024 + p.val; rw [(idx0_9 t).1]; omega
  | ⟨1, _⟩ => show win0_9.index t 1 * 1024 + 1 * q.val = q.val; rw [(idx0_9 t).2]; omega

/-- An entry of the array lies in point t's block of output 9 iff its row is one of the block's 1024 rows. -/
theorem mem_blk9 (t : Fin cfg0.N) (i : S8192x1024.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v10_2).slice (win0_9.rect t)).set ↔ _
  rw [View.set_slice_whole, Rect.mem_set_unit]
  exact Iff.rfl

/-- Every entry of output 9's array is in the block of the point its row falls in. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 8 := N_0
  refine ⟨⟨(i 0).val / 1024, by omega⟩, flush0_9 _, ?_⟩
  rw [mem_blk9]
  intro a
  match a with
  | ⟨0, _⟩ =>
    show win0_9.index _ (0 : Fin 2) * 1024 ≤ (i 0).val ∧ (i 0).val < win0_9.index _ (0 : Fin 2) * 1024 + 1024
    rw [(idx0_9 _).1]
    show (i 0).val / 1024 * 1024 ≤ (i 0).val ∧ (i 0).val < (i 0).val / 1024 * 1024 + 1024
    omega
  | ⟨1, _⟩ =>
    show win0_9.index _ (1 : Fin 2) * 1024 ≤ (i 1).val ∧ (i 1).val < win0_9.index _ (1 : Fin 2) * 1024 + 1024
    rw [(idx0_9 _).2]
    omega

/-! ## The linear layer as the contents of an output array -/

/-- The linear layer of a flattened input X, a transposed weight W and a bias row B, as the contents of an
    [8192, 1024] array: entry (r, o) is Σ_h X[r, h]·W[h, o] + B[0, o]. -/
def linArr (X : S8192x1024.Idx → EReal) (W : S1024x1024.Idx → EReal) (B : S1x1024.Idx → EReal) : S8192x1024.Idx → EReal :=
  fun i => Cert.Attn.lin (fun r h => X (ix2 r h)) (fun h o => W (ix2 h o)) (fun o => B (ix2 0 o)) (i 0) (i 1)

theorem linArr_ix2 (X : S8192x1024.Idx → EReal) (W : S1024x1024.Idx → EReal) (B : S1x1024.Idx → EReal) (r : Fin 8192) (o : Fin 1024) :
    linArr X W B (ix2 r o) = Cert.Attn.lin (fun r h => X (ix2 r h)) (fun h o => W (ix2 h o)) (fun o => B (ix2 0 o)) r o := rfl

/-- One point's payload against the arrays: if the input block's row p is row ρ p of X, and the weight and bias blocks
    are W and B, then entry (p, q) of the payload is entry (ρ p, q) of the linear layer. -/
theorem point_lin (X : S8192x1024.Idx → EReal) (W : S1024x1024.Idx → EReal) (B : S1x1024.Idx → EReal)
    (x : Vec Ideal S1024x1024 .f32) (w : Vec Ideal S1024x1024 .bf16) (b : Vec Ideal S1x1024 .f32)
    (ρ : Fin 1024 → Fin 8192)
    (hx : ∀ p h, x (ix2 p h) = X (ix2 (ρ p) h)) (hw : ∀ h q, w (ix2 h q) = W (ix2 h q)) (hb : ∀ q, b (ix2 0 q) = B (ix2 0 q))
    (p q : Fin 1024) :
    k0_pay2 (F := Ideal) x w b (ix2 p q) = linArr X W B (ix2 (ρ p) q) := by
  rw [pay_apply, linArr_ix2]
  unfold Cert.Attn.lin
  rw [hb q]
  exact congrArg (· + B (ix2 0 q)) (Finset.sum_congr rfl fun h _ => by rw [hx p h, hw h q])

/-! ## From the points' blocks to the whole arrays -/

/-- What point t writes back to the query output is point t's block of the linear layer. -/
theorem flushed7 {c : Dev nD} (V : (c : Dev nD) → (b : Ref sig .tc) → Buf (Elt Ideal) ((c : Thread nD τ).loc b))
    (dat : Dat τ (Elt Ideal) Unit ℕ (UR sig nD τ) ℕ cfg0 c)
    (hafter : ∀ t, dat.after 7 t = k0_pay2 (iblk0 V c 0 t) (iblk0 V c 1 t) (iblk0 V c 4 t)) (t : Fin cfg0.N) :
    dat.flushed 7 t = ((cfg0.win 7).blk t).view.read (Elt Ideal) (linArr (V c main_v0) (V c main_v2) (V c main_v7)) := by
  show (cfg0.win 7).cut (grid0.coords t) (dat.after 7 t) = _
  rw [hafter t]
  funext j
  obtain ⟨p, q, rfl⟩ : ∃ (p q : Fin 1024), j = ix2 p q := ⟨j 0, j 1, eq_ix2 j⟩
  rw [View.read_apply]
  show k0_pay2 (F := Ideal) (iblk0 V c 0 t) (iblk0 V c 1 t) (iblk0 V c 4 t) (ix2 p q)
    = linArr (V c main_v0) (V c main_v2) (V c main_v7) (((cfg0.win 7).blk t).view.emb (ix2 p q))
  rw [emb7 t p q]
  exact point_lin (V c main_v0) (V c main_v2) (V c main_v7) (iblk0 V c 0 t) (iblk0 V c 1 t) (iblk0 V c 4 t)
    (fun p => ⟨t.val * 1024 + p.val, row_lt t p⟩) (blk_x V c t) (blk_wq V c t) (blk_bq V c t) p q

/-- What point t writes back to the key output is point t's block of the linear layer. -/
theorem flushed8 {c : Dev nD} (V : (c : Dev nD) → (b : Ref sig .tc) → Buf (Elt Ideal) ((c : Thread nD τ).loc b))
    (dat : Dat τ (Elt Ideal) Unit ℕ (UR sig nD τ) ℕ cfg0 c)
    (hafter : ∀ t, dat.after 8 t = k0_pay3 (iblk0 V c 0 t) (iblk0 V c 2 t) (iblk0 V c 5 t)) (t : Fin cfg0.N) :
    dat.flushed 8 t = ((cfg0.win 8).blk t).view.read (Elt Ideal) (linArr (V c main_v0) (V c main_v4) (V c main_v8)) := by
  show (cfg0.win 8).cut (grid0.coords t) (dat.after 8 t) = _
  rw [hafter t]
  funext j
  obtain ⟨p, q, rfl⟩ : ∃ (p q : Fin 1024), j = ix2 p q := ⟨j 0, j 1, eq_ix2 j⟩
  rw [View.read_apply]
  show k0_pay3 (F := Ideal) (iblk0 V c 0 t) (iblk0 V c 2 t) (iblk0 V c 5 t) (ix2 p q)
    = linArr (V c main_v0) (V c main_v4) (V c main_v8) (((cfg0.win 8).blk t).view.emb (ix2 p q))
  rw [emb8 t p q, pay3_eq]
  exact point_lin (V c main_v0) (V c main_v4) (V c main_v8) (iblk0 V c 0 t) (iblk0 V c 2 t) (iblk0 V c 5 t)
    (fun p => ⟨t.val * 1024 + p.val, row_lt t p⟩) (blk_x V c t) (blk_wk V c t) (blk_bk V c t) p q

/-- What point t writes back to the value output is point t's block of the linear layer. -/
theorem flushed9 {c : Dev nD} (V : (c : Dev nD) → (b : Ref sig .tc) → Buf (Elt Ideal) ((c : Thread nD τ).loc b))
    (dat : Dat τ (Elt Ideal) Unit ℕ (UR sig nD τ) ℕ cfg0 c)
    (hafter : ∀ t, dat.after 9 t = k0_pay4 (iblk0 V c 0 t) (iblk0 V c 3 t) (iblk0 V c 6 t)) (t : Fin cfg0.N) :
    dat.flushed 9 t = ((cfg0.win 9).blk t).view.read (Elt Ideal) (linArr (V c main_v0) (V c main_v6) (V c main_v9)) := by
  show (cfg0.win 9).cut (grid0.coords t) (dat.after 9 t) = _
  rw [hafter t]
  funext j
  obtain ⟨p, q, rfl⟩ : ∃ (p q : Fin 1024), j = ix2 p q := ⟨j 0, j 1, eq_ix2 j⟩
  rw [View.read_apply]
  show k0_pay4 (F := Ideal) (iblk0 V c 0 t) (iblk0 V c 3 t) (iblk0 V c 6 t) (ix2 p q)
    = linArr (V c main_v0) (V c main_v6) (V c main_v9) (((cfg0.win 9).blk t).view.emb (ix2 p q))
  rw [emb9 t p q, pay4_eq]
  exact point_lin (V c main_v0) (V c main_v6) (V c main_v9) (iblk0 V c 0 t) (iblk0 V c 3 t) (iblk0 V c 6 t)
    (fun p => ⟨t.val * 1024 + p.val, row_lt t p⟩) (blk_x V c t) (blk_wv V c t) (blk_bv V c t) p q

end Cert.KernelIdeal.HandValue.Proj

namespace Cert.KernelIdeal.HandValue

open Idealize.ShloMosaic Idealize.ShloMosaic.TcCoe Idealize.SL.Sem Idealize.ShloMosaic.ValueIdx Cert.KernelIdeal Cert.KernelIdeal.Gen Cert.KernelIdeal.Hand
open Idealize.ShloMosaic.Pipeline (Dat)
open Cert.KernelIdeal.HandValue.Proj

/-! ## The three outputs after the call -/

/-- The query output after the call is the linear layer, entry by entry: every row lies in the block of exactly the
    point that computed it. -/
theorem proj_value7 {c : Dev nD} (V : (c : Dev nD) → (b : Ref sig .tc) → Buf (Elt Ideal) ((c : Thread nD τ).loc b))
    (dat : Dat τ (Elt Ideal) Unit ℕ (UR sig nD τ) ℕ cfg0 c)
    (hA : ∀ w, dat.A w = V c (Pipeline.arrRef spec0 w))
    (hafter : ∀ t, dat.after 7 t = k0_pay2 (iblk0 V c 0 t) (iblk0 V c 1 t) (iblk0 V c 4 t))
    (r : Fin 8192) (o : Fin 1024) :
    (dat.arrAt 7 cfg0.N : S8192x1024.Idx → EReal) (ix2 r o)
      = Cert.Attn.lin (fun r h => (V c main_v0 : S8192x1024.Idx → EReal) (ix2 r h))
          (fun h o => (V c main_v2 : S1024x1024.Idx → EReal) (ix2 h o))
          (fun o => (V c main_v7 : S1x1024.Idx → EReal) (ix2 0 o)) r o := by
  have hfin : dat.arrAt 7 cfg0.N = linArr (V c main_v0) (V c main_v2) (V c main_v7) :=
    dat.arrAt_eq_of_cover 7 (linArr (V c main_v0) (V c main_v2) (V c main_v7)) (fun t _ => flushed7 V dat hafter t) cover7
  rw [hfin]
  rfl

/-- The key output after the call is the linear layer, entry by entry: every row lies in the block of exactly the
    point that computed it. -/
theorem proj_value8 {c : Dev nD} (V : (c : Dev nD) → (b : Ref sig .tc) → Buf (Elt Ideal) ((c : Thread nD τ).loc b))
    (dat : Dat τ (Elt Ideal) Unit ℕ (UR sig nD τ) ℕ cfg0 c)
    (hA : ∀ w, dat.A w = V c (Pipeline.arrRef spec0 w))
    (hafter : ∀ t, dat.after 8 t = k0_pay3 (iblk0 V c 0 t) (iblk0 V c 2 t) (iblk0 V c 5 t))
    (r : Fin 8192) (o : Fin 1024) :
    (dat.arrAt 8 cfg0.N : S8192x1024.Idx → EReal) (ix2 r o)
      = Cert.Attn.lin (fun r h => (V c main_v0 : S8192x1024.Idx → EReal) (ix2 r h))
          (fun h o => (V c main_v4 : S1024x1024.Idx → EReal) (ix2 h o))
          (fun o => (V c main_v8 : S1x1024.Idx → EReal) (ix2 0 o)) r o := by
  have hfin : dat.arrAt 8 cfg0.N = linArr (V c main_v0) (V c main_v4) (V c main_v8) :=
    dat.arrAt_eq_of_cover 8 (linArr (V c main_v0) (V c main_v4) (V c main_v8)) (fun t _ => flushed8 V dat hafter t) cover8
  rw [hfin]
  rfl

/-- The value output after the call is the linear layer, entry by entry: every row lies in the block of exactly the
    point that computed it. -/
theorem proj_value9 {c : Dev nD} (V : (c : Dev nD) → (b : Ref sig .tc) → Buf (Elt Ideal) ((c : Thread nD τ).loc b))
    (dat : Dat τ (Elt Ideal) Unit ℕ (UR sig nD τ) ℕ cfg0 c)
    (hA : ∀ w, dat.A w = V c (Pipeline.arrRef spec0 w))
    (hafter : ∀ t, dat.after 9 t = k0_pay4 (iblk0 V c 0 t) (iblk0 V c 3 t) (iblk0 V c 6 t))
    (r : Fin 8192) (o : Fin 1024) :
    (dat.arrAt 9 cfg0.N : S8192x1024.Idx → EReal) (ix2 r o)
      = Cert.Attn.lin (fun r h => (V c main_v0 : S8192x1024.Idx → EReal) (ix2 r h))
          (fun h o => (V c main_v6 : S1024x1024.Idx → EReal) (ix2 h o))
          (fun o => (V c main_v9 : S1x1024.Idx → EReal) (ix2 0 o)) r o := by
  have hfin : dat.arrAt 9 cfg0.N = linArr (V c main_v0) (V c main_v6) (V c main_v9) :=
    dat.arrAt_eq_of_cover 9 (linArr (V c main_v0) (V c main_v6) (V c main_v9)) (fun t _ => flushed9 V dat hafter t) cover9
  rw [hfin]
  rfl

end Cert.KernelIdeal.HandValue

end
-- ==== Proof.IdealHostGlue.lean ====
/-
  The host operations around the two calls, read at an entry.

  Before the projection call the input [4, 2048, 1024] is flattened to [8192, 1024] (row r is row r mod 2048 of batch
  r / 2048), each weight is transposed (and changed of format, which is the identity on extended reals), and each bias
  [1024] becomes a row [1, 1024].  Between the calls each projection output [8192, 1024] is cut back into
  [4, 2048, 1024] (entry (b, s, ·) is row 2048·b + s).  A reshape keeps the row-major position of an entry; a
  transpose swaps its two coordinates.
-/
import proofs.«151986_j46763603919067_2_alg».proof.Proof.Gen.KernelIdeal.Launch
import Idealize.ShloMosaic.Lib.ValueIdx
import Idealize.ShloMosaic.Lib.Pipeline.Value
import Idealize.ShloMosaic.Lib.StableHlo.Run

noncomputable section

namespace Cert.KernelIdeal.HandValue.Glue

open Idealize.ShloMosaic Idealize.ShloMosaic.TcCoe Idealize.SL.Sem Idealize.ShloMosaic.ValueIdx Cert.KernelIdeal Cert.KernelIdeal.Gen

/-! ## The layout operations at an entry, over arrays of the literal shapes -/

/-- [4, 2048, 1024] flattened to [8192, 1024]: row r is row r mod 2048 of batch r / 2048. -/
theorem rows_of_batches (x : S4x2048x1024.Idx → EReal) (r : Fin 8192) (h : Fin 1024) :
    shapeCast S8192x1024 x shapeCasts_S4x2048x1024_S8192x1024 (ix2 r h)
      = x (ix3 ⟨r.val / 2048, by omega⟩ ⟨r.val % 2048, Nat.mod_lt _ (by norm_num)⟩ h) :=
  shapeCast_apply x shapeCasts_S4x2048x1024_S8192x1024 (ix2 r h) _ (by
    rw [Shape.rowMajor_val_three, Shape.rowMajor_val_two]
    show (r.val / 2048 * 2048 + r.val % 2048) * 1024 + h.val = r.val * 1024 + h.val
    omega)

/-- [8192, 1024] unflattened to [4, 2048, 1024]: entry (b, s, ·) is row 2048·b + s. -/
theorem batches_of_rows (x : S8192x1024.Idx → EReal) (b : Fin 4) (s : Fin 2048) (h : Fin 1024) :
    shapeCast S4x2048x1024 x shapeCasts_S8192x1024_S4x2048x1024 (ix3 b s h)
      = x (ix2 ⟨b.val * 2048 + s.val, by omega⟩ h) :=
  shapeCast_apply x shapeCasts_S8192x1024_S4x2048x1024 (ix3 b s h) _ (by
    rw [Shape.rowMajor_val_two, Shape.rowMajor_val_three]
    show (b.val * 2048 + s.val) * 1024 + h.val = (b.val * 2048 + s.val) * 1024 + h.val
    rfl)

/-- A vector [1024] as a row [1, 1024]. -/
theorem row_of_vector (x : S1024.Idx → EReal) (o : Fin 1024) :
    shapeCast S1x1024 x shapeCasts_S1024_S1x1024 (ix2 0 o) = x (ix1 o) :=
  shapeCast_apply x shapeCasts_S1024_S1x1024 (ix2 0 o) (ix1 o) (by
    rw [Shape.rowMajor_val_one, Shape.rowMajor_val_two]
    show o.val = 0 * 1024 + o.val
    omega)

/-- A square matrix transposed and changed of format: entry (h, o) is entry (o, h); the change of format is the
    identity on extended reals. -/
theorem transposed_apply (x : FVec Ideal S1024x1024 .f32) (h o : Fin 1024) :
    (truncf .bf16 (transpose S1024x1024 [1, 0] x transposes_S1024x1024_S1024x1024_1_0) bitsLt_bf16_f32 : FVec Ideal S1024x1024 .bf16) (ix2 h o)
      = x (ix2 o h) := by
  show transpose S1024x1024 [1, 0] x transposes_S1024x1024_S1024x1024_1_0 (ix2 h o) = x (ix2 o h)
  exact transpose_apply _ x transposes_S1024x1024_S1024x1024_1_0 (ix2 h o) (ix2 o h)
    (fun b => match b with | ⟨0, _⟩ => rfl | ⟨1, _⟩ => rfl)

end Cert.KernelIdeal.HandValue.Glue

namespace Cert.KernelIdeal.HandValue

open Idealize.ShloMosaic Idealize.ShloMosaic.TcCoe Idealize.SL.Sem Idealize.ShloMosaic.ValueIdx Cert.KernelIdeal Cert.KernelIdeal.Gen
open Idealize.ShloMosaic.StableHlo
open Cert.KernelIdeal.HandValue.Glue

/-! ## The host operations before the projection call -/

variable (W : Valuation τ sig (Elt Ideal))

/-- The flattened input: row r of [8192, 1024] is row r mod 2048 of batch r / 2048 of the argument. -/
theorem glue_x (r : Fin 8192) (h : Fin 1024) :
    (StableHlo.after hostOps0 W main_v0 : S8192x1024.Idx → EReal) (ix2 r h)
      = (W main_arg0 : S4x2048x1024.Idx → EReal) (ix3 ⟨r.val / 2048, by omega⟩ ⟨r.val % 2048, Nat.mod_lt _ (by norm_num)⟩ h) := by
  have e : (StableHlo.after hostOps0 W main_v0 : S8192x1024.Idx → EReal)
      = shapeCast S8192x1024 (W main_arg0 : S4x2048x1024.Idx → EReal) shapeCasts_S4x2048x1024_S8192x1024 := by
    show StableHlo.after hostOps0 W (Proc.devRef .tc main_v0) = _
    after_results
    rfl
  rw [e]
  exact rows_of_batches _ r h

/-- The query weight handed to the call is the transpose of the argument. -/
theorem glue_wq (h o : Fin 1024) :
    (StableHlo.after hostOps0 W main_v2 : S1024x1024.Idx → EReal) (ix2 h o) = (W main_arg2 : S1024x1024.Idx → EReal) (ix2 o h) := by
  have e : (StableHlo.after hostOps0 W main_v2 : S1024x1024.Idx → EReal)
      = (truncf .bf16 (transpose S1024x1024 [1, 0] (W main_arg2 : FVec Ideal S1024x1024 .f32) transposes_S1024x1024_S1024x1024_1_0) bitsLt_bf16_f32 : FVec Ideal S1024x1024 .bf16) := by
    show StableHlo.after hostOps0 W (Proc.devRef .tc main_v2) = _
    after_results
  rw [e]
  exact transposed_apply _ h o

/-- The key weight handed to the call is the transpose of the argument. -/
theorem glue_wk (h o : Fin 1024) :
    (StableHlo.after hostOps0 W main_v4 : S1024x1024.Idx → EReal) (ix2 h o) = (W main_arg4 : S1024x1024.Idx → EReal) (ix2 o h) := by
  have e : (StableHlo.after hostOps0 W main_v4 : S1024x1024.Idx → EReal)
      = (truncf .bf16 (transpose S1024x1024 [1, 0] (W main_arg4 : FVec Ideal S1024x1024 .f32) transposes_S1024x1024_S1024x1024_1_0) bitsLt_bf16_f32 : FVec Ideal S1024x1024 .bf16) := by
    show StableHlo.after hostOps0 W (Proc.devRef .tc main_v4) = _
    after_results
  rw [e]
  exact transposed_apply _ h o

/-- The value weight handed to the call is the transpose of the argument. -/
theorem glue_wv (h o : Fin 1024) :
    (StableHlo.after hostOps0 W main_v6 : S1024x1024.Idx → EReal) (ix2 h o) = (W main_arg6 : S1024x1024.Idx → EReal) (ix2 o h) := by
  have e : (StableHlo.after hostOps0 W main_v6 : S1024x1024.Idx → EReal)
      = (truncf .bf16 (transpose S1024x1024 [1, 0] (W main_arg6 : FVec Ideal S1024x1024 .f32) transposes_S1024x1024_S1024x1024_1_0) bitsLt_bf16_f32 : FVec Ideal S1024x1024 .bf16) := by
    show StableHlo.after hostOps0 W (Proc.devRef .tc main_v6) = _
    after_results
  rw [e]
  exact transposed_apply _ h o

/-- The query bias handed to the call is the argument as a row. -/
theorem glue_bq (o : Fin 1024) :
    (StableHlo.after hostOps0 W main_v7 : S1x1024.Idx → EReal) (ix2 0 o) = (W main_arg3 : S1024.Idx → EReal) (ix1 o) := by
  have e : (StableHlo.after hostOps0 W main_v7 : S1x1024.Idx → EReal)
      = shapeCast S1x1024 (W main_arg3 : S1024.Idx → EReal) shapeCasts_S1024_S1x1024 := by
    show StableHlo.after hostOps0 W (Proc.devRef .tc main_v7) = _
    after_results
    rfl
  rw [e]
  exact row_of_vector _ o

/-- The key bias handed to the call is the argument as a row. -/
theorem glue_bk (o : Fin 1024) :
    (StableHlo.after hostOps0 W main_v8 : S1x1024.Idx → EReal) (ix2 0 o) = (W main_arg5 : S1024.Idx → EReal) (ix1 o) := by
  have e : (StableHlo.after hostOps0 W main_v8 : S1x1024.Idx → EReal)
      = shapeCast S1x1024 (W main_arg5 : S1024.Idx → EReal) shapeCasts_S1024_S1x1024 := by
    show StableHlo.after hostOps0 W (Proc.devRef .tc main_v8) = _
    after_results
    rfl
  rw [e]
  exact row_of_vector _ o

/-- The value bias handed to the call is the argument as a row. -/
theorem glue_bv (o : Fin 1024) :
    (StableHlo.after hostOps0 W main_v9 : S1x1024.Idx → EReal) (ix2 0 o) = (W main_arg7 : S1024.Idx → EReal) (ix1 o) := by
  have e : (StableHlo.after hostOps0 W main_v9 : S1x1024.Idx → EReal)
      = shapeCast S1x1024 (W main_arg7 : S1024.Idx → EReal) shapeCasts_S1024_S1x1024 := by
    show StableHlo.after hostOps0 W (Proc.devRef .tc main_v9) = _
    after_results
    rfl
  rw [e]
  exact row_of_vector _ o

/-! ## The host operations between the two calls -/

/-- The queries handed to the attention call: entry (b, s, h) is entry (2048·b + s, h) of the projection's output. -/
theorem glue_q (b : Fin 4) (s : Fin 2048) (h : Fin 1024) :
    (StableHlo.after hostOps1 W main_v11 : S4x2048x1024.Idx → EReal) (ix3 b s h)
      = (W main_v10_0 : S8192x1024.Idx → EReal) (ix2 ⟨b.val * 2048 + s.val, by omega⟩ h) := by
  have e : (StableHlo.after hostOps1 W main_v11 : S4x2048x1024.Idx → EReal)
      = shapeCast S4x2048x1024 (W main_v10_0 : S8192x1024.Idx → EReal) shapeCasts_S8192x1024_S4x2048x1024 := by
    show StableHlo.after hostOps1 W (Proc.devRef .tc main_v11) = _
    after_results
    rfl
  rw [e]
  exact batches_of_rows _ b s h

/-- The keys handed to the attention call: entry (b, s, h) is entry (2048·b + s, h) of the projection's output. -/
theorem glue_k (b : Fin 4) (s : Fin 2048) (h : Fin 1024) :
    (StableHlo.after hostOps1 W main_v12 : S4x2048x1024.Idx → EReal) (ix3 b s h)
      = (W main_v10_1 : S8192x1024.Idx → EReal) (ix2 ⟨b.val * 2048 + s.val, by omega⟩ h) := by
  have e : (StableHlo.after hostOps1 W main_v12 : S4x2048x1024.Idx → EReal)
      = shapeCast S4x2048x1024 (W main_v10_1 : S8192x1024.Idx → EReal) shapeCasts_S8192x1024_S4x2048x1024 := by
    show StableHlo.after hostOps1 W (Proc.devRef .tc main_v12) = _
    after_results
    rfl
  rw [e]
  exact batches_of_rows _ b s h

/-- The values handed to the attention call: entry (b, s, h) is entry (2048·b + s, h) of the projection's output. -/
theorem glue_v (b : Fin 4) (s : Fin 2048) (h : Fin 1024) :
    (StableHlo.after hostOps1 W main_v13 : S4x2048x1024.Idx → EReal) (ix3 b s h)
      = (W main_v10_2 : S8192x1024.Idx → EReal) (ix2 ⟨b.val * 2048 + s.val, by omega⟩ h) := by
  have e : (StableHlo.after hostOps1 W main_v13 : S4x2048x1024.Idx → EReal)
      = shapeCast S4x2048x1024 (W main_v10_2 : S8192x1024.Idx → EReal) shapeCasts_S8192x1024_S4x2048x1024 := by
    show StableHlo.after hostOps1 W (Proc.devRef .tc main_v13) = _
    after_results
    rfl
  rw [e]
  exact batches_of_rows _ b s h

end Cert.KernelIdeal.HandValue

end
-- ==== Proof.IdealFiniteInputs.lean ====
/-
  The inputs are real numbers.

  The precondition says that, for each of the seven float arguments a, `jnp.all(|a| < +∞)` holds, and that the seven
  answers' conjunction is true.  On the extended reals |x| = max x (-x) is +∞ exactly at x = ±∞, so each conjunct says
  that every entry of its array is a real number.  Splitting the conjunction and reading each reduction by "and" back
  entry by entry gives the statement for all seven arrays.
-/
import proofs.«151986_j46763603919067_2_alg».proof.Defs
import Idealize.ShloMosaic.Lib.ReduceAll
import Idealize.ShloMosaic.Lib.ValueIdx

noncomputable section

namespace Cert.KernelIdeal.HandValue.Finite

open Idealize.ShloMosaic Idealize.ShloMosaic.TcCoe Idealize.SL.Sem Idealize.ShloMosaic.ValueIdx

/-- The result of a reduction over every axis has one index. -/
instance : Subsingleton Cert.Pre_finite_inputs.S_.Idx := ⟨fun a b => funext fun d => d.elim0⟩

/-- An extended real whose absolute value max x (-x) is below +∞ is a real: +∞ and -∞ both have absolute value +∞. -/
theorem real_of_abs_lt_top (x : EReal)
    (h : FloatOps.cmpf (F := Ideal) (φ := .f32) .olt (FloatOps.hostAbsf x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have h' : max x (-x) < ⊤ := by
    by_contra hn
    have h2 : Ideal.cmp .olt (max x (-x)) ⊤ = 1#1 := h
    unfold Ideal.cmp at h2
    dsimp only at h2
    rw [decide_eq_false hn] at h2
    exact absurd h2 (by decide)
  induction x using EReal.rec with
  | bot => simp at h'
  | coe r => exact ⟨r, rfl⟩
  | top => simp at h'

/-- `jnp.all(|a| < +∞)` being true says every entry of a is a real. -/
theorem all_real {s : Shape} {axes : List (Fin s.rank)} (a : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a) (broadcastInDim s ![] bc (constant (F := Ideal) Cert.Pre_finite_inputs.S_ .f32 0x7F800000#32)))
        (constantI Cert.Pre_finite_inputs.S_ 1 1#1) hr hu ix0 = 1#1) :
    ∀ i, ∃ r : ℝ, a i = (r : EReal) := fun i =>
  real_of_abs_lt_top (a i) (Host.reduce_andi_all _ _ hr hu ix0 e i)

variable [Cert.Pre_finite_inputs.Facts]

/-- The precondition's conjunction, split: each of the seven float arguments has only real entries. -/
theorem fn_real (a0 : FVec Ideal Cert.Pre_finite_inputs.S4x2048x1024 .f32) (a1 : IVec Cert.Pre_finite_inputs.S4x2048x2048 32)
    (a2 : FVec Ideal Cert.Pre_finite_inputs.S1024x1024 .f32) (a3 : FVec Ideal Cert.Pre_finite_inputs.S1024 .f32)
    (a4 : FVec Ideal Cert.Pre_finite_inputs.S1024x1024 .f32) (a5 : FVec Ideal Cert.Pre_finite_inputs.S1024 .f32)
    (a6 : FVec Ideal Cert.Pre_finite_inputs.S1024x1024 .f32) (a7 : FVec Ideal Cert.Pre_finite_inputs.S1024 .f32)
    (h : Cert.Pre_finite_inputs.fn (F := Ideal) a0 a1 a2 a3 a4 a5 a6 a7 ix0 = 1#1) :
    (∀ i, ∃ x : ℝ, a0 i = (x : EReal)) ∧ (∀ i, ∃ x : ℝ, a2 i = (x : EReal)) ∧ (∀ i, ∃ x : ℝ, a3 i = (x : EReal))
      ∧ (∀ i, ∃ x : ℝ, a4 i = (x : EReal)) ∧ (∀ i, ∃ x : ℝ, a5 i = (x : EReal)) ∧ (∀ i, ∃ x : ℝ, a6 i = (x : EReal))
      ∧ (∀ i, ∃ x : ℝ, a7 i = (x : EReal)) := by
  unfold Cert.Pre_finite_inputs.fn Cert.Pre_finite_inputs.fn_part1 at h
  dsimp only at h
  obtain ⟨h28, e7⟩ := IntOp.andi_eq_one.1 h
  obtain ⟨h23, e6⟩ := IntOp.andi_eq_one.1 h28
  obtain ⟨h18, e5⟩ := IntOp.andi_eq_one.1 h23
  obtain ⟨h13, e4⟩ := IntOp.andi_eq_one.1 h18
  obtain ⟨h8, e3⟩ := IntOp.andi_eq_one.1 h13
  obtain ⟨e0, e2⟩ := IntOp.andi_eq_one.1 h8
  exact ⟨all_real a0 _ _ _ e0, all_real a2 _ _ _ e2, all_real a3 _ _ _ e3, all_real a4 _ _ _ e4,
    all_real a5 _ _ _ e5, all_real a6 _ _ _ e6, all_real a7 _ _ _ e7⟩

end Cert.KernelIdeal.HandValue.Finite

namespace Cert.KernelIdeal.HandValue

open Idealize.ShloMosaic Idealize.ShloMosaic.TcCoe Idealize.SL.Sem Idealize.ShloMosaic.ValueIdx Cert.KernelIdeal

variable [Cert.Pre_finite_inputs.Facts]

/-- Under the precondition every entry of every float argument of the program is a real number. -/
theorem real_inputs (m : (ℓ : Loc nD τ sig) → Buf (Elt Ideal) ℓ) (hpre : Cert.Pre_KernelIdeal m) (c : Dev nD) :
    (∀ i, ∃ x : ℝ, m ((c.tc : Thread nD τ).loc main_arg0) i = (x : EReal))
      ∧ (∀ i, ∃ x : ℝ, m ((c.tc : Thread nD τ).loc main_arg2) i = (x : EReal))
      ∧ (∀ i, ∃ x : ℝ, m ((c.tc : Thread nD τ).loc main_arg3) i = (x : EReal))
      ∧ (∀ i, ∃ x : ℝ, m ((c.tc : Thread nD τ).loc main_arg4) i = (x : EReal))
      ∧ (∀ i, ∃ x : ℝ, m ((c.tc : Thread nD τ).loc main_arg5) i = (x : EReal))
      ∧ (∀ i, ∃ x : ℝ, m ((c.tc : Thread nD τ).loc main_arg6) i = (x : EReal))
      ∧ (∀ i, ∃ x : ℝ, m ((c.tc : Thread nD τ).loc main_arg7) i = (x : EReal)) :=
  Finite.fn_real _ _ _ _ _ _ _ _ (congrFun (hpre c) ix0)

end Cert.KernelIdeal.HandValue

end
-- ==== Proof.AttnBridge.lean ====
/-
  The two orders of computing attention agree on real data.

  The kernel multiplies a masked inner product by 1/32, the reference divides it by 32: on every extended real the
  quotient by the real 32 is the product with 1/32, so the two scores are one function.  The kernel divides the
  weighted sum of value rows by the sum of the weights, the reference normalises each weight first: with real scores
  the row maximum is real, every weight exp(s - M) is a positive real, their sum is a positive real, and
  Σ_k (e_k / L) · v_k = (Σ_k e_k · v_k) / L holds in ℝ.  A linear layer of reals is real, and the kernel's flattened
  row r = b·2048 + s reads the same entries as the reference's (b, s).
-/
import proofs.«151986_j46763603919067_2_alg».proof.Proof.AttnSpec
import Idealize.ShloMosaic.PureOps.Ideal.Laws

noncomputable section

namespace Cert.Attn

open Idealize.ShloMosaic

/-! ## Finite sums of reals, coerced -/

/-- The coercion of reals into the extended reals commutes with a finite sum. -/
theorem coe_sum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- An inner product of two real rows is real. -/
theorem dot_real {ι : Type*} [Fintype ι] (u v : ι → EReal)
    (hu : ∀ i, ∃ r : ℝ, u i = (r : EReal)) (hv : ∀ i, ∃ r : ℝ, v i = (r : EReal)) :
    ∃ r : ℝ, (∑ i, u i * v i) = (r : EReal) := by
  choose ur hu using hu
  choose vr hv using hv
  refine ⟨∑ i, ur i * vr i, ?_⟩
  rw [coe_sum]
  exact Finset.sum_congr rfl fun i _ => by rw [hu i, hv i, EReal.coe_mul]

/-! ## The three single-precision words -/

/-- The word 0x3D000000 denotes the real 1/32. -/
theorem scaleMul_eq : scaleMul = ((1 / 32 : ℝ) : EReal) := by
  unfold scaleMul
  simp [Ideal.ofBits, Ideal.ieee, -EReal.coe_mul]; norm_num

/-- The word 0x42000000 denotes the real 32. -/
theorem scaleDiv_eq : scaleDiv = ((32 : ℝ) : EReal) := by
  unfold scaleDiv
  simp [Ideal.ofBits, Ideal.ieee, -EReal.coe_mul]; norm_num

/-- The word 0xCE6E6B28 denotes the real -10⁹. -/
theorem negBig_eq : negBig = ((-1000000000 : ℝ) : EReal) := by
  unfold negBig
  simp [Ideal.ofBits, Ideal.ieee, -EReal.coe_mul]; norm_num

/-! ## Linear layers -/

theorem linR_real (x : Fin 4 → Fin 2048 → Fin 1024 → EReal) (W : Fin 1024 → Fin 1024 → EReal) (B : Fin 1024 → EReal)
    (hx : ∀ b s h, ∃ r : ℝ, x b s h = (r : EReal)) (hW : ∀ o h, ∃ r : ℝ, W o h = (r : EReal)) (hB : ∀ o, ∃ r : ℝ, B o = (r : EReal))
    (b : Fin 4) (s : Fin 2048) (o : Fin 1024) : ∃ y : ℝ, linR x W B b s o = (y : EReal) := by
  obtain ⟨d, hd⟩ := dot_real (fun h => x b s h) (fun h => W o h) (fun h => hx b s h) (fun h => hW o h)
  obtain ⟨c, hc⟩ := hB o
  refine ⟨d + c, ?_⟩
  unfold linR
  rw [hd, hc, EReal.coe_add]

/-- Row `b·2048 + s` of the flattened input is row `(b, s)`, and the transposed weight's column `o` is the weight's row `o`. -/
theorem lin_eq_linR (x : Fin 4 → Fin 2048 → Fin 1024 → EReal) (W : Fin 1024 → Fin 1024 → EReal) (B : Fin 1024 → EReal) (b : Fin 4) (s : Fin 2048) (o : Fin 1024) :
    lin (fun r h => x ⟨r.val / 2048, by omega⟩ ⟨r.val % 2048, Nat.mod_lt _ (by norm_num)⟩ h) (fun h o => W o h) B ⟨b.val * 2048 + s.val, by omega⟩ o = linR x W B b s o := by
  have hb : (⟨(b.val * 2048 + s.val) / 2048, by omega⟩ : Fin 4) = b := Fin.ext (by show (b.val * 2048 + s.val) / 2048 = b.val; omega)
  have hs : (⟨(b.val * 2048 + s.val) % 2048, Nat.mod_lt _ (by norm_num)⟩ : Fin 2048) = s := Fin.ext (by show (b.val * 2048 + s.val) % 2048 = s.val; omega)
  unfold lin linR
  simp only [hb, hs]

/-! ## Scores -/

/-- The product with 1/32 is the quotient by 32, on every extended real: the two scores are one function. -/
theorem score_eq_scoreR : score = scoreR := by
  funext Q K Msk b q k
  unfold score scoreR
  rw [scaleMul_eq, scaleDiv_eq, Ideal.div_coe (by norm_num : (32 : ℝ) ≠ 0)]

/-- A score of real queries and keys is real. -/
theorem scoreR_real (Q K : Fin 4 → Fin 2048 → Fin 1024 → EReal) (Msk : Fin 4 → Fin 2048 → Fin 2048 → BitVec 32)
    (hQ : ∀ b s h, ∃ r : ℝ, Q b s h = (r : EReal)) (hK : ∀ b s h, ∃ r : ℝ, K b s h = (r : EReal))
    (b : Fin 4) (q k : Fin 2048) : ∃ r : ℝ, scoreR Q K Msk b q k = (r : EReal) := by
  unfold scoreR
  rw [scaleDiv_eq, Ideal.div_coe (by norm_num : (32 : ℝ) ≠ 0)]
  by_cases hm : Msk b q k = 0#32
  · rw [if_pos hm, negBig_eq, ← EReal.coe_mul]; exact ⟨_, rfl⟩
  · obtain ⟨d, hd⟩ := dot_real (fun h => Q b q h) (fun h => K b k h) (fun h => hQ b q h) (fun h => hK b k h)
    rw [if_neg hm, hd, ← EReal.coe_mul]; exact ⟨_, rfl⟩

/-- The maximum of a nonempty finite row of reals is real. -/
theorem rowMax_real (s : Fin 2048 → EReal) (hs : ∀ k, ∃ r : ℝ, s k = (r : EReal)) : ∃ r : ℝ, rowMax s = (r : EReal) := by
  obtain ⟨k0, -, hk0⟩ := Finset.exists_mem_eq_sup Finset.univ Finset.univ_nonempty s
  obtain ⟨r, hr⟩ := hs k0
  exact ⟨r, hk0.trans hr⟩

/-! ## Normalising after the weighted sum, or before -/

/-- With real scores `s`, a real shift `M` and real values `v`:  (Σ_k e_k · v_k) / L = Σ_k (e_k / L) · v_k  where
    e_k = exp(s_k - M) and L = Σ_k e_k > 0. -/
theorem normalise_after_eq_before {ι : Type*} [Fintype ι] [Nonempty ι] (s v : ι → EReal) (M : EReal)
    (hs : ∀ k, ∃ r : ℝ, s k = (r : EReal)) (hM : ∃ r : ℝ, M = (r : EReal)) (hv : ∀ k, ∃ r : ℝ, v k = (r : EReal)) :
    Ideal.div (∑ k, Ideal.exp (s k - M) * v k) (∑ k, Ideal.exp (s k - M))
      = ∑ k, Ideal.div (Ideal.exp (s k - M)) (∑ k', Ideal.exp (s k' - M)) * v k := by
  choose sr hs using hs
  obtain ⟨Mr, rfl⟩ := hM
  choose vr hv using hv
  have he : ∀ k, Ideal.exp (s k - (Mr : EReal)) = ((Real.exp (sr k - Mr) : ℝ) : EReal) := fun k => by
    rw [hs k, ← EReal.coe_sub]; rfl
  have hL : (∑ k, Ideal.exp (s k - (Mr : EReal))) = ((∑ k, Real.exp (sr k - Mr) : ℝ) : EReal) := by
    rw [coe_sum]; exact Finset.sum_congr rfl fun k _ => he k
  have hpos : (∑ k, Real.exp (sr k - Mr)) ≠ 0 :=
    (Finset.sum_pos (fun k _ => Real.exp_pos _) Finset.univ_nonempty).ne'
  rw [hL, Ideal.div_coe hpos]
  have hl : (∑ k, Ideal.exp (s k - (Mr : EReal)) * v k) = ((∑ k, Real.exp (sr k - Mr) * vr k : ℝ) : EReal) := by
    rw [coe_sum]; exact Finset.sum_congr rfl fun k _ => by rw [he k, hv k, EReal.coe_mul]
  have hr : ∀ k, Ideal.div (Ideal.exp (s k - (Mr : EReal))) ((∑ k, Real.exp (sr k - Mr) : ℝ) : EReal) * v k
      = ((Real.exp (sr k - Mr) * (1 / ∑ k, Real.exp (sr k - Mr)) * vr k : ℝ) : EReal) := fun k => by
    rw [Ideal.div_coe hpos, he k, hv k, EReal.coe_mul, EReal.coe_mul]
  rw [hl, ← EReal.coe_mul, Finset.sum_congr rfl fun k _ => hr k, ← coe_sum, Finset.sum_mul]
  exact congrArg _ (Finset.sum_congr rfl fun k _ => by ring)

/-! ## Attention -/

theorem attn_eq_attnR (Q K V : Fin 4 → Fin 2048 → Fin 1024 → EReal) (Msk : Fin 4 → Fin 2048 → Fin 2048 → BitVec 32)
    (hQ : ∀ b s h, ∃ r : ℝ, Q b s h = (r : EReal)) (hK : ∀ b s h, ∃ r : ℝ, K b s h = (r : EReal)) (hV : ∀ b s h, ∃ r : ℝ, V b s h = (r : EReal))
    (b : Fin 4) (q : Fin 2048) (h : Fin 1024) : attn Q K V Msk b q h = attnR Q K V Msk b q h := by
  unfold attn attnR
  rw [score_eq_scoreR]
  exact normalise_after_eq_before (scoreR Q K Msk b q) (fun k => V b k h) (rowMax (scoreR Q K Msk b q))
    (fun k => scoreR_real Q K Msk hQ hK b q k)
    (rowMax_real _ fun k => scoreR_real Q K Msk hQ hK b q k)
    (fun k => hV b k h)

end Cert.Attn

end
-- ==== Proof.IdealRefValue.lean ====
/-
  The value the reference program computes, as mathematics: attention in the reference's own order
  (scores divided by 32, every weight normalised before the weighted sum of value rows) applied to the
  three linear layers of its arguments.
-/
import proofs.«151986_j46763603919067_2_alg».proof.Proof.Gen.ReferenceIdeal.Run
import proofs.«151986_j46763603919067_2_alg».proof.Proof.Gen.ReferenceIdeal.Read
import proofs.«151986_j46763603919067_2_alg».proof.Proof.AttnSpec
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The reference's result as a function of its eight arguments: entry `(b, q, h)` is attention, in the
    reference's order, of the query, key and value layers `x·Wᵀ + bias` of the input `a0` under the mask `a1`. -/
def refG (a0 : S4x2048x1024.Idx → EReal) (a1 : S4x2048x2048.Idx → BitVec 32)
    (a2 : S1024x1024.Idx → EReal) (a3 : S1024.Idx → EReal)
    (a4 : S1024x1024.Idx → EReal) (a5 : S1024.Idx → EReal)
    (a6 : S1024x1024.Idx → EReal) (a7 : S1024.Idx → EReal) : S4x2048x1024.Idx → EReal :=
  fun i =>
    Cert.Attn.attnR
      (Cert.Attn.linR (fun b s h => a0 (ix3 b s h)) (fun o h => a2 (ix2 o h)) (fun o => a3 (ix1 o)))
      (Cert.Attn.linR (fun b s h => a0 (ix3 b s h)) (fun o h => a4 (ix2 o h)) (fun o => a5 (ix1 o)))
      (Cert.Attn.linR (fun b s h => a0 (ix3 b s h)) (fun o h => a6 (ix2 o h)) (fun o => a7 (ix1 o)))
      (fun b q k => a1 (ix3 b q k))
      ⟨(i 0).val, (i 0).isLt⟩ ⟨(i 1).val, (i 1).isLt⟩ ⟨(i 2).val, (i 2).isLt⟩

open Cert.ReferenceIdeal.Read

/-! ## The reference's stages read at coordinates -/

section Stages

variable (x0 : (⟨S4x2048x1024, .f32⟩ : BufTy).Contents (Elt Ideal)) (x1 : (⟨S4x2048x2048, .i32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))

/-- The query layer: the contraction of `x[b,s,·]` with row `o` of the first weight, plus the first bias at `o`. -/
theorem queries_read (b : Fin 4) (s : Fin 2048) (o : Fin 1024) :
    val_main_v3 (F := Ideal) x0 x2 x3 (ix3 b s o)
      = Cert.Attn.linR (fun b s h => x0 (ix3 b s h)) (fun o h => x2 (ix2 o h)) (fun o => x3 (ix1 o)) b s o := by
  rw [val_main_v3_apply, val_main_v0_apply, val_main_v2_apply, val_main_v1_apply]
  have e1 : ∀ k : Fin 1024, lidx_main_v0 (ix3 b s o) k = ix3 b s k := fun k => funext fun a => by
    match a with | ⟨0, _⟩ => rfl | ⟨1, _⟩ => rfl | ⟨2, _⟩ => rfl
  have e2 : ∀ k : Fin 1024, ridx_main_v0 (ix3 b s o) k = ix2 o k := fun k => funext fun a => by
    match a with | ⟨0, _⟩ => rfl | ⟨1, _⟩ => rfl
  have e3 : idx_main_v1 (idx_main_v2 (ix3 b s o)) = ix1 o := funext fun a => by
    match a with | ⟨0, _⟩ => rfl
  simp only [e1, e2, e3, Ideal.addf_def]
  rfl

/-- The key layer: the same contraction with the second weight and bias. -/
theorem keys_read (b : Fin 4) (s : Fin 2048) (o : Fin 1024) :
    val_main_v7 (F := Ideal) x0 x4 x5 (ix3 b s o)
      = Cert.Attn.linR (fun b s h => x0 (ix3 b s h)) (fun o h => x4 (ix2 o h)) (fun o => x5 (ix1 o)) b s o := by
  rw [val_main_v7_apply, val_main_v4_apply, val_main_v6_apply, val_main_v5_apply]
  have e1 : ∀ k : Fin 1024, lidx_main_v4 (ix3 b s o) k = ix3 b s k := fun k => funext fun a => by
    match a with | ⟨0, _⟩ => rfl | ⟨1, _⟩ => rfl | ⟨2, _⟩ => rfl
  have e2 : ∀ k : Fin 1024, ridx_main_v4 (ix3 b s o) k = ix2 o k := fun k => funext fun a => by
    match a with | ⟨0, _⟩ => rfl | ⟨1, _⟩ => rfl
  have e3 : idx_main_v5 (idx_main_v6 (ix3 b s o)) = ix1 o := funext fun a => by
    match a with | ⟨0, _⟩ => rfl
  simp only [e1, e2, e3, Ideal.addf_def]
  rfl

/-- The value layer: the same contraction with the third weight and bias. -/
theorem values_read (b : Fin 4) (s : Fin 2048) (o : Fin 1024) :
    val_main_v11 (F := Ideal) x0 x6 x7 (ix3 b s o)
      = Cert.Attn.linR (fun b s h => x0 (ix3 b s h)) (fun o h => x6 (ix2 o h)) (fun o => x7 (ix1 o)) b s o := by
  rw [val_main_v11_apply, val_main_v8_apply, val_main_v10_apply, val_main_v9_apply]
  have e1 : ∀ k : Fin 1024, lidx_main_v8 (ix3 b s o) k = ix3 b s k := fun k => funext fun a => by
    match a with | ⟨0, _⟩ => rfl | ⟨1, _⟩ => rfl | ⟨2, _⟩ => rfl
  have e2 : ∀ k : Fin 1024, ridx_main_v8 (ix3 b s o) k = ix2 o k := fun k => funext fun a => by
    match a with | ⟨0, _⟩ => rfl | ⟨1, _⟩ => rfl
  have e3 : idx_main_v9 (idx_main_v10 (ix3 b s o)) = ix1 o := funext fun a => by
    match a with | ⟨0, _⟩ => rfl
  simp only [e1, e2, e3, Ideal.addf_def]
  rfl

/-- A select on the word of an integer equality test is an `if` on the equality. -/
theorem select_cmpi_eq {α : Type} (a c : BitVec 32) (u v : α) :
    Scalar.select (IntOp.cmpi .eq a c) u v = if a = c then u else v := by
  unfold Scalar.select
  exact if_congr IntOp.cmpi_eq rfl rfl

/-- The scaled score: the inner product of query row `q` and key row `k`, -10⁹ where the mask is zero, over 32. -/
theorem score_read (b : Fin 4) (q k : Fin 2048) :
    val_main_v17 (F := Ideal) x0 x1 x2 x3 x4 x5 (ix3 b q k)
      = Cert.Attn.scoreR
          (Cert.Attn.linR (fun b s h => x0 (ix3 b s h)) (fun o h => x2 (ix2 o h)) (fun o => x3 (ix1 o)))
          (Cert.Attn.linR (fun b s h => x0 (ix3 b s h)) (fun o h => x4 (ix2 o h)) (fun o => x5 (ix1 o)))
          (fun b q k => x1 (ix3 b q k)) b q k := by
  rw [val_main_v17_apply, val_main_v15_apply, val_main_v14_apply, val_main_v13_apply, val_main_c_apply,
    val_main_call0_v0_apply, val_main_cst_apply, val_main_v12_apply, val_main_v16_apply, val_main_cst_0_apply]
  have e1 : ∀ h : Fin 1024, lidx_main_v12 (ix3 b q k) h = ix3 b q h := fun h => funext fun a => by
    match a with | ⟨0, _⟩ => rfl | ⟨1, _⟩ => rfl | ⟨2, _⟩ => rfl
  have e2 : ∀ h : Fin 1024, ridx_main_v12 (ix3 b q k) h = ix3 b k h := fun h => funext fun a => by
    match a with | ⟨0, _⟩ => rfl | ⟨1, _⟩ => rfl | ⟨2, _⟩ => rfl
  simp only [e1, e2, queries_read, keys_read, select_cmpi_eq, Ideal.hostDivf_def, Ideal.ofBits_def]
  rfl

/-- The reduced index `(b, q)` with coordinate `k` put back on the last axis is `(b, q, k)`. -/
theorem lift_last (hr : S4x2048x2048.Reduces [2] S4x2048) (b : Fin 4) (q : Fin 2048) (k : Fin (S4x2048x2048.size 2)) :
    hr.lift (ix2 b q) k = ix3 b q (⟨k.val, k.isLt⟩ : Fin 2048) := by
  funext c; apply Fin.ext
  match c with
  | ⟨0, _⟩ => rfl
  | ⟨1, _⟩ => rfl
  | ⟨2, _⟩ => rfl

/-- The word 0xFF800000 denotes -∞. -/
theorem ofBits_negInf : Ideal.ofBits .f32 0xFF800000#32 = (⊥ : EReal) := by
  simp [Ideal.ofBits, Ideal.ieee]

/-- From -∞ the reduce with a maximum body over the last axis, at `(b, q)`, is the row's supremum. -/
theorem hostRowMax (y : (⟨S4x2048x2048, .f32⟩ : BufTy).Contents (Elt Ideal)) (b : Fin 4) (q : Fin 2048) :
    Host.reduce (FloatOps.maximumf (F := Ideal) (φ := .f32)) y (constant (F := Ideal) S_ .f32 0xFF800000#32)
        reducesTo_S4x2048x2048_S4x2048_d2 h_S_ (ix2 b q)
      = Finset.univ.sup fun k : Fin 2048 => y (ix3 b q k) := by
  have hr : S4x2048x2048.Reduces [2] S4x2048 := by decide
  refine (Host.reduce_eq_fold_single (FloatOps.maximumf (F := Ideal) (φ := .f32)) y
    (constant (F := Ideal) S_ .f32 0xFF800000#32) reducesTo_S4x2048x2048_S4x2048_d2 hr h_S_ (ix2 b q)).trans ?_
  have hf : (y ∘ hr.lift (ix2 b q)) = fun k : Fin 2048 => y (ix3 b q k) :=
    funext fun k => congrArg y (lift_last hr b q k)
  have hi : (constant (F := Ideal) S_ .f32 0xFF800000#32) (Shape.Idx.first h_S_) = (⊥ : EReal) := ofBits_negInf
  rw [hi]
  exact congrArg (fun f => Finset.fold max (⊥ : EReal) f (Finset.univ : Finset (Fin 2048))) hf

/-- The row maximum: the maximum with -∞ of the reduce from -∞ of row `(b, q)` of the scaled scores. -/
theorem rowMax_read (b : Fin 4) (q : Fin 2048) :
    val_main_v20 (F := Ideal) x0 x1 x2 x3 x4 x5 (ix2 b q)
      = Cert.Attn.rowMax (Cert.Attn.scoreR
          (Cert.Attn.linR (fun b s h => x0 (ix3 b s h)) (fun o h => x2 (ix2 o h)) (fun o => x3 (ix1 o)))
          (Cert.Attn.linR (fun b s h => x0 (ix3 b s h)) (fun o h => x4 (ix2 o h)) (fun o => x5 (ix1 o)))
          (fun b q k => x1 (ix3 b q k)) b q) := by
  rw [val_main_v20_apply, val_main_v19_apply, val_main_cst_2_apply]
  unfold val_main_v18 val_main_cst_1
  rw [hostRowMax, Ideal.maximumf_def, Ideal.ofBits_def, ofBits_negInf, max_eq_right bot_le]
  unfold Cert.Attn.rowMax
  exact congrArg (fun f => Finset.univ.sup f) (funext fun k => score_read x0 x1 x2 x3 x4 x5 b q k)

/-- A weight before normalising: the exponential of the score less its row's maximum. -/
theorem expo_read (b : Fin 4) (q k : Fin 2048) :
    val_main_v24 (F := Ideal) x0 x1 x2 x3 x4 x5 (ix3 b q k)
      = Ideal.exp (Cert.Attn.scoreR
          (Cert.Attn.linR (fun b s h => x0 (ix3 b s h)) (fun o h => x2 (ix2 o h)) (fun o => x3 (ix1 o)))
          (Cert.Attn.linR (fun b s h => x0 (ix3 b s h)) (fun o h => x4 (ix2 o h)) (fun o => x5 (ix1 o)))
          (fun b q k => x1 (ix3 b q k)) b q k
        - Cert.Attn.rowMax (Cert.Attn.scoreR
          (Cert.Attn.linR (fun b s h => x0 (ix3 b s h)) (fun o h => x2 (ix2 o h)) (fun o => x3 (ix1 o)))
          (Cert.Attn.linR (fun b s h => x0 (ix3 b s h)) (fun o h => x4 (ix2 o h)) (fun o => x5 (ix1 o)))
          (fun b q k => x1 (ix3 b q k)) b q)) := by
  rw [val_main_v24_apply, val_main_v23_apply, val_main_v22_apply, val_main_v21_apply]
  have e1 : idx_main_v21 (idx_main_v22 (ix3 b q k)) = ix2 b q := funext fun a => by
    match a with | ⟨0, _⟩ => rfl | ⟨1, _⟩ => rfl
  rw [e1, score_read, rowMax_read, Ideal.hostUnary_exp_def, Ideal.subf_def]

/-- The sum of a row's weights: zero plus the sum over the last axis. -/
theorem total_read (b : Fin 4) (q : Fin 2048) :
    val_main_v25 (F := Ideal) x0 x1 x2 x3 x4 x5 (ix2 b q)
      = ∑ k : Fin 2048, Ideal.exp (Cert.Attn.scoreR
          (Cert.Attn.linR (fun b s h => x0 (ix3 b s h)) (fun o h => x2 (ix2 o h)) (fun o => x3 (ix1 o)))
          (Cert.Attn.linR (fun b s h => x0 (ix3 b s h)) (fun o h => x4 (ix2 o h)) (fun o => x5 (ix1 o)))
          (fun b q k => x1 (ix3 b q k)) b q k
        - Cert.Attn.rowMax (Cert.Attn.scoreR
          (Cert.Attn.linR (fun b s h => x0 (ix3 b s h)) (fun o h => x2 (ix2 o h)) (fun o => x3 (ix1 o)))
          (Cert.Attn.linR (fun b s h => x0 (ix3 b s h)) (fun o h => x4 (ix2 o h)) (fun o => x5 (ix1 o)))
          (fun b q k => x1 (ix3 b q k)) b q)) := by
  rw [val_main_v25_apply, val_main_cst_3_apply, Ideal.ofBits_def, Ideal.ofBits_zero_f32, zero_add]
  refine Finset.sum_congr rfl fun k _ => ?_
  have e1 : idx_main_v25 (ix2 b q) k = ix3 b q k := funext fun a => by
    match a with | ⟨0, _⟩ => rfl | ⟨1, _⟩ => rfl | ⟨2, _⟩ => rfl
  rw [e1, expo_read]

/-- A normalised weight: the weight over its row's sum. -/
theorem weight_read (b : Fin 4) (q k : Fin 2048) :
    val_main_v28 (F := Ideal) x0 x1 x2 x3 x4 x5 (ix3 b q k)
      = Ideal.div (Ideal.exp (Cert.Attn.scoreR
          (Cert.Attn.linR (fun b s h => x0 (ix3 b s h)) (fun o h => x2 (ix2 o h)) (fun o => x3 (ix1 o)))
          (Cert.Attn.linR (fun b s h => x0 (ix3 b s h)) (fun o h => x4 (ix2 o h)) (fun o => x5 (ix1 o)))
          (fun b q k => x1 (ix3 b q k)) b q k
        - Cert.Attn.rowMax (Cert.Attn.scoreR
          (Cert.Attn.linR (fun b s h => x0 (ix3 b s h)) (fun o h => x2 (ix2 o h)) (fun o => x3 (ix1 o)))
          (Cert.Attn.linR (fun b s h => x0 (ix3 b s h)) (fun o h => x4 (ix2 o h)) (fun o => x5 (ix1 o)))
          (fun b q k => x1 (ix3 b q k)) b q)))
        (∑ k' : Fin 2048, Ideal.exp (Cert.Attn.scoreR
          (Cert.Attn.linR (fun b s h => x0 (ix3 b s h)) (fun o h => x2 (ix2 o h)) (fun o => x3 (ix1 o)))
          (Cert.Attn.linR (fun b s h => x0 (ix3 b s h)) (fun o h => x4 (ix2 o h)) (fun o => x5 (ix1 o)))
          (fun b q k => x1 (ix3 b q k)) b q k'
        - Cert.Attn.rowMax (Cert.Attn.scoreR
          (Cert.Attn.linR (fun b s h => x0 (ix3 b s h)) (fun o h => x2 (ix2 o h)) (fun o => x3 (ix1 o)))
          (Cert.Attn.linR (fun b s h => x0 (ix3 b s h)) (fun o h => x4 (ix2 o h)) (fun o => x5 (ix1 o)))
          (fun b q k => x1 (ix3 b q k)) b q))) := by
  rw [val_main_v28_apply, val_main_v27_apply, val_main_v26_apply]
  have e1 : idx_main_v26 (idx_main_v27 (ix3 b q k)) = ix2 b q := funext fun a => by
    match a with | ⟨0, _⟩ => rfl | ⟨1, _⟩ => rfl
  rw [e1, expo_read, total_read, Ideal.hostDivf_def]

/-- The reference's last stage at `(b, q, h)`: the normalised weights of row `(b, q)` against column `h` of the values. -/
theorem result_read (b : Fin 4) (q : Fin 2048) (h : Fin 1024) :
    val_main_v29 (F := Ideal) x0 x1 x2 x3 x4 x5 x6 x7 (ix3 b q h) = refG x0 x1 x2 x3 x4 x5 x6 x7 (ix3 b q h) := by
  rw [val_main_v29_apply]
  unfold refG Cert.Attn.attnR
  refine Finset.sum_congr rfl fun k _ => ?_
  have e1 : lidx_main_v29 (ix3 b q h) k = ix3 b q k := funext fun a => by
    match a with | ⟨0, _⟩ => rfl | ⟨1, _⟩ => rfl | ⟨2, _⟩ => rfl
  have e2 : ridx_main_v29 (ix3 b q h) k = ix3 b k h := funext fun a => by
    match a with | ⟨0, _⟩ => rfl | ⟨1, _⟩ => rfl | ⟨2, _⟩ => rfl
  rw [e1, e2, weight_read, values_read]

/-- The reference's last stage is `refG` of the arguments. -/
theorem result_eq : val_main_v29 (F := Ideal) x0 x1 x2 x3 x4 x5 x6 x7 = refG x0 x1 x2 x3 x4 x5 x6 x7 := by
  funext i
  obtain ⟨b, q, h, rfl⟩ : ∃ (b : Fin 4) (q : Fin 2048) (h : Fin 1024), i = ix3 b q h := ⟨i 0, i 1, i 2, eq_ix3 i⟩
  exact result_read x0 x1 x2 x3 x4 x5 x6 x7 b q h

end Stages

/-! ## The run -/

/-- Every weakly fair execution of the reference from memory `m'` ends with its result array at `refG` of the eight
    arguments as `m'` holds them, and the arguments unchanged. -/
theorem run_refG (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v29)
          = refG (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono
    (fun _ h c => ⟨(h c).1.trans ((Cert.ReferenceIdeal.Read.val_main_v29_eq m' c).trans (result_eq _ _ _ _ _ _ _ _)), (h c).2⟩)
    (Cert.ReferenceIdeal.Value.run (F := Ideal) m' ρ')

end Cert.ReferenceIdeal.RefValue

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.LibTransposeMatrix.lean ====
import Idealize.ShloMosaic.Lib.ValueIdx
import Idealize.ShloMosaic.Lib.Pipeline.Value

/-!
# A matrix transpose read at an entry

The transpose of a matrix `[a, b]` with the permutation `[1, 0]` is the matrix `[b, a]` whose entry `(p, q)` is the
operand's entry `(q, p)`, for any extents (a column `[a, 1]` and a row `[1, b]` included). No proof enumerates an extent.
-/

namespace Cert.LibTransposeMatrix

open Idealize.ShloMosaic Idealize.ShloMosaic.ValueIdx

/-- The transpose of `w : [a, b]` reads, at `(p, q)`, the operand at `(q, p)`. -/
theorem transpose_ab_ba_apply {α : Type} {a b : ℕ} (w : (⟨2, ![a, b]⟩ : Shape).Idx → α)
    (h : (⟨2, ![a, b]⟩ : Shape).Transposes [1, 0] ⟨2, ![b, a]⟩) (p : Fin b) (q : Fin a) :
    transpose ⟨2, ![b, a]⟩ [1, 0] w h (ix2 p q) = w (ix2 q p) := by
  refine transpose_apply [1, 0] w h (ix2 p q) (ix2 q p) fun i => ?_
  match i with
  | ⟨0, _⟩ => rfl
  | ⟨1, _⟩ => rfl

end Cert.LibTransposeMatrix
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.IdealAttnValueLayout.lean ====
/-
  A block with a leading unit axis against the matrix under it, read at an entry: a [1, a, b] block viewed as [a, b]
  reads (0, p, c) at (p, c), and an [a, b] matrix stored as a [1, a, b] block reads (p, c) at (u, p, c): both entries
  have the same row-major position p * b + c.
-/
import Idealize.ShloMosaic.Lib.ValueIdx
import Idealize.ShloMosaic.Lib.Pipeline.Value

namespace Cert.KernelIdeal.HandValue.AttnCall

open Idealize.ShloMosaic Idealize.ShloMosaic.ValueIdx

/-- A [1, a, b] block viewed as the matrix [a, b] reads, at (p, c), the block at (0, p, c). -/
theorem shapeCast_1ab_ab_apply {α : Type} {a b : ℕ} (v : (⟨3, ![1, a, b]⟩ : Shape).Idx → α)
    (h : (⟨3, ![1, a, b]⟩ : Shape).ShapeCasts ⟨2, ![a, b]⟩) (p : Fin a) (c : Fin b) :
    shapeCast ⟨2, ![a, b]⟩ v h (ix2 p c) = v (ix3 (0 : Fin 1) p c) :=
  shapeCast_apply v h _ _ (by
    rw [Shape.rowMajor_val_three, Shape.rowMajor_val_two]
    show (0 * a + p.val) * b + c.val = p.val * b + c.val
    rw [Nat.zero_mul, Nat.zero_add])

/-- A matrix [a, b] stored as a [1, a, b] block reads, at (u, p, c), the matrix at (p, c). -/
theorem shapeCast_ab_1ab_apply {α : Type} {a b : ℕ} (v : (⟨2, ![a, b]⟩ : Shape).Idx → α)
    (h : (⟨2, ![a, b]⟩ : Shape).ShapeCasts ⟨3, ![1, a, b]⟩) (u : Fin 1) (p : Fin a) (c : Fin b) :
    shapeCast ⟨3, ![1, a, b]⟩ v h (ix3 u p c) = v (ix2 p c) :=
  shapeCast_apply v h _ _ (by
    have hu : u.val = 0 := by omega
    rw [Shape.rowMajor_val_three, Shape.rowMajor_val_two]
    show p.val * b + c.val = (u.val * a + p.val) * b + c.val
    rw [hu, Nat.zero_mul, Nat.zero_add])

end Cert.KernelIdeal.HandValue.AttnCall
-- ==== Proof.IdealAttnValuePay.lean ====
/-
  The attention kernel's per-tile payloads read at an entry, over the extended reals.

  For a block of 1024 query rows q, a tile of 512 key rows k and the tile's mask, the score at (r, j) is the inner
  product of query row r and key row j, replaced by -10⁹ where the mask is zero, times 1/32.  The new running maximum
  of row r is the maximum of the old one and of the row's 512 scores; the rescaling factor is exp (m - m'), the weights
  are exp (s - m'), and the new normaliser is the rescaled old one plus the sum of the row's weights.
-/
import proofs.«151986_j46763603919067_2_alg».proof.Proof.Gen.KernelIdeal.Skeleton
import proofs.«151986_j46763603919067_2_alg».proof.Proof.AttnSpec
import proofs.«151986_j46763603919067_2_alg».proof.Proof.LibMatmulRowsByCols
import proofs.«151986_j46763603919067_2_alg».proof.Proof.LibTransposeMatrix
import proofs.«151986_j46763603919067_2_alg».proof.Proof.LibColumnLayout
import proofs.«151986_j46763603919067_2_alg».proof.Proof.IdealAttnValueLayout
import Idealize.ShloMosaic.Lib.ValueIdx
import Idealize.ShloMosaic.Lib.Pipeline.Value
import Idealize.ShloMosaic.PureOps.Ideal.Laws

noncomputable section

namespace Cert.KernelIdeal.HandValue.AttnCall

open Idealize.ShloMosaic Idealize.ShloMosaic.ValueIdx Cert.KernelIdeal Cert.KernelIdeal.Gen

/-- A query block's entry (r, h). -/
abbrev qAt (q : Vec Ideal S1x1024x1024 .bf16) (r h : Fin 1024) : EReal := (q : S1x1024x1024.Idx → EReal) (ix3 (0 : Fin 1) r h)
/-- A key or value tile's entry (j, h). -/
abbrev kAt (k : Vec Ideal S1x512x1024 .bf16) (j : Fin 512) (h : Fin 1024) : EReal := (k : S1x512x1024.Idx → EReal) (ix3 (0 : Fin 1) j h)
/-- A mask tile's entry (r, j). -/
abbrev mAt (msk : Vec Ideal S1x1024x512 .i32) (r : Fin 1024) (j : Fin 512) : BitVec 32 := (msk : S1x1024x512.Idx → BitVec 32) (ix3 (0 : Fin 1) r j)

/-- The tile's score at (r, j): the masked inner product of query row r and key row j, times 1/32. -/
def tscore (q : Vec Ideal S1x1024x1024 .bf16) (k : Vec Ideal S1x512x1024 .bf16) (msk : Vec Ideal S1x1024x512 .i32)
    (r : Fin 1024) (j : Fin 512) : EReal :=
  (if mAt msk r j = 0#32 then Cert.Attn.negBig else ∑ h : Fin 1024, qAt q r h * kAt k j h) * Cert.Attn.scaleMul

/-- A select on "the word is zero" is the if on that equation. -/
theorem select_eq_zero {α : Type} (x : BitVec 32) (a b : α) :
    Scalar.select (IntOp.cmpi .eq x 0#32) a b = if x = 0#32 then a else b := by
  unfold Scalar.select IntOp.cmpi
  by_cases h : x = 0#32
  · rw [if_pos h, h]; rfl
  · rw [if_neg h]
    have hb : (x == 0#32) = false := beq_eq_false_iff_ne.mpr h
    show (if BitVec.ofBool (x == 0#32) = 1 then a else b) = b
    rw [hb]; rfl

/-- The record of the product of a [1024, 1024] block with a [1024, 512] one has the lists of rows against columns. -/
theorem dotQK_is : Cert.RowsByCols.Is dot_S1024x1024_S1024x512_S1024x512_1_0_0_1_n_n := ⟨rfl, rfl, rfl, rfl, rfl, rfl⟩

/-- The scores payload at (r, j). -/
theorem pay8_apply (q : Vec Ideal S1x1024x1024 .bf16) (k : Vec Ideal S1x512x1024 .bf16) (msk : Vec Ideal S1x1024x512 .i32)
    (r : Fin 1024) (j : Fin 512) :
    (k1_pay8 (F := Ideal) q k msk : S1024x512.Idx → EReal) (ix2 r j) = tscore q k msk r j := by
  unfold k1_pay8 tscore
  dsimp only
  show Scalar.select (IntOp.cmpi .eq (shapeCast S1024x512 msk Facts₀.shapeCasts_S1x1024x512_S1024x512 (ix2 r j)) 0#32)
      (Ideal.ofBits .f32 0xCE6E6B28#32)
      (matmul dot_S1024x1024_S1024x512_S1024x512_1_0_0_1_n_n none
        (shapeCast S1024x1024 q Facts₀.shapeCasts_S1x1024x1024_S1024x1024)
        (transpose S1024x512 [1, 0] (shapeCast S512x1024 k Facts₀.shapeCasts_S1x512x1024_S512x1024) Facts₀.transposes_S512x1024_p1_0_S1024x512)
        (constant (F := Ideal) S1024x512 .f32 0x00000000#32) (ix2 r j))
      * Ideal.ofBits .f32 0x3D000000#32 = _
  rw [shapeCast_1ab_ab_apply, Cert.RowsByCols.matmul_zero_apply _ dotQK_is]
  have e : ∀ h : Fin 1024,
      shapeCast S1024x1024 q Facts₀.shapeCasts_S1x1024x1024_S1024x1024 (ix2 r h)
        * transpose S1024x512 [1, 0] (shapeCast S512x1024 k Facts₀.shapeCasts_S1x512x1024_S512x1024) Facts₀.transposes_S512x1024_p1_0_S1024x512 (ix2 h j)
      = qAt q r h * kAt k j h := fun h => by
    rw [shapeCast_1ab_ab_apply, Cert.LibTransposeMatrix.transpose_ab_ba_apply, shapeCast_1ab_ab_apply]
  rw [Finset.sum_congr rfl fun h _ => e h]
  rw [select_eq_zero]
  rfl

end Cert.KernelIdeal.HandValue.AttnCall

end
-- ==== Proof.IdealAttnValuePay2.lean ====
/-
  The attention kernel's remaining payloads read at an entry, over the extended reals: the new running maximum of a row
  (the maximum of the old one and of the row's 512 scores of the tile, folded from -∞), the rescaling factor
  exp (m - m'), the weights exp (s - m'), the new normaliser (the rescaled old one plus the row's weights summed), the
  new weighted sum of value rows (the rescaled old one plus the weights against the tile's value rows), the final
  quotient, and the three constants the first tile starts from.  Each chain of operations is first read at an entry
  over arbitrary operands, then the payload is that chain at its own operands.
-/
import proofs.«151986_j46763603919067_2_alg».proof.Proof.IdealAttnValuePay

noncomputable section

namespace Cert.KernelIdeal.HandValue.AttnCall

open Idealize.ShloMosaic Idealize.ShloMosaic.ValueIdx Cert.KernelIdeal Cert.KernelIdeal.Gen

/-- Over the reduction of axis 1 of a [1024, 512] block, the source entry over row r with lane j is (r, j). -/
theorem lift_row (h : S1024x512.Reduces [1] S1024) (r : Fin 1024) (j : Fin 512) : h.lift (ix1 r) j = ix2 r j :=
  funext fun c => Fin.ext (by
    match c with
    | ⟨0, _⟩ => rfl
    | ⟨1, _⟩ => rfl)

/-- A row maximum of a [1024, 512] block from -∞: the fold of max over the row's 512 lanes. -/
theorem rowMaxLanes_apply (src : FVec Ideal S1024x512 .f32) (hφ : FKind.Formats .f32)
    (hacc : (0xFF800000#32 : BitVec 32) = FKind.maximumf.neutral .f32 hφ) (r : Fin 1024) :
    (multiReduction .maximumf [1] S1024 src 0xFF800000#32 Facts₀.reduces_S1024x512_S1024 hφ hacc : S1024.Idx → EReal) (ix1 r)
      = (Finset.univ : Finset (Fin 512)).fold max (Ideal.ofBits .f32 0xFF800000#32) (fun j => src (ix2 r j)) := by
  refine (Ideal.multiReduction_maximumf_single src _ Facts₀.reduces_S1024x512_S1024 hφ hacc (ix1 r)).trans ?_
  refine congrArg ((Finset.univ : Finset (Fin 512)).fold max (Ideal.ofBits .f32 0xFF800000#32)) (funext fun j => ?_)
  exact congrArg src (lift_row _ r j)

/-- A row sum of a [1024, 512] block: the sum over the row's 512 lanes. -/
theorem rowSumLanes_apply (src : FVec Ideal S1024x512 .f32) (hφ : FKind.Formats .f32)
    (hacc : (0x00000000#32 : BitVec 32) = FKind.add.neutral .f32 hφ) (r : Fin 1024) :
    (multiReduction .add [1] S1024 src 0x00000000#32 Facts₀.reduces_S1024x512_S1024 hφ hacc : S1024.Idx → EReal) (ix1 r)
      = ∑ j : Fin 512, src (ix2 r j) := by
  refine (Ideal.multiReduction_add_single src _ Facts₀.reduces_S1024x512_S1024 hφ hacc (ix1 r)).trans ?_
  exact Finset.sum_congr rfl fun j _ => congrArg src (lift_row _ r j)

/-! ## The chains over arbitrary operands -/

/-- max of a column and the row maxima of a block, at row r. -/
theorem maxChain_apply (m : FVec Ideal S1024x1 .f32) (src : FVec Ideal S1024x512 .f32) (hφ : FKind.Formats .f32)
    (hacc : (0xFF800000#32 : BitVec 32) = FKind.maximumf.neutral .f32 hφ) (r : Fin 1024) :
    (maximumf m (shapeCast S1024x1 (multiReduction .maximumf [1] S1024 src 0xFF800000#32 Facts₀.reduces_S1024x512_S1024 hφ hacc)
        Facts₀.shapeCasts_S1024_S1024x1) : S1024x1.Idx → EReal) (ix2 r (0 : Fin 1))
      = max ((m : S1024x1.Idx → EReal) (ix2 r (0 : Fin 1)))
          ((Finset.univ : Finset (Fin 512)).fold max (Ideal.ofBits .f32 0xFF800000#32) (fun j => src (ix2 r j))) := by
  rw [maximumf_apply, Cert.LibColumnLayout.shapeCast_a_a1_apply]
  exact congrArg (max _) (rowMaxLanes_apply src hφ hacc r)

/-- exp of a difference of two columns, at row r. -/
theorem expSub_apply (a b : FVec Ideal S1024x1 .f32) (r : Fin 1024) :
    (exp (subf a b) : S1024x1.Idx → EReal) (ix2 r (0 : Fin 1))
      = Ideal.exp ((a : S1024x1.Idx → EReal) (ix2 r (0 : Fin 1)) - (b : S1024x1.Idx → EReal) (ix2 r (0 : Fin 1))) := rfl

/-- exp of a block minus a column broadcast along the rows, at (r, j). -/
theorem expSubCol_apply (s : FVec Ideal S1024x512 .f32) (m : FVec Ideal S1024x1 .f32) (r : Fin 1024) (j : Fin 512) :
    (exp (subf s (broadcastTo S1024x512 m Facts₀.broadcasts_S1024x1_S1024x512)) : S1024x512.Idx → EReal) (ix2 r j)
      = Ideal.exp ((s : S1024x512.Idx → EReal) (ix2 r j) - (m : S1024x1.Idx → EReal) (ix2 r (0 : Fin 1))) := by
  show Ideal.exp ((s : S1024x512.Idx → EReal) (ix2 r j) - broadcastTo S1024x512 m Facts₀.broadcasts_S1024x1_S1024x512 (ix2 r j)) = _
  rw [Cert.LibColumnLayout.broadcastTo_a1_ab_apply]

/-- A product of two columns plus the row sums of a block, at row r. -/
theorem sumChain_apply (a l : FVec Ideal S1024x1 .f32) (p : FVec Ideal S1024x512 .f32) (hφ : FKind.Formats .f32)
    (hacc : (0x00000000#32 : BitVec 32) = FKind.add.neutral .f32 hφ) (r : Fin 1024) :
    (addf (mulf a l) (shapeCast S1024x1 (multiReduction .add [1] S1024 p 0x00000000#32 Facts₀.reduces_S1024x512_S1024 hφ hacc)
        Facts₀.shapeCasts_S1024_S1024x1) : S1024x1.Idx → EReal) (ix2 r (0 : Fin 1))
      = (a : S1024x1.Idx → EReal) (ix2 r (0 : Fin 1)) * (l : S1024x1.Idx → EReal) (ix2 r (0 : Fin 1))
        + ∑ j : Fin 512, (p : S1024x512.Idx → EReal) (ix2 r j) := by
  rw [addf_apply, mulf_apply, Cert.LibColumnLayout.shapeCast_a_a1_apply]
  exact congrArg (_ + ·) (rowSumLanes_apply p hφ hacc r)

/-- The record of the product of a [1024, 512] block with a [512, 1024] one has the lists of rows against columns. -/
theorem dotPV_is : Cert.RowsByCols.Is dot_S1024x512_S512x1024_S1024x1024_1_0_0_1_n_n := ⟨rfl, rfl, rfl, rfl, rfl, rfl⟩

/-- A column broadcast along the rows times a matrix, plus a block against a [1, 512, 1024] tile, at (r, h). -/
theorem accChain_apply (a : FVec Ideal S1024x1 .f32) (p : FVec Ideal S1024x512 .f32) (acc : FVec Ideal S1024x1024 .f32)
    (v : Vec Ideal S1x512x1024 .bf16) (r h : Fin 1024) :
    (addf (mulf (broadcastTo S1024x1024 a Facts₀.broadcasts_S1024x1_S1024x1024) acc)
        (matmul dot_S1024x512_S512x1024_S1024x1024_1_0_0_1_n_n none (truncf .bf16 p Facts₀.bitsLt_bf16_f32)
          (shapeCast S512x1024 v Facts₀.shapeCasts_S1x512x1024_S512x1024 : FVec Ideal S512x1024 .bf16)
          (constant (F := Ideal) S1024x1024 .f32 0x00000000#32))
      : S1024x1024.Idx → EReal) (ix2 r h)
      = (a : S1024x1.Idx → EReal) (ix2 r (0 : Fin 1)) * (acc : S1024x1024.Idx → EReal) (ix2 r h)
        + ∑ j : Fin 512, (p : S1024x512.Idx → EReal) (ix2 r j) * kAt v j h := by
  rw [addf_apply, mulf_apply, Cert.LibColumnLayout.broadcastTo_a1_ab_apply, Cert.RowsByCols.matmul_zero_apply _ dotPV_is]
  refine congrArg (_ + ·) (Finset.sum_congr rfl fun j _ => ?_)
  rw [shapeCast_1ab_ab_apply, truncf_apply]

/-- A matrix over a column broadcast along the rows, stored as a [1, 1024, 1024] block, at (u, r, h). -/
theorem divChain_apply (acc : FVec Ideal S1024x1024 .f32) (l : FVec Ideal S1024x1 .f32) (u : Fin 1) (r h : Fin 1024) :
    (shapeCast S1x1024x1024 (divf acc (broadcastTo S1024x1024 l Facts₀.broadcasts_S1024x1_S1024x1024))
        Facts₀.shapeCasts_S1024x1024_S1x1024x1024 : S1x1024x1024.Idx → EReal) (ix3 u r h)
      = Ideal.div ((acc : S1024x1024.Idx → EReal) (ix2 r h)) ((l : S1024x1.Idx → EReal) (ix2 r (0 : Fin 1))) := by
  rw [shapeCast_ab_1ab_apply, divf_apply, Cert.LibColumnLayout.broadcastTo_a1_ab_apply]

/-! ## The payloads -/

/-- The new running maximum of row r. -/
theorem pay9_apply (q : Vec Ideal S1x1024x1024 .bf16) (k : Vec Ideal S1x512x1024 .bf16) (msk : Vec Ideal S1x1024x512 .i32)
    (m : Vec Ideal S1024x1 .f32) (r : Fin 1024) :
    (k1_pay9 (F := Ideal) q k msk m : S1024x1.Idx → EReal) (ix2 r (0 : Fin 1))
      = max ((m : S1024x1.Idx → EReal) (ix2 r (0 : Fin 1)))
          ((Finset.univ : Finset (Fin 512)).fold max (Ideal.ofBits .f32 0xFF800000#32) (fun j => tscore q k msk r j)) := by
  unfold k1_pay9
  refine (maxChain_apply m (k1_pay8 (F := Ideal) q k msk) _ _ r).trans ?_
  exact congrArg (max _) (congrArg ((Finset.univ : Finset (Fin 512)).fold max (Ideal.ofBits .f32 0xFF800000#32))
    (funext fun j => pay8_apply q k msk r j))

/-- The rescaling factor of row r. -/
theorem pay10_apply (q : Vec Ideal S1x1024x1024 .bf16) (k : Vec Ideal S1x512x1024 .bf16) (msk : Vec Ideal S1x1024x512 .i32)
    (m m2 : Vec Ideal S1024x1 .f32) (r : Fin 1024) :
    (k1_pay10 (F := Ideal) q k msk m m2 : S1024x1.Idx → EReal) (ix2 r (0 : Fin 1))
      = Ideal.exp ((m2 : S1024x1.Idx → EReal) (ix2 r (0 : Fin 1)) - (k1_pay9 (F := Ideal) q k msk m : S1024x1.Idx → EReal) (ix2 r (0 : Fin 1))) := by
  unfold k1_pay10
  exact expSub_apply m2 (k1_pay9 (F := Ideal) q k msk m) r

/-- The weight at (r, j). -/
theorem pay11_apply (q : Vec Ideal S1x1024x1024 .bf16) (k : Vec Ideal S1x512x1024 .bf16) (msk : Vec Ideal S1x1024x512 .i32)
    (m : Vec Ideal S1024x1 .f32) (r : Fin 1024) (j : Fin 512) :
    (k1_pay11 (F := Ideal) q k msk m : S1024x512.Idx → EReal) (ix2 r j)
      = Ideal.exp (tscore q k msk r j - (k1_pay9 (F := Ideal) q k msk m : S1024x1.Idx → EReal) (ix2 r (0 : Fin 1))) := by
  unfold k1_pay11
  refine (expSubCol_apply (k1_pay8 (F := Ideal) q k msk) (k1_pay9 (F := Ideal) q k msk m) r j).trans ?_
  rw [pay8_apply]

/-- The new normaliser of row r. -/
theorem pay12_apply (q : Vec Ideal S1x1024x1024 .bf16) (k : Vec Ideal S1x512x1024 .bf16) (msk : Vec Ideal S1x1024x512 .i32)
    (m m2 l : Vec Ideal S1024x1 .f32) (r : Fin 1024) :
    (k1_pay12 (F := Ideal) q k msk m m2 l : S1024x1.Idx → EReal) (ix2 r (0 : Fin 1))
      = (k1_pay10 (F := Ideal) q k msk m m2 : S1024x1.Idx → EReal) (ix2 r (0 : Fin 1)) * (l : S1024x1.Idx → EReal) (ix2 r (0 : Fin 1))
        + ∑ j : Fin 512, (k1_pay11 (F := Ideal) q k msk m : S1024x512.Idx → EReal) (ix2 r j) := by
  unfold k1_pay12
  exact sumChain_apply (k1_pay10 (F := Ideal) q k msk m m2) l (k1_pay11 (F := Ideal) q k msk m) _ _ r

/-- The new weighted sum of value rows at (r, h). -/
theorem pay2_apply (a : FVec Ideal S1024x1 .f32) (p : FVec Ideal S1024x512 .f32) (acc : Vec Ideal S1024x1024 .f32)
    (v : Vec Ideal S1x512x1024 .bf16) (r h : Fin 1024) :
    (k1_pay2 (F := Ideal) a p acc v : S1024x1024.Idx → EReal) (ix2 r h)
      = (a : S1024x1.Idx → EReal) (ix2 r (0 : Fin 1)) * (acc : S1024x1024.Idx → EReal) (ix2 r h)
        + ∑ j : Fin 512, (p : S1024x512.Idx → EReal) (ix2 r j) * kAt v j h := by
  unfold k1_pay2
  rw [shapeCast_self]
  exact accChain_apply a p acc v r h

/-- The output block at (u, r, h): the weighted sum over the normaliser. -/
theorem pay4_apply (acc : Vec Ideal S1024x1024 .f32) (l : Vec Ideal S1024x1 .f32) (u : Fin 1) (r h : Fin 1024) :
    (k1_pay4 (F := Ideal) acc l : S1x1024x1024.Idx → EReal) (ix3 u r h)
      = Ideal.div ((acc : S1024x1024.Idx → EReal) (ix2 r h)) ((l : S1024x1.Idx → EReal) (ix2 r (0 : Fin 1))) := by
  unfold k1_pay4
  exact divChain_apply acc l u r h

/-- What is stored back into the two running columns is what was computed. -/
theorem pay1_eq (v : FVec Ideal S1024x1 .f32) : k1_pay1 (F := Ideal) v = v := shapeCast_self _ _
theorem pay3_eq (v : FVec Ideal S1024x1 .f32) : k1_pay3 (F := Ideal) v = v := shapeCast_self _ _

/-- The first tile starts from the maximum -∞, -/
theorem pay5_apply (i : S1024x1.Idx) : (k1_pay5 (F := Ideal) : S1024x1.Idx → EReal) i = Ideal.ofBits .f32 0xFF800000#32 := by
  unfold k1_pay5; rw [shapeCast_self]; rfl
/-- the normaliser 0 -/
theorem pay6_apply (i : S1024x1.Idx) : (k1_pay6 (F := Ideal) : S1024x1.Idx → EReal) i = Ideal.ofBits .f32 0x00000000#32 := by
  unfold k1_pay6; rw [shapeCast_self]; rfl
/-- and the weighted sum 0. -/
theorem pay7_apply (i : S1024x1024.Idx) : (k1_pay7 (F := Ideal) : S1024x1024.Idx → EReal) i = Ideal.ofBits .f32 0x00000000#32 := by
  unfold k1_pay7; rw [shapeCast_self]; rfl

end Cert.KernelIdeal.HandValue.AttnCall

end
-- ==== Proof.IdealAttnValueStep.lean ====
/-
  One tile of the streaming softmax read row by row, over the extended reals: the new running maximum of a row is the
  maximum of the old one and of the tile's largest score in that row; the new normaliser is the old one rescaled by
  exp (m - m') plus the row's weights exp (s - m') summed; the new weighted sum is the old one rescaled plus the weights
  against the tile's value rows.  The first tile starts from -∞, 0 and 0, and the output is the weighted sum over the
  normaliser.
-/
import proofs.«151986_j46763603919067_2_alg».proof.Proof.IdealAttnValuePay2
import proofs.«151986_j46763603919067_2_alg».proof.Proof.IdealAttnStep

noncomputable section

namespace Cert.KernelIdeal.HandValue.AttnCall

open Idealize.ShloMosaic Idealize.ShloMosaic.ValueIdx Cert.KernelIdeal Cert.KernelIdeal.Gen Cert.KernelIdeal.Hand

/-- The single-precision pattern of -∞ is the bottom of the extended reals. -/
theorem negInf_eq : Ideal.ofBits .f32 0xFF800000#32 = (⊥ : EReal) := by
  simp [Ideal.ofBits, Ideal.ieee]

/-- The largest score of row r in the tile, folded from -∞. -/
def tileMax (q : Vec Ideal S1x1024x1024 .bf16) (k : Vec Ideal S1x512x1024 .bf16) (msk : Vec Ideal S1x1024x512 .i32)
    (r : Fin 1024) : EReal :=
  (Finset.univ : Finset (Fin 512)).fold max ⊥ (fun j => tscore q k msk r j)

section Step
variable (q : Vec Ideal S1x1024x1024 .bf16) (k v : Vec Ideal S1x512x1024 .bf16) (msk : Vec Ideal S1x1024x512 .i32)
  (st : Run3 Ideal) (r h : Fin 1024)

/-- The running maximum of row r before the tile, the running normaliser, the running weighted sum at (r, h). -/
abbrev mOf (st : Run3 Ideal) (r : Fin 1024) : EReal := (st.1 : S1024x1.Idx → EReal) (ix2 r (0 : Fin 1))
abbrev lOf (st : Run3 Ideal) (r : Fin 1024) : EReal := (st.2.1 : S1024x1.Idx → EReal) (ix2 r (0 : Fin 1))
abbrev accOf (st : Run3 Ideal) (r h : Fin 1024) : EReal := (st.2.2 : S1024x1024.Idx → EReal) (ix2 r h)

theorem pay9_eq : (k1_pay9 (F := Ideal) q k msk st.1 : S1024x1.Idx → EReal) (ix2 r (0 : Fin 1)) = max (mOf st r) (tileMax q k msk r) := by
  rw [pay9_apply, negInf_eq]; rfl

theorem step1_m : mOf (step1 q k v msk st) r = max (mOf st r) (tileMax q k msk r) := by
  show (k1_pay3 (F := Ideal) (k1_pay9 (F := Ideal) q k msk st.1) : S1024x1.Idx → EReal) (ix2 r (0 : Fin 1)) = _
  rw [pay3_eq, pay9_eq]

theorem step1_l : lOf (step1 q k v msk st) r
    = Ideal.exp (mOf st r - max (mOf st r) (tileMax q k msk r)) * lOf st r
      + ∑ j : Fin 512, Ideal.exp (tscore q k msk r j - max (mOf st r) (tileMax q k msk r)) := by
  show (k1_pay1 (F := Ideal) (k1_pay12 (F := Ideal) q k msk st.1 st.1 st.2.1) : S1024x1.Idx → EReal) (ix2 r (0 : Fin 1)) = _
  rw [pay1_eq, pay12_apply, pay10_apply, pay9_eq]
  exact congrArg (_ + ·) (Finset.sum_congr rfl fun j _ => by rw [pay11_apply, pay9_eq])

theorem step1_acc : accOf (step1 q k v msk st) r h
    = Ideal.exp (mOf st r - max (mOf st r) (tileMax q k msk r)) * accOf st r h
      + ∑ j : Fin 512, Ideal.exp (tscore q k msk r j - max (mOf st r) (tileMax q k msk r)) * kAt v j h := by
  show (k1_pay2 (F := Ideal) (k1_pay10 (F := Ideal) q k msk st.1 st.1) (k1_pay11 (F := Ideal) q k msk st.1) st.2.2 v : S1024x1024.Idx → EReal) (ix2 r h) = _
  rw [pay2_apply, pay10_apply, pay9_eq]
  exact congrArg (_ + ·) (Finset.sum_congr rfl fun j _ => by rw [pay11_apply, pay9_eq])

end Step

theorem init1_m (r : Fin 1024) : mOf (init1 (F := Ideal)) r = ⊥ := (pay5_apply (ix2 r (0 : Fin 1))).trans negInf_eq
theorem init1_l (r : Fin 1024) : lOf (init1 (F := Ideal)) r = 0 := (pay6_apply (ix2 r (0 : Fin 1))).trans Ideal.ofBits_zero_f32
theorem init1_acc (r h : Fin 1024) : accOf (init1 (F := Ideal)) r h = 0 := (pay7_apply (ix2 r h)).trans Ideal.ofBits_zero_f32

/-- The output block at (u, r, h): the weighted sum over the normaliser. -/
theorem fin1_apply (st : Run3 Ideal) (u : Fin 1) (r h : Fin 1024) :
    (fin1 st : S1x1024x1024.Idx → EReal) (ix3 u r h) = Ideal.div (accOf st r h) (lOf st r) :=
  pay4_apply st.2.2 st.2.1 u r h

end Cert.KernelIdeal.HandValue.AttnCall

end
-- ==== Proof.LibOnlineLogSumExp.lean ====
/-
  The running maximum and running sum of a softmax computed tile by tile, on the extended reals.

  A row of scores arrives in tiles s 0, s 1, … (a tile is a finite family of extended reals; an entry ⊥ is a
  masked position). A streaming log-sum-exp keeps a pair (m, l), starts at (⊥, 0) and, at tile n whose largest
  entry is c n, moves to
      m' = max m (c n),    l' = exp (m - m') * l + ∑ j, exp (s n j - m').
  When each of the first n + 1 tiles has a real largest entry (so none of their entries is ⊤), after those tiles m is the largest entry M of all
  tiles so far, a real number, and l is the real number ∑ exp (s k j - M) over all of them, which is positive:
  rescaling the old sum by exp (m - m') turns each exp (a - m) into exp (a - m') (the exponential of a sum), a
  masked entry contributes exp ⊥ = 0 before and after, and the first step multiplies the empty sum 0 by exp ⊥ = 0.
  For real x, M and positive real L also x - (M + log L) = (x - M) - log L: the one-pass result is the two-pass one.
-/
import Idealize.ShloMosaic.PureOps.Ideal

noncomputable section

namespace Cert.Lib.OnlineLogSumExp

open Idealize.ShloMosaic Finset

/-- The coercion of a finite real sum is the sum of the coercions. -/
theorem coe_sum {ι : Type} (t : Finset ι) (f : ι → ℝ) :
    ((∑ i ∈ t, f i : ℝ) : EReal) = ∑ i ∈ t, ((f i : ℝ) : EReal) := by
  classical
  refine Finset.induction_on t (by simp) ?_
  intro a t ha ih
  rw [Finset.sum_insert ha, Finset.sum_insert ha, EReal.coe_add, ih]

theorem exp_coe (r : ℝ) : Ideal.exp (r : EReal) = ((Real.exp r : ℝ) : EReal) := rfl

theorem exp_bot : Ideal.exp ⊥ = 0 := rfl

theorem log_coe_pos (r : ℝ) (h : 0 < r) : Ideal.log (r : EReal) = ((Real.log r : ℝ) : EReal) := by
  show (if r ≤ 0 then (⊥ : EReal) else ((Real.log r : ℝ) : EReal)) = _
  rw [if_neg (not_le.2 h)]

/-- exp (a - M) as a real number: 0 for a masked entry a = ⊥. -/
def term (a : EReal) (M : ℝ) : ℝ := (Ideal.exp (a - (M : EReal))).toReal

theorem term_bot (M : ℝ) : term ⊥ M = 0 := by
  unfold term; rw [EReal.bot_sub, exp_bot, EReal.toReal_zero]

theorem term_coe (r M : ℝ) : term (r : EReal) M = Real.exp (r - M) := by
  unfold term; rw [← EReal.coe_sub, exp_coe, EReal.toReal_coe]

theorem term_self (M : ℝ) : term (M : EReal) M = 1 := by
  rw [term_coe, sub_self, Real.exp_zero]

theorem term_nonneg (a : EReal) (M : ℝ) (ha : a ≠ ⊤) : 0 ≤ term a M := by
  induction a using EReal.rec with
  | bot => rw [term_bot]
  | coe r => rw [term_coe]; exact (Real.exp_pos _).le
  | top => exact absurd rfl ha

/-- For an entry that is not ⊤, exp (a - M) on the extended reals is the coercion of the real number term a M. -/
theorem exp_sub_eq_term (a : EReal) (ha : a ≠ ⊤) (M : ℝ) :
    Ideal.exp (a - (M : EReal)) = ((term a M : ℝ) : EReal) := by
  induction a using EReal.rec with
  | bot => rw [term_bot, EReal.bot_sub, exp_bot, EReal.coe_zero]
  | coe r => rw [term_coe, ← EReal.coe_sub, exp_coe]
  | top => exact absurd rfl ha

/-- Moving the reference point from M to M' rescales every term by exp (M - M'). -/
theorem term_rescale (a : EReal) (ha : a ≠ ⊤) (M M' : ℝ) :
    Real.exp (M - M') * term a M = term a M' := by
  induction a using EReal.rec with
  | bot => rw [term_bot, term_bot, mul_zero]
  | coe r => rw [term_coe, term_coe, ← Real.exp_add]; congr 1; ring
  | top => exact absurd rfl ha

variable {J : Type} [Fintype J]

/-- The streaming pair (running maximum, running sum) after n tiles. -/
def run (s : ℕ → J → EReal) (c : ℕ → EReal) : ℕ → EReal × EReal
  | 0 => (⊥, 0)
  | n + 1 =>
    (max (run s c n).1 (c n),
      Ideal.exp ((run s c n).1 - max (run s c n).1 (c n)) * (run s c n).2
        + ∑ j, Ideal.exp (s n j - max (run s c n).1 (c n)))

theorem ne_top_of_le_coe {a : EReal} {r : ℝ} (h : a ≤ (r : EReal)) : a ≠ ⊤ := by
  intro e; rw [e] at h; exact absurd (top_le_iff.1 h) (EReal.coe_ne_top r)

/-- After n + 1 tiles, each with a real largest entry c k (an upper bound of the tile that some entry attains), the
    running maximum is a real M that bounds every entry so far and is attained, and the running sum is the real
    sum of exp (s k j - M) over all entries so far. Only the tiles 0 … n are asked anything. -/
theorem run_spec (s : ℕ → J → EReal) (c : ℕ → EReal) (n : ℕ) (hub : ∀ k ≤ n, ∀ j, s k j ≤ c k)
    (hatt : ∀ k ≤ n, ∃ j, s k j = c k) (hreal : ∀ k ≤ n, ∃ r : ℝ, c k = (r : EReal)) :
    ∃ M : ℝ, (run s c (n + 1)).1 = (M : EReal) ∧ (∀ k ≤ n, ∀ j, s k j ≤ (M : EReal))
      ∧ (∃ k ≤ n, ∃ j, s k j = (M : EReal))
      ∧ (run s c (n + 1)).2 = ((∑ k ∈ range (n + 1), ∑ j, term (s k j) M : ℝ) : EReal) := by
  induction n with
  | zero =>
    have hnt : ∀ j, s 0 j ≠ ⊤ := fun j => by
      obtain ⟨r, hr⟩ := hreal 0 le_rfl
      exact ne_top_of_le_coe (hr ▸ hub 0 le_rfl j)
    obtain ⟨r, hr⟩ := hreal 0 le_rfl
    have hm : max (⊥ : EReal) (c 0) = (r : EReal) := by rw [hr]; exact max_eq_right bot_le
    refine ⟨r, ?_, ?_, ?_, ?_⟩
    · show max (⊥ : EReal) (c 0) = _
      exact hm
    · intro k hk j
      obtain rfl : k = 0 := Nat.le_zero.1 hk
      exact hr ▸ hub 0 le_rfl j
    · obtain ⟨j, hj⟩ := hatt 0 le_rfl
      exact ⟨0, le_rfl, j, hj.trans hr⟩
    · show Ideal.exp ((⊥ : EReal) - max (⊥ : EReal) (c 0)) * (0 : EReal) + ∑ j, Ideal.exp (s 0 j - max (⊥ : EReal) (c 0)) = _
      rw [hm, mul_zero, zero_add, Finset.sum_range_one, coe_sum]
      exact Finset.sum_congr rfl fun j _ => exp_sub_eq_term _ (hnt j) r
  | succ n ih =>
    have hnt : ∀ k ≤ n + 1, ∀ j, s k j ≠ ⊤ := fun k hk j => by
      obtain ⟨r, hr⟩ := hreal k hk
      exact ne_top_of_le_coe (hr ▸ hub k hk j)
    obtain ⟨M, h1, h2, h3, h4⟩ := ih (fun k hk => hub k (Nat.le_succ_of_le hk)) (fun k hk => hatt k (Nat.le_succ_of_le hk))
      (fun k hk => hreal k (Nat.le_succ_of_le hk))
    obtain ⟨r, hr⟩ := hreal (n + 1) le_rfl
    have hm : max (run s c (n + 1)).1 (c (n + 1)) = ((max M r : ℝ) : EReal) := by
      rw [h1, hr]; exact (EReal.coe_strictMono.monotone.map_max).symm
    refine ⟨max M r, ?_, ?_, ?_, ?_⟩
    · show max (run s c (n + 1)).1 (c (n + 1)) = _
      exact hm
    · intro k hk j
      rcases Nat.lt_or_ge k (n + 1) with hlt | hge
      · exact (h2 k (Nat.lt_succ_iff.1 hlt) j).trans (EReal.coe_le_coe_iff.2 (le_max_left M r))
      · obtain rfl : k = n + 1 := le_antisymm hk hge
        exact (hr ▸ hub (n + 1) le_rfl j).trans (EReal.coe_le_coe_iff.2 (le_max_right M r))
    · rcases le_total M r with hle | hle
      · obtain ⟨j, hj⟩ := hatt (n + 1) le_rfl
        exact ⟨n + 1, le_rfl, j, by rw [hj, hr, max_eq_right hle]⟩
      · obtain ⟨k, hk, j, hj⟩ := h3
        exact ⟨k, Nat.le_succ_of_le hk, j, by rw [hj, max_eq_left hle]⟩
    · show Ideal.exp ((run s c (n + 1)).1 - max (run s c (n + 1)).1 (c (n + 1))) * (run s c (n + 1)).2
          + ∑ j, Ideal.exp (s (n + 1) j - max (run s c (n + 1)).1 (c (n + 1))) = _
      rw [hm, h1, h4, ← EReal.coe_sub, exp_coe, ← EReal.coe_mul, Finset.sum_range_succ _ (n + 1), EReal.coe_add,
        coe_sum (Finset.univ) (fun j => term (s (n + 1) j) (max M r))]
      congr 1
      · congr 1
        rw [Finset.mul_sum]
        refine Finset.sum_congr rfl fun k hk => ?_
        rw [Finset.mul_sum]
        exact Finset.sum_congr rfl fun j _ =>
          term_rescale _ (hnt k (Nat.le_succ_of_le (Nat.lt_succ_iff.1 (Finset.mem_range.1 hk))) j) M (max M r)
      · exact Finset.sum_congr rfl fun j _ => exp_sub_eq_term _ (hnt (n + 1) le_rfl j) (max M r)

/-- The sum of the terms is positive when some entry attains the reference point M and no entry so far is ⊤. -/
theorem sum_term_pos (s : ℕ → J → EReal) (n : ℕ) (M : ℝ) (hnt : ∀ k ≤ n, ∀ j, s k j ≠ ⊤)
    (hatt : ∃ k ≤ n, ∃ j, s k j = (M : EReal)) : 0 < ∑ k ∈ range (n + 1), ∑ j, term (s k j) M := by
  obtain ⟨k, hk, j, hj⟩ := hatt
  have h0 : ∀ k' ∈ range (n + 1), 0 ≤ ∑ j, term (s k' j) M := fun k' hk' =>
    Finset.sum_nonneg fun j _ => term_nonneg _ _ (hnt k' (Nat.lt_succ_iff.1 (Finset.mem_range.1 hk')) j)
  refine lt_of_lt_of_le ?_ (Finset.single_le_sum h0 (Finset.mem_range.2 (Nat.lt_succ_of_le hk)))
  refine lt_of_lt_of_le ?_ (Finset.single_le_sum (fun j _ => term_nonneg _ _ (hnt k hk j)) (Finset.mem_univ j))
  rw [hj, term_self]; exact one_pos

/-- The one-pass result x - (M + log L) is the two-pass result (x - M) - log L, for real x, M and positive real L. -/
theorem sub_lse_eq (x M L : ℝ) (hL : 0 < L) :
    (x : EReal) - ((M : EReal) + Ideal.log (L : EReal)) = ((x : EReal) - (M : EReal)) - Ideal.log (L : EReal) := by
  rw [log_coe_pos L hL, ← EReal.coe_add, ← EReal.coe_sub, ← EReal.coe_sub, ← EReal.coe_sub]
  congr 1; ring

end Cert.Lib.OnlineLogSumExp

end
-- ==== Proof.LibOnlineAttention.lean ====
/-
  The running weighted sum of an attention row computed tile by tile, on the extended reals.

  A row of scores arrives in tiles s 0, s 1, … together with value entries v 0, v 1, … (one extended real per
  position; one feature of the value rows). Beside the streaming pair (m, l) of the log-sum-exp, an online
  attention keeps an accumulator acc, starts it at 0 and, at tile n whose largest entry is c n, moves to
      m' = max m (c n),    acc' = exp (m - m') * acc + ∑ j, exp (s n j - m') * v n j.
  When each of the first n + 1 tiles has a real largest entry and real values, after those tiles m is the largest
  entry M of all tiles so far and acc is the real number ∑ exp (s k j - M) * v k j over all of them: rescaling the
  old accumulator by exp (m - m') turns each exp (a - m) * x into exp (a - m') * x (the exponential of a sum), a
  masked entry contributes exp ⊥ * x = 0 before and after, and the first step multiplies the empty sum 0 by
  exp ⊥ = 0. Together with the running sum l = ∑ exp (s k j - M) the quotient acc / l is the softmax-weighted
  mean of the values.
-/
import proofs.«151986_j46763603919067_2_alg».proof.Proof.LibOnlineLogSumExp

noncomputable section

namespace Cert.Lib.OnlineAttention

open Idealize.ShloMosaic Finset
open Cert.Lib.OnlineLogSumExp (coe_sum exp_coe exp_bot term term_rescale exp_sub_eq_term run run_spec ne_top_of_le_coe)

variable {J : Type} [Fintype J]

/-- The streaming accumulator after n tiles: the old accumulator rescaled to the new running maximum, plus the new
    tile's weighted values. -/
def runAcc (s : ℕ → J → EReal) (c : ℕ → EReal) (v : ℕ → J → EReal) : ℕ → EReal
  | 0 => 0
  | n + 1 =>
    Ideal.exp ((OnlineLogSumExp.run s c n).1 - max (OnlineLogSumExp.run s c n).1 (c n)) * runAcc s c v n
      + ∑ j, Ideal.exp (s n j - max (OnlineLogSumExp.run s c n).1 (c n)) * v n j

/-- After n + 1 tiles, when the running maximum is the real number M, the accumulator is the real sum of
    exp (s k j - M) * v k j over all entries so far. -/
theorem runAcc_eq (s : ℕ → J → EReal) (c : ℕ → EReal) (v : ℕ → J → EReal) (vr : ℕ → J → ℝ) (n : ℕ)
    (hub : ∀ k ≤ n, ∀ j, s k j ≤ c k) (hatt : ∀ k ≤ n, ∃ j, s k j = c k)
    (hreal : ∀ k ≤ n, ∃ r : ℝ, c k = (r : EReal)) (hv : ∀ k ≤ n, ∀ j, v k j = ((vr k j : ℝ) : EReal))
    (M : ℝ) (hM : (OnlineLogSumExp.run s c (n + 1)).1 = (M : EReal)) :
    runAcc s c v (n + 1) = ((∑ k ∈ range (n + 1), ∑ j, term (s k j) M * vr k j : ℝ) : EReal) := by
  induction n generalizing M with
  | zero =>
    have hnt : ∀ j, s 0 j ≠ ⊤ := fun j => by
      obtain ⟨r, hr⟩ := hreal 0 le_rfl
      exact ne_top_of_le_coe (hr ▸ hub 0 le_rfl j)
    have hm : max (⊥ : EReal) (c 0) = (M : EReal) := hM
    show Ideal.exp ((⊥ : EReal) - max (⊥ : EReal) (c 0)) * (0 : EReal)
        + ∑ j, Ideal.exp (s 0 j - max (⊥ : EReal) (c 0)) * v 0 j = _
    rw [hm, mul_zero, zero_add, Finset.sum_range_one, coe_sum]
    refine Finset.sum_congr rfl fun j _ => ?_
    rw [exp_sub_eq_term _ (hnt j) M, hv 0 le_rfl j, ← EReal.coe_mul]
  | succ n ih =>
    have hnt : ∀ k ≤ n + 1, ∀ j, s k j ≠ ⊤ := fun k hk j => by
      obtain ⟨r, hr⟩ := hreal k hk
      exact ne_top_of_le_coe (hr ▸ hub k hk j)
    obtain ⟨M0, h1, -, -, -⟩ := run_spec s c n (fun k hk => hub k (Nat.le_succ_of_le hk))
      (fun k hk => hatt k (Nat.le_succ_of_le hk)) (fun k hk => hreal k (Nat.le_succ_of_le hk))
    have ih0 := ih (fun k hk => hub k (Nat.le_succ_of_le hk)) (fun k hk => hatt k (Nat.le_succ_of_le hk))
      (fun k hk => hreal k (Nat.le_succ_of_le hk)) (fun k hk => hv k (Nat.le_succ_of_le hk)) M0 h1
    have hm : max (run s c (n + 1)).1 (c (n + 1)) = (M : EReal) := hM
    show Ideal.exp ((run s c (n + 1)).1 - max (run s c (n + 1)).1 (c (n + 1))) * runAcc s c v (n + 1)
        + ∑ j, Ideal.exp (s (n + 1) j - max (run s c (n + 1)).1 (c (n + 1))) * v (n + 1) j = _
    rw [hm, h1, ih0, ← EReal.coe_sub, exp_coe, ← EReal.coe_mul, Finset.sum_range_succ _ (n + 1), EReal.coe_add,
      coe_sum (Finset.univ) (fun j => term (s (n + 1) j) M * vr (n + 1) j)]
    congr 1
    · congr 1
      rw [Finset.mul_sum]
      refine Finset.sum_congr rfl fun k hk => ?_
      rw [Finset.mul_sum]
      refine Finset.sum_congr rfl fun j _ => ?_
      rw [← mul_assoc,
        term_rescale _ (hnt k (Nat.le_succ_of_le (Nat.lt_succ_iff.1 (Finset.mem_range.1 hk))) j) M0 M]
    · refine Finset.sum_congr rfl fun j _ => ?_
      rw [exp_sub_eq_term _ (hnt (n + 1) le_rfl j) M, hv (n + 1) le_rfl j, ← EReal.coe_mul]

/-- After n + 1 tiles, each with a real largest entry c k (an upper bound of the tile that some entry attains) and
    real values, the running maximum is a real M that bounds every entry so far and is attained, the running sum
    is the real sum of exp (s k j - M), and the accumulator is the real sum of exp (s k j - M) * v k j, over all
    entries so far. Only the tiles 0 … n are asked anything. -/
theorem runAcc_spec (s : ℕ → J → EReal) (c : ℕ → EReal) (v : ℕ → J → EReal) (vr : ℕ → J → ℝ) (n : ℕ)
    (hub : ∀ k ≤ n, ∀ j, s k j ≤ c k) (hatt : ∀ k ≤ n, ∃ j, s k j = c k)
    (hreal : ∀ k ≤ n, ∃ r : ℝ, c k = (r : EReal)) (hv : ∀ k ≤ n, ∀ j, v k j = ((vr k j : ℝ) : EReal)) :
    ∃ M : ℝ, (OnlineLogSumExp.run s c (n + 1)).1 = (M : EReal) ∧ (∀ k ≤ n, ∀ j, s k j ≤ (M : EReal))
      ∧ (∃ k ≤ n, ∃ j, s k j = (M : EReal))
      ∧ (OnlineLogSumExp.run s c (n + 1)).2
          = ((∑ k ∈ Finset.range (n + 1), ∑ j, OnlineLogSumExp.term (s k j) M : ℝ) : EReal)
      ∧ runAcc s c v (n + 1)
          = ((∑ k ∈ Finset.range (n + 1), ∑ j, OnlineLogSumExp.term (s k j) M * vr k j : ℝ) : EReal) := by
  obtain ⟨M, h1, h2, h3, h4⟩ := run_spec s c n hub hatt hreal
  exact ⟨M, h1, h2, h3, h4, runAcc_eq s c v vr n hub hatt hreal hv M h1⟩

end Cert.Lib.OnlineAttention

end
-- ==== Proof.LibSoftmaxReal.lean ====
import Idealize.ShloMosaic.PureOps.Ideal

/-!
# Softmax over the extended reals, on a row of real scores

A softmax of a row of scores s, computed the stable way, takes the row's maximum M (a fold of max from the bottom),
the exponentials e j = exp (s j - M), and their sum D. Two programs may then differ in how they normalise: one
multiplies e j by the reciprocal 1 / D, the other divides e j by D. On the extended reals the quotient by D is the
product with D's inverse only where D is not zero, so the two agree exactly when D ≠ 0. This file shows that a row of
real scores over a finite index type with at least one index gives that, with nothing asked about which index attains
the maximum:

* coe_sum: a finite sum of reals read in the extended reals is the real sum.
* exp_nonneg: the exponential of an extended real is nowhere negative (0 at the bottom, the top at the top).
* foldMax_real: the fold of max from the bottom over a row of real scores is a real number: it is above any one
  score, which is not the bottom, and every score is below the top.
* sumExpShift_ne_zero: so the sum of the shifted exponentials is not zero: every term is nonnegative and any one
  term is the exponential of a real, which is positive.
* mul_div_one_eq_div: off zero, the product with the reciprocal is the quotient.
-/

noncomputable section

namespace Cert.LibSoftmaxReal

open Idealize.ShloMosaic

/-- A finite sum of reals, read in the extended reals, is the real sum. -/
theorem coe_sum {ι : Type*} (t : Finset ι) (f : ι → ℝ) : (∑ x ∈ t, ((f x : ℝ) : EReal)) = ((∑ x ∈ t, f x : ℝ) : EReal) := by
  classical
  induction t using Finset.induction_on with
  | empty => simp
  | insert a t ha ih => rw [Finset.sum_insert ha, Finset.sum_insert ha, ih, EReal.coe_add]

/-- The exponential is nowhere negative. -/
theorem exp_nonneg (x : EReal) : 0 ≤ Ideal.exp x := by
  induction x using EReal.rec with
  | bot => exact le_refl _
  | top => exact le_top
  | coe r => exact EReal.coe_nonneg.mpr (Real.exp_pos r).le

section Row

variable {ι : Type*} [Fintype ι]

/-- The maximum, folded from the bottom, of a row of real scores with at least one index is a real number. -/
theorem foldMax_real (s : ι → EReal) (hs : ∀ j, ∃ r : ℝ, s j = r) (j0 : ι) :
    ∃ μ : ℝ, (Finset.univ : Finset ι).fold max ⊥ s = μ := by
  have hlt : (Finset.univ : Finset ι).fold max ⊥ s < ⊤ := by
    rw [Finset.fold_max_lt]
    refine ⟨bot_lt_top, fun j _ => ?_⟩
    obtain ⟨r, hr⟩ := hs j
    rw [hr]; exact EReal.coe_lt_top r
  have hge : s j0 ≤ (Finset.univ : Finset ι).fold max ⊥ s := by
    rw [Finset.le_fold_max]
    exact Or.inr ⟨j0, Finset.mem_univ _, le_refl _⟩
  obtain ⟨r0, hr0⟩ := hs j0
  have hbot : (Finset.univ : Finset ι).fold max ⊥ s ≠ ⊥ := by
    intro h
    rw [h, hr0] at hge
    exact absurd (le_bot_iff.mp hge) (EReal.coe_ne_bot r0)
  exact ⟨((Finset.univ : Finset ι).fold max ⊥ s).toReal, (EReal.coe_toReal hlt.ne hbot).symm⟩

/-- The sum of the exponentials of a row of real scores shifted by the row's maximum is not zero. -/
theorem sumExpShift_ne_zero (s : ι → EReal) (hs : ∀ j, ∃ r : ℝ, s j = r) (j0 : ι) :
    (∑ j : ι, Ideal.exp (s j - (Finset.univ : Finset ι).fold max ⊥ s)) ≠ 0 := by
  obtain ⟨μ, hμ⟩ := foldMax_real s hs j0
  obtain ⟨r0, hr0⟩ := hs j0
  have hpos : 0 < Ideal.exp (s j0 - (Finset.univ : Finset ι).fold max ⊥ s) := by
    rw [hμ, hr0, ← EReal.coe_sub, Ideal.exp_coe]
    exact EReal.coe_pos.mpr (Real.exp_pos _)
  have hle : Ideal.exp (s j0 - (Finset.univ : Finset ι).fold max ⊥ s)
      ≤ ∑ j : ι, Ideal.exp (s j - (Finset.univ : Finset ι).fold max ⊥ s) :=
    Finset.single_le_sum (f := fun j => Ideal.exp (s j - (Finset.univ : Finset ι).fold max ⊥ s))
      (fun j _ => exp_nonneg _) (Finset.mem_univ j0)
  exact (lt_of_lt_of_le hpos hle).ne'

end Row

/-- Off zero, the product with the reciprocal is the quotient. -/
theorem mul_div_one_eq_div (e D : EReal) (hD : D ≠ 0) : e * Ideal.div 1 D = Ideal.div e D := by
  unfold Ideal.div
  rw [if_neg hD, if_neg hD, one_mul]

end Cert.LibSoftmaxReal

end
-- ==== Proof.LibTileSum.lean ====
/-
  A sum over a long axis, taken tile by tile.

  For a function `f` of a natural number with values in any commutative additive monoid (the extended reals
  below), adding up `T` consecutive tiles of `K` terms each is adding up the first `T * K` terms: only
  associativity of the sum is used, so nothing is asked of the terms (they may be infinite).
-/
import Mathlib.Algebra.BigOperators.Fin
import Mathlib.Algebra.BigOperators.Intervals

namespace Cert.TileSum

open Finset

/-- `T` tiles of `K` consecutive terms, summed tile by tile, are the first `T * K` terms summed once. -/
theorem sum_tiles {M : Type*} [AddCommMonoid M] (K : ℕ) (f : ℕ → M) :
    ∀ T : ℕ, ∑ s ∈ range T, ∑ kk : Fin K, f (K * s + kk.val) = ∑ k : Fin (T * K), f k.val
  | 0 => by
    rw [Finset.sum_range_zero, ← Finset.sum_range (fun k => f k), Nat.zero_mul, Finset.sum_range_zero]
  | T + 1 => by
    rw [Finset.sum_range_succ, sum_tiles K f T, ← Finset.sum_range (fun k => f k),
      ← Finset.sum_range (fun k => f k), ← Finset.sum_range (fun kk => f (K * T + kk)),
      Nat.succ_mul, Finset.sum_range_add, Nat.mul_comm K T]

end Cert.TileSum
-- ==== Proof.IdealAttnValueRow.lean ====
/-
  A row of attention computed tile by tile equals the row computed at once.

  A row of 2048 real scores S and one column of 2048 real values are cut into four tiles of 512 consecutive keys.  The
  streaming softmax keeps a running maximum, a running normaliser and a running weighted sum, folds one tile in at a
  time, and after the fourth tile the normaliser is the sum of exp (S k - max S) over the whole row and the weighted sum
  is the sum of exp (S k - max S) * v k: the running maximum after four tiles bounds every score and is one of them, so
  it is the row's maximum, and four tiles of 512 terms summed tile by tile are the 2048 terms summed once.
-/
import proofs.«151986_j46763603919067_2_alg».proof.Proof.AttnSpec
import proofs.«151986_j46763603919067_2_alg».proof.Proof.LibOnlineAttention
import proofs.«151986_j46763603919067_2_alg».proof.Proof.LibSoftmaxReal
import proofs.«151986_j46763603919067_2_alg».proof.Proof.LibTileSum

noncomputable section

namespace Cert.KernelIdeal.HandValue.AttnCall

open Idealize.ShloMosaic Finset
open Cert.Lib.OnlineLogSumExp (run term exp_sub_eq_term coe_sum)
open Cert.Lib.OnlineAttention (runAcc runAcc_spec)

/-- A row of 2048 entries continued by 0 past its end. -/
def ext (S : Fin 2048 → EReal) (n : ℕ) : EReal := if h : n < 2048 then S ⟨n, h⟩ else 0

theorem ext_val (S : Fin 2048 → EReal) (k : Fin 2048) : ext S k.val = S k := by
  unfold ext; rw [dif_pos k.isLt]

/-- Tile n of the row: entries 512·n … 512·n + 511. -/
def tileS (S : Fin 2048 → EReal) (n : ℕ) (j : Fin 512) : EReal := ext S (512 * n + j.val)

/-- The largest entry of tile n, folded from -∞. -/
def tileC (S : Fin 2048 → EReal) (n : ℕ) : EReal := (Finset.univ : Finset (Fin 512)).fold max ⊥ (tileS S n)

theorem tileS_eq (S : Fin 2048 → EReal) (n : ℕ) (hn : n ≤ 3) (j : Fin 512) :
    tileS S n j = S ⟨512 * n + j.val, by have := j.isLt; omega⟩ := by
  unfold tileS ext; rw [dif_pos]

theorem tileS_div_mod (S : Fin 2048 → EReal) (k : Fin 2048) :
    tileS S (k.val / 512) ⟨k.val % 512, Nat.mod_lt _ (by decide)⟩ = S k := by
  unfold tileS
  show ext S (512 * (k.val / 512) + k.val % 512) = S k
  rw [Nat.div_add_mod, ext_val]

/-- A fold of max is its starting value or one of the entries. -/
theorem fold_max_mem {ι : Type} (t : Finset ι) (f : ι → EReal) (b : EReal) :
    t.fold max b f = b ∨ ∃ x ∈ t, t.fold max b f = f x := by
  classical
  induction t using Finset.induction_on with
  | empty => exact Or.inl rfl
  | insert a t ha ih =>
    rw [Finset.fold_insert ha]
    rcases max_choice (f a) (t.fold max b f) with h | h
    · exact Or.inr ⟨a, Finset.mem_insert_self _ _, h⟩
    · rw [h]
      rcases ih with ih | ⟨x, hx, e⟩
      · exact Or.inl ih
      · exact Or.inr ⟨x, Finset.mem_insert_of_mem hx, e⟩

/-- Four tiles of 512 terms, summed tile by tile, are the 2048 terms summed once. -/
theorem tiles_sum (f : ℕ → EReal) : ∑ k ∈ range 4, ∑ j : Fin 512, f (512 * k + j.val) = ∑ k : Fin 2048, f k.val :=
  Cert.TileSum.sum_tiles 512 f 4

/-- After the four tiles of a row of real scores and real values: the normaliser is the row's sum of
    exp (S k - max S), the weighted sum is the row's sum of exp (S k - max S) * v k. -/
theorem online_row (S Vc : Fin 2048 → EReal) (hS : ∀ k, ∃ x : ℝ, S k = (x : EReal)) (hV : ∀ k, ∃ x : ℝ, Vc k = (x : EReal)) :
    (run (tileS S) (tileC S) 4).2 = ∑ k : Fin 2048, Ideal.exp (S k - Cert.Attn.rowMax S)
    ∧ runAcc (tileS S) (tileC S) (tileS Vc) 4 = ∑ k : Fin 2048, Ideal.exp (S k - Cert.Attn.rowMax S) * Vc k := by
  choose x hx using hS
  choose y hy using hV
  have hsr : ∀ n ≤ 3, ∀ j : Fin 512, ∃ r : ℝ, tileS S n j = (r : EReal) := fun n hn j => ⟨_, (tileS_eq S n hn j).trans (hx _)⟩
  have hub : ∀ n ≤ 3, ∀ j, tileS S n j ≤ tileC S n := fun n _ j => by
    unfold tileC
    rw [Finset.le_fold_max]
    exact Or.inr ⟨j, Finset.mem_univ _, le_refl _⟩
  have hreal : ∀ n ≤ 3, ∃ r : ℝ, tileC S n = (r : EReal) := fun n hn =>
    Cert.LibSoftmaxReal.foldMax_real (tileS S n) (hsr n hn) ⟨0, by decide⟩
  have hatt : ∀ n ≤ 3, ∃ j, tileS S n j = tileC S n := fun n hn => by
    rcases fold_max_mem (Finset.univ : Finset (Fin 512)) (tileS S n) ⊥ with h | ⟨j, _, h⟩
    · obtain ⟨r, hr⟩ := hreal n hn
      exact absurd (h.symm.trans hr) (EReal.coe_ne_bot r).symm
    · exact ⟨j, h.symm⟩
  have hv : ∀ n ≤ 3, ∀ j : Fin 512, tileS Vc n j = (((tileS Vc n j).toReal : ℝ) : EReal) := fun n hn j => by
    rw [tileS_eq Vc n hn j, hy, EReal.toReal_coe]
  obtain ⟨M, -, h2, h3, h4, h5⟩ := runAcc_spec (tileS S) (tileC S) (tileS Vc) (fun n j => (tileS Vc n j).toReal) 3 hub hatt hreal hv
  have hM : Cert.Attn.rowMax S = (M : EReal) := by
    unfold Cert.Attn.rowMax
    refine le_antisymm (Finset.sup_le fun k _ => ?_) ?_
    · have := h2 (k.val / 512) (by have := k.isLt; omega) ⟨k.val % 512, Nat.mod_lt _ (by decide)⟩
      rwa [tileS_div_mod] at this
    · obtain ⟨n, hn, j, hj⟩ := h3
      rw [← hj, tileS_eq S n hn j]
      exact Finset.le_sup (Finset.mem_univ _)
  have hnt : ∀ n ≤ 3, ∀ j : Fin 512, tileS S n j ≠ ⊤ := fun n hn j => by
    obtain ⟨r, hr⟩ := hsr n hn j
    rw [hr]; exact EReal.coe_ne_top r
  have hL : ∀ n ∈ range 4, ∀ j : Fin 512, ((term (tileS S n j) M : ℝ) : EReal) = Ideal.exp (ext S (512 * n + j.val) - (M : EReal)) := fun n hn j =>
    (exp_sub_eq_term _ (hnt n (by have := Finset.mem_range.1 hn; omega) j) M).symm
  refine ⟨?_, ?_⟩
  · rw [h4, hM, coe_sum]
    refine Eq.trans (Finset.sum_congr rfl fun n hn => ?_) ((tiles_sum fun n => Ideal.exp (ext S n - (M : EReal))).trans
      (Finset.sum_congr rfl fun k _ => by rw [ext_val]))
    rw [coe_sum]
    exact Finset.sum_congr rfl fun j _ => hL n hn j
  · rw [h5, hM, coe_sum]
    refine Eq.trans (Finset.sum_congr rfl fun n hn => ?_) ((tiles_sum fun n => Ideal.exp (ext S n - (M : EReal)) * ext Vc n).trans
      (Finset.sum_congr rfl fun k _ => by rw [ext_val, ext_val]))
    rw [coe_sum]
    refine Finset.sum_congr rfl fun j _ => ?_
    rw [EReal.coe_mul, hL n hn j, ← hv n (by have := Finset.mem_range.1 hn; omega) j]
    rfl

end Cert.KernelIdeal.HandValue.AttnCall

end
-- ==== Proof.IdealAttnValueBlocks.lean ====
/-
  The attention call's blocks as parts of its arrays.

  Grid point t has coordinates (b, qi, ki) with t = 8·b + 4·qi + ki.  The query block and the output block at t are
  rows 1024·qi … of batch b; the key tile and the value tile are rows 512·ki … of batch b; the mask tile is rows
  1024·qi …, columns 512·ki … of batch b.  The relations between the printed index maps and the point's number are
  decided once over the 32 points; an entry of a block is the array's entry at block index × block size + the entry's
  coordinate inside the block.
-/
import proofs.«151986_j46763603919067_2_alg».proof.Proof.Gen.KernelIdeal.Points
import proofs.«151986_j46763603919067_2_alg».proof.Proof.Gen.KernelIdeal.Launch
import proofs.«151986_j46763603919067_2_alg».proof.Proof.IdealAttnStep
import Idealize.ShloMosaic.Lib.ValueIdx
import Idealize.ShloMosaic.Lib.Pipeline.Value

noncomputable section

namespace Cert.KernelIdeal.HandValue.AttnCall

open Idealize.ShloMosaic Idealize.ShloMosaic.TcCoe Idealize.SL.Sem Idealize.ShloMosaic.ValueIdx
open Cert.KernelIdeal Cert.KernelIdeal.Gen Cert.KernelIdeal.Hand

/-- The printed index maps in terms of the point's number, decided over the grid. -/
theorem idx_facts : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 0
    ∧ win1_2.index t (0 : Fin 3) = t.val / 8 ∧ win1_2.index t (1 : Fin 3) = t.val % 4 ∧ win1_2.index t (2 : Fin 3) = 0
    ∧ win1_3.index t (0 : Fin 3) = t.val / 8 ∧ win1_3.index t (1 : Fin 3) = t.val / 4 % 2 ∧ win1_3.index t (2 : Fin 3) = t.val % 4
    ∧ win1_4.index t (0 : Fin 3) = t.val / 8 ∧ win1_4.index t (1 : Fin 3) = t.val / 4 % 2 ∧ win1_4.index t (2 : Fin 3) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- An entry of the query block at t: batch t / 8, row 1024·(t / 4 % 2) + its row. -/
theorem iblk1_0_apply (y : S1x1024x1024.Idx) (kk : S4x2048x1024.Idx)
    (h0 : (kk 0).val = t.val / 8) (h1 : (kk 1).val = 1024 * (t.val / 4 % 2) + (y 1).val) (h2 : (kk 2).val = (y 2).val) :
    (iblk1 V c 0 t : S1x1024x1024.Idx → EReal) y = (V c main_v11 : S4x2048x1024.Idx → EReal) kk := by
  obtain ⟨e0, e1, e2, -⟩ := idx_facts t
  have y0 : (y 0).val = 0 := Nat.lt_one_iff.mp (y 0).isLt
  unfold iblk1
  rw [View.read_apply]
  show V c main_v11 _ = V c main_v11 _
  congr 1
  funext a
  apply Fin.ext
  match a with
  | ⟨0, _⟩ => show win1_0.index t (0 : Fin 3) * 1 + 1 * (y 0).val = (kk 0).val; rw [e0, h0, y0]; omega
  | ⟨1, _⟩ => show win1_0.index t (1 : Fin 3) * 1024 + 1 * (y 1).val = (kk 1).val; rw [e1, h1]; omega
  | ⟨2, _⟩ => show win1_0.index t (2 : Fin 3) * 1024 + 1 * (y 2).val = (kk 2).val; rw [e2, h2]; omega

/-- An entry of the key tile at t: batch t / 8, row 512·(t % 4) + its row. -/
theorem iblk1_1_apply (y : S1x512x1024.Idx) (kk : S4x2048x1024.Idx)
    (h0 : (kk 0).val = t.val / 8) (h1 : (kk 1).val = 512 * (t.val % 4) + (y 1).val) (h2 : (kk 2).val = (y 2).val) :
    (iblk1 V c 1 t : S1x512x1024.Idx → EReal) y = (V c main_v12 : S4x2048x1024.Idx → EReal) kk := by
  obtain ⟨-, -, -, e0, e1, e2, -⟩ := idx_facts t
  have y0 : (y 0).val = 0 := Nat.lt_one_iff.mp (y 0).isLt
  unfold iblk1
  rw [View.read_apply]
  show V c main_v12 _ = V c main_v12 _
  congr 1
  funext a
  apply Fin.ext
  match a with
  | ⟨0, _⟩ => show win1_1.index t (0 : Fin 3) * 1 + 1 * (y 0).val = (kk 0).val; rw [e0, h0, y0]; omega
  | ⟨1, _⟩ => show win1_1.index t (1 : Fin 3) * 512 + 1 * (y 1).val = (kk 1).val; rw [e1, h1]; omega
  | ⟨2, _⟩ => show win1_1.index t (2 : Fin 3) * 1024 + 1 * (y 2).val = (kk 2).val; rw [e2, h2]; omega

/-- An entry of the value tile at t: batch t / 8, row 512·(t % 4) + its row. -/
theorem iblk1_2_apply (y : S1x512x1024.Idx) (kk : S4x2048x1024.Idx)
    (h0 : (kk 0).val = t.val / 8) (h1 : (kk 1).val = 512 * (t.val % 4) + (y 1).val) (h2 : (kk 2).val = (y 2).val) :
    (iblk1 V c 2 t : S1x512x1024.Idx → EReal) y = (V c main_v13 : S4x2048x1024.Idx → EReal) kk := by
  obtain ⟨-, -, -, -, -, -, e0, e1, e2, -⟩ := idx_facts t
  have y0 : (y 0).val = 0 := Nat.lt_one_iff.mp (y 0).isLt
  unfold iblk1
  rw [View.read_apply]
  show V c main_v13 _ = V c main_v13 _
  congr 1
  funext a
  apply Fin.ext
  match a with
  | ⟨0, _⟩ => show win1_2.index t (0 : Fin 3) * 1 + 1 * (y 0).val = (kk 0).val; rw [e0, h0, y0]; omega
  | ⟨1, _⟩ => show win1_2.index t (1 : Fin 3) * 512 + 1 * (y 1).val = (kk 1).val; rw [e1, h1]; omega
  | ⟨2, _⟩ => show win1_2.index t (2 : Fin 3) * 1024 + 1 * (y 2).val = (kk 2).val; rw [e2, h2]; omega

/-- An entry of the mask tile at t: batch t / 8, row 1024·(t / 4 % 2) + its row, column 512·(t % 4) + its column. -/
theorem iblk1_3_apply (y : S1x1024x512.Idx) (kk : S4x2048x2048.Idx)
    (h0 : (kk 0).val = t.val / 8) (h1 : (kk 1).val = 1024 * (t.val / 4 % 2) + (y 1).val)
    (h2 : (kk 2).val = 512 * (t.val % 4) + (y 2).val) :
    (iblk1 V c 3 t : S1x1024x512.Idx → BitVec 32) y = (V c main_arg1 : S4x2048x2048.Idx → BitVec 32) kk := by
  obtain ⟨-, -, -, -, -, -, -, -, -, e0, e1, e2, -⟩ := idx_facts t
  have y0 : (y 0).val = 0 := Nat.lt_one_iff.mp (y 0).isLt
  unfold iblk1
  rw [View.read_apply]
  show V c main_arg1 _ = V c main_arg1 _
  congr 1
  funext a
  apply Fin.ext
  match a with
  | ⟨0, _⟩ => show win1_3.index t (0 : Fin 3) * 1 + 1 * (y 0).val = (kk 0).val; rw [e0, h0, y0]; omega
  | ⟨1, _⟩ => show win1_3.index t (1 : Fin 3) * 1024 + 1 * (y 1).val = (kk 1).val; rw [e1, h1]; omega
  | ⟨2, _⟩ => show win1_3.index t (2 : Fin 3) * 512 + 1 * (y 2).val = (kk 2).val; rw [e2, h2]; omega

end Blocks

end Cert.KernelIdeal.HandValue.AttnCall

end
-- ==== Proof.IdealAttnValueInv.lean ====
/-
  The attention call's scratch after each grid point, row by row: the streaming softmax over the tiles so far.

  For batch b and query row i (row r of query block qi), the scores of key tile n at the block's point are entries
  512·n … of the row of scores S = score(b, i, ·), and the value tile's column h is entries 512·n … of column h of the
  values.  So the scratch the points 4·m, 4·m + 1, … leave is, at row r, the streaming pair and accumulator of the row
  after 1, 2, … tiles, by induction on the tile.
-/
import proofs.«151986_j46763603919067_2_alg».proof.Proof.IdealAttnValueStep
import proofs.«151986_j46763603919067_2_alg».proof.Proof.IdealAttnValueRow
import proofs.«151986_j46763603919067_2_alg».proof.Proof.IdealAttnValueBlocks

noncomputable section

namespace Cert.KernelIdeal.HandValue.AttnCall

open Idealize.ShloMosaic Idealize.ShloMosaic.TcCoe Idealize.SL.Sem Idealize.ShloMosaic.ValueIdx
open Cert.KernelIdeal Cert.KernelIdeal.Gen Cert.KernelIdeal.Hand

/-- A row's streaming pair (maximum, normaliser) and its accumulator after n tiles. -/
abbrev rowPair (S : Fin 2048 → EReal) (n : ℕ) : EReal × EReal := Cert.Lib.OnlineLogSumExp.run (tileS S) (tileC S) n
abbrev rowAcc (S Vc : Fin 2048 → EReal) (n : ℕ) : EReal := Cert.Lib.OnlineAttention.runAcc (tileS S) (tileC S) (tileS Vc) n

/-- One tile folded into a row's state is one step of the streaming pair and accumulator. -/
theorem step_run (S Vc : Fin 2048 → EReal) (n : ℕ) (q : Vec Ideal S1x1024x1024 .bf16) (k v : Vec Ideal S1x512x1024 .bf16)
    (msk : Vec Ideal S1x1024x512 .i32) (st : Run3 Ideal) (r h : Fin 1024)
    (hs : ∀ j, tscore q k msk r j = tileS S n j) (hv : ∀ j, kAt v j h = tileS Vc n j)
    (hm : mOf st r = (rowPair S n).1) (hl : lOf st r = (rowPair S n).2)
    (ha : accOf st r h = rowAcc S Vc n) :
    mOf (step1 q k v msk st) r = (rowPair S (n + 1)).1
    ∧ lOf (step1 q k v msk st) r = (rowPair S (n + 1)).2
    ∧ accOf (step1 q k v msk st) r h = rowAcc S Vc (n + 1) := by
  have hc : tileMax q k msk r = tileC S n :=
    congrArg ((Finset.univ : Finset (Fin 512)).fold max ⊥) (funext hs)
  refine ⟨?_, ?_, ?_⟩
  · rw [step1_m, hm, hc]; rfl
  · rw [step1_l, hm, hl, hc]
    simp only [hs]
    rfl
  · rw [step1_acc, hm, ha, hc]
    simp only [hs, hv]
    rfl

section Arrays
variable (V : (c : Dev nD) → (b : Ref sig .tc) → Buf (Elt Ideal) ((c : Thread nD τ).loc b)) (c : Dev nD)

/-- The call's arrays by coordinates. -/
abbrev Qa : Fin 4 → Fin 2048 → Fin 1024 → EReal := fun b s h => (V c main_v11 : S4x2048x1024.Idx → EReal) (ix3 b s h)
abbrev Ka : Fin 4 → Fin 2048 → Fin 1024 → EReal := fun b s h => (V c main_v12 : S4x2048x1024.Idx → EReal) (ix3 b s h)
abbrev Va : Fin 4 → Fin 2048 → Fin 1024 → EReal := fun b s h => (V c main_v13 : S4x2048x1024.Idx → EReal) (ix3 b s h)
abbrev Ma : Fin 4 → Fin 2048 → Fin 2048 → BitVec 32 := fun b q k => (V c main_arg1 : S4x2048x2048.Idx → BitVec 32) (ix3 b q k)

/-- The row of scores of batch b, query row i; column h of batch b's values. -/
abbrev Srow (b : Fin 4) (i : Fin 2048) : Fin 2048 → EReal := Cert.Attn.score (Qa V c) (Ka V c) (Ma V c) b i
abbrev Vcol (b : Fin 4) (h : Fin 1024) : Fin 2048 → EReal := fun k => Va V c b k h

/-- The tile's scores at point t are entries 512·n … of the row of scores, n = t % 4. -/
theorem tile_score (t : Fin cfg1.N) (n : ℕ) (hn : t.val % 4 = n) (b : Fin 4) (i : Fin 2048) (r : Fin 1024)
    (hb : b.val = t.val / 8) (hi : i.val = 1024 * (t.val / 4 % 2) + r.val) (j : Fin 512) :
    tscore (iblk1 V c 0 t) (iblk1 V c 1 t) (iblk1 V c 3 t) r j = tileS (Srow V c b i) n j := by
  subst hn
  have hn3 : t.val % 4 ≤ 3 := by omega
  have hlt : 512 * (t.val % 4) + j.val < 2048 := by have := j.isLt; omega
  rw [tileS_eq _ _ hn3 j]
  have em : mAt (iblk1 V c 3 t) r j = Ma V c b i ⟨512 * (t.val % 4) + j.val, hlt⟩ :=
    iblk1_3_apply V c t (ix3 (0 : Fin 1) r j) (ix3 b i ⟨512 * (t.val % 4) + j.val, hlt⟩) hb hi rfl
  have eq : ∀ h : Fin 1024, qAt (iblk1 V c 0 t) r h = Qa V c b i h := fun h =>
    iblk1_0_apply V c t (ix3 (0 : Fin 1) r h) (ix3 b i h) hb hi rfl
  have ek : ∀ h : Fin 1024, kAt (iblk1 V c 1 t) j h = Ka V c b ⟨512 * (t.val % 4) + j.val, hlt⟩ h := fun h =>
    iblk1_1_apply V c t (ix3 (0 : Fin 1) j h) (ix3 b ⟨512 * (t.val % 4) + j.val, hlt⟩ h) hb rfl rfl
  have eqk : ∀ h : Fin 1024, qAt (iblk1 V c 0 t) r h * kAt (iblk1 V c 1 t) j h
      = Qa V c b i h * Ka V c b ⟨512 * (t.val % 4) + j.val, hlt⟩ h := fun h => by rw [eq h, ek h]
  show (if mAt (iblk1 V c 3 t) r j = 0#32 then Cert.Attn.negBig
        else ∑ h : Fin 1024, qAt (iblk1 V c 0 t) r h * kAt (iblk1 V c 1 t) j h) * Cert.Attn.scaleMul
      = (if Ma V c b i ⟨512 * (t.val % 4) + j.val, hlt⟩ = 0#32 then Cert.Attn.negBig
        else ∑ h : Fin 1024, Qa V c b i h * Ka V c b ⟨512 * (t.val % 4) + j.val, hlt⟩ h) * Cert.Attn.scaleMul
  rw [em, Finset.sum_congr rfl fun h _ => eqk h]

/-- The value tile's column h at point t is entries 512·n … of column h of the values. -/
theorem tile_val (t : Fin cfg1.N) (n : ℕ) (hn : t.val % 4 = n) (b : Fin 4) (h : Fin 1024) (hb : b.val = t.val / 8) (j : Fin 512) :
    kAt (iblk1 V c 2 t) j h = tileS (Vcol V c b h) n j := by
  subst hn
  have hn3 : t.val % 4 ≤ 3 := by omega
  have hlt : 512 * (t.val % 4) + j.val < 2048 := by have := j.isLt; omega
  rw [tileS_eq _ _ hn3 j]
  exact iblk1_2_apply V c t (ix3 (0 : Fin 1) j h) (ix3 b ⟨512 * (t.val % 4) + j.val, hlt⟩ h) hb rfl rfl

section Scratch
variable (scr : (n : ℕ) → n < cfg1.N → Run3 Ideal)

theorem scr_congr {a b : ℕ} (e : a = b) (ha : a < cfg1.N) (hb : b < cfg1.N) : scr a ha = scr b hb := by
  subst e; rfl

variable
  (hfirst : ∀ t : Fin cfg1.N, t.val % 4 = 0 → scr t.val t.isLt = step1 (iblk1 V c 0 t) (iblk1 V c 1 t) (iblk1 V c 2 t) (iblk1 V c 3 t) init1)
  (hnext : ∀ t : Fin cfg1.N, t.val % 4 ≠ 0 → scr t.val t.isLt = step1 (iblk1 V c 0 t) (iblk1 V c 1 t) (iblk1 V c 2 t) (iblk1 V c 3 t) (scr (t.val - 1) (Nat.lt_of_le_of_lt (Nat.sub_le _ _) t.isLt)))

include hfirst hnext in
/-- After point 4·m + n the scratch holds, at row r, the row's streaming state after n + 1 tiles. -/
theorem scr_inv (t0 : ℕ) (ht0 : t0 % 4 = 0) (b : Fin 4) (i : Fin 2048) (r h : Fin 1024) (hb : b.val = t0 / 8)
    (hi : i.val = 1024 * (t0 / 4 % 2) + r.val) :
    ∀ (n : ℕ) (hn : n ≤ 3) (hlt : t0 + n < cfg1.N),
      mOf (scr (t0 + n) hlt) r = (rowPair (Srow V c b i) (n + 1)).1
      ∧ lOf (scr (t0 + n) hlt) r = (rowPair (Srow V c b i) (n + 1)).2
      ∧ accOf (scr (t0 + n) hlt) r h = rowAcc (Srow V c b i) (Vcol V c b h) (n + 1)
  | 0, _, hlt => by
    have e := hfirst ⟨t0 + 0, hlt⟩ (by show (t0 + 0) % 4 = 0; omega)
    rw [show scr (t0 + 0) hlt = _ from e]
    exact step_run (Srow V c b i) (Vcol V c b h) 0 _ _ _ _ init1 r h
      (fun j => tile_score V c ⟨t0 + 0, hlt⟩ 0 (by show (t0 + 0) % 4 = 0; omega) b i r
        (by show b.val = (t0 + 0) / 8; omega) (by show i.val = 1024 * ((t0 + 0) / 4 % 2) + r.val; omega) j)
      (fun j => tile_val V c ⟨t0 + 0, hlt⟩ 0 (by show (t0 + 0) % 4 = 0; omega) b h (by show b.val = (t0 + 0) / 8; omega) j)
      (init1_m r) (init1_l r) (init1_acc r h)
  | n + 1, hn, hlt => by
    have hlt' : t0 + n < cfg1.N := by omega
    obtain ⟨hm, hl, ha⟩ := scr_inv t0 ht0 b i r h hb hi n (by omega) hlt'
    have e := hnext ⟨t0 + (n + 1), hlt⟩ (by show (t0 + (n + 1)) % 4 ≠ 0; omega)
    have hp : scr ((⟨t0 + (n + 1), hlt⟩ : Fin cfg1.N).val - 1)
        (Nat.lt_of_le_of_lt (Nat.sub_le _ _) (⟨t0 + (n + 1), hlt⟩ : Fin cfg1.N).isLt) = scr (t0 + n) hlt' :=
      scr_congr scr (by show t0 + (n + 1) - 1 = t0 + n; omega) _ _
    rw [show scr (t0 + (n + 1)) hlt = _ from e]
    exact step_run (Srow V c b i) (Vcol V c b h) (n + 1) _ _ _ _ _ r h
      (fun j => tile_score V c ⟨t0 + (n + 1), hlt⟩ (n + 1) (by show (t0 + (n + 1)) % 4 = n + 1; omega) b i r
        (by show b.val = (t0 + (n + 1)) / 8; omega) (by show i.val = 1024 * ((t0 + (n + 1)) / 4 % 2) + r.val; omega) j)
      (fun j => tile_val V c ⟨t0 + (n + 1), hlt⟩ (n + 1) (by show (t0 + (n + 1)) % 4 = n + 1; omega) b h
        (by show b.val = (t0 + (n + 1)) / 8; omega) j)
      ((congrArg (fun s => mOf s r) hp).trans hm) ((congrArg (fun s => lOf s r) hp).trans hl)
      ((congrArg (fun s => accOf s r h) hp).trans ha)

end Scratch

end Arrays

end Cert.KernelIdeal.HandValue.AttnCall

end
-- ==== Proof.IdealAttnValueReal.lean ====
/-
  Real scores from real queries and keys.

  A single-precision pattern whose exponent field is not all ones denotes a real number; so do -10⁹ and 1/32.  With real
  queries and keys an inner product is a real number (the coercion of the reals into the extended reals commutes with
  products and finite sums), hence every score of the attention call is real.
-/
import proofs.«151986_j46763603919067_2_alg».proof.Proof.AttnSpec
import proofs.«151986_j46763603919067_2_alg».proof.Proof.LibSoftmaxReal

noncomputable section

namespace Cert.KernelIdeal.HandValue.AttnCall

open Idealize.ShloMosaic

/-- A single-precision pattern whose exponent field is not all ones denotes a real number. -/
theorem ofBits_f32_real (b : BitVec 32) (h : ¬(b.extractLsb' 23 8).toNat = 2 ^ 8 - 1) :
    ∃ x : ℝ, Ideal.ofBits .f32 b = (x : EReal) := by
  show ∃ x : ℝ, Ideal.ieee 8 23 b = (x : EReal)
  unfold Ideal.ieee
  dsimp only
  rw [if_neg h]
  split
  · exact ⟨_, rfl⟩
  · exact ⟨_, rfl⟩

theorem negBig_real : ∃ x : ℝ, Cert.Attn.negBig = (x : EReal) := ofBits_f32_real _ (by decide)
theorem scaleMul_real : ∃ x : ℝ, Cert.Attn.scaleMul = (x : EReal) := ofBits_f32_real _ (by decide)

/-- With real queries and keys every score is real. -/
theorem score_real (Q K : Fin 4 → Fin 2048 → Fin 1024 → EReal) (Msk : Fin 4 → Fin 2048 → Fin 2048 → BitVec 32)
    (hQ : ∀ b s h, ∃ x : ℝ, Q b s h = (x : EReal)) (hK : ∀ b s h, ∃ x : ℝ, K b s h = (x : EReal))
    (b : Fin 4) (q k : Fin 2048) : ∃ x : ℝ, Cert.Attn.score Q K Msk b q k = (x : EReal) := by
  obtain ⟨nb, hnb⟩ := negBig_real
  obtain ⟨sc, hsc⟩ := scaleMul_real
  choose xq hxq using hQ
  choose xk hxk using hK
  unfold Cert.Attn.score
  split
  · exact ⟨nb * sc, by rw [hnb, hsc, EReal.coe_mul]⟩
  · refine ⟨(∑ h : Fin 1024, xq b q h * xk b k h) * sc, ?_⟩
    rw [hsc, EReal.coe_mul, ← Cert.LibSoftmaxReal.coe_sum]
    refine congrArg (· * (sc : EReal)) (Finset.sum_congr rfl fun h _ => ?_)
    rw [hxq, hxk, EReal.coe_mul]

end Cert.KernelIdeal.HandValue.AttnCall

end
-- ==== Proof.IdealAttnValue.lean ====
/-
  The attention call's value: its output array is plain attention of its three input arrays and the mask.

  The output block of batch b and query block qi is written back once, after the last of the four key/value tiles
  (the points with t % 4 = 3), and holds the streaming weighted sum over the streaming normaliser, which for real
  queries, keys and values are the row's sums of exp (s - max s)·v and of exp (s - max s).  The blocks written back
  cover the array: the point that covers batch b, query row s is 8·b + 4·(s / 1024) + 3.
-/
import proofs.«151986_j46763603919067_2_alg».proof.Proof.IdealAttnValueInv
import proofs.«151986_j46763603919067_2_alg».proof.Proof.IdealAttnValueReal
import Idealize.ShloMosaic.Lib.Pipeline.Value

noncomputable section

open Idealize.ShloMosaic Idealize.ShloMosaic.TcCoe Idealize.SL.Sem Idealize.ShloMosaic.ValueIdx
open Cert.KernelIdeal Cert.KernelIdeal.Gen Cert.KernelIdeal.Hand
open Idealize.ShloMosaic.Pipeline (Dat)

namespace Cert.KernelIdeal.HandValue.AttnCall

/-- An entry of the output array is in the block of point t iff each coordinate is in the block's range. -/
theorem mem_blk (t : Fin cfg1.N) (i : S4x2048x1024.Idx) :
    i ∈ ((cfg1.win 4).blk t).view.set ↔ ∀ a : Fin 3, win1_4.index t a * S1x1024x1024.size a ≤ (i a).val
      ∧ (i a).val < win1_4.index t a * S1x1024x1024.size a + S1x1024x1024.size a := by
  show i ∈ ((View.whole main_v14).slice (win1_4.rect t)).set ↔ _
  rw [View.set_slice_whole, Rect.mem_set_unit]
  exact Iff.rfl

/-- Every entry of the output array is in the block of a point that writes its block back. -/
theorem cover (i : S4x2048x1024.Idx) :
    ∃ t : Fin cfg1.N, (cfg1.win 4).flush t = true ∧ i ∈ ((cfg1.win 4).blk t).view.set := by
  have hN : cfg1.N = 32 := N_1
  have i0 : (i 0).val < 4 := (i 0).isLt
  have i1 : (i 1).val < 2048 := (i 1).isLt
  have i2 : (i 2).val < 1024 := (i 2).isLt
  obtain ⟨t, htv⟩ : ∃ t : Fin cfg1.N, t.val = 8 * (i 0).val + 4 * ((i 1).val / 1024) + 3 :=
    ⟨⟨8 * (i 0).val + 4 * ((i 1).val / 1024) + 3, by omega⟩, rfl⟩
  obtain ⟨-, -, -, -, -, -, -, -, -, -, -, -, e0, e1, e2⟩ := idx_facts t
  refine ⟨t, (flush1_4 t).mpr (by omega), ?_⟩
  rw [mem_blk]
  intro a
  match a with
  | ⟨0, _⟩ =>
    show win1_4.index t (0 : Fin 3) * 1 ≤ (i 0).val ∧ (i 0).val < win1_4.index t (0 : Fin 3) * 1 + 1
    rw [e0]; omega
  | ⟨1, _⟩ =>
    show win1_4.index t (1 : Fin 3) * 1024 ≤ (i 1).val ∧ (i 1).val < win1_4.index t (1 : Fin 3) * 1024 + 1024
    rw [e1]; omega
  | ⟨2, _⟩ =>
    show win1_4.index t (2 : Fin 3) * 1024 ≤ (i 2).val ∧ (i 2).val < win1_4.index t (2 : Fin 3) * 1024 + 1024
    rw [e2]; omega

section Final
variable {c : Dev nD} (V : (c : Dev nD) → (b : Ref sig .tc) → Buf (Elt Ideal) ((c : Thread nD τ).loc b))
  (dat : Dat τ (Elt Ideal) Unit ℕ (UR sig nD τ) ℕ cfg1 c) (scr : (n : ℕ) → n < cfg1.N → Run3 Ideal)
  (hfirst : ∀ t : Fin cfg1.N, t.val % 4 = 0 → scr t.val t.isLt = step1 (iblk1 V c 0 t) (iblk1 V c 1 t) (iblk1 V c 2 t) (iblk1 V c 3 t) init1)
  (hnext : ∀ t : Fin cfg1.N, t.val % 4 ≠ 0 → scr t.val t.isLt = step1 (iblk1 V c 0 t) (iblk1 V c 1 t) (iblk1 V c 2 t) (iblk1 V c 3 t) (scr (t.val - 1) (Nat.lt_of_le_of_lt (Nat.sub_le _ _) t.isLt)))
  (hlast : ∀ t : Fin cfg1.N, t.val % 4 = 3 → dat.after 4 t = fin1 (scr t.val t.isLt))
  (hQ : ∀ i, ∃ x : ℝ, (V c main_v11 : S4x2048x1024.Idx → EReal) i = (x : EReal))
  (hK : ∀ i, ∃ x : ℝ, (V c main_v12 : S4x2048x1024.Idx → EReal) i = (x : EReal))
  (hVv : ∀ i, ∃ x : ℝ, (V c main_v13 : S4x2048x1024.Idx → EReal) i = (x : EReal))

/-- Plain attention of the call's arrays, entry by entry. -/
abbrev G : S4x2048x1024.Idx → EReal :=
  fun i => Cert.Attn.attn (Qa V c) (Ka V c) (Va V c) (Ma V c) (i 0) (i 1) (i 2)

include hfirst hnext hlast hQ hK hVv in
/-- What a point with t % 4 = 3 writes back is its block of plain attention. -/
theorem flushed_eq (t : Fin cfg1.N) (hf : (cfg1.win 4).flush t = true) :
    dat.flushed 4 t = ((cfg1.win 4).blk t).view.read (Elt Ideal) (G V (c := c)) := by
  have h3 : t.val % 4 = 3 := (flush1_4 t).mp hf
  have hN : cfg1.N = 32 := N_1
  have htlt : t.val < cfg1.N := t.isLt
  obtain ⟨-, -, -, -, -, -, -, -, -, -, -, -, e0, e1, e2⟩ := idx_facts t
  show (cfg1.win 4).cut (grid1.coords t) (dat.after 4 t) = _
  rw [hlast t h3]
  refine funext fun (j : S1x1024x1024.Idx) => ?_
  rw [View.read_apply]
  obtain ⟨u, r, h, rfl⟩ : ∃ (u : Fin 1) (r h : Fin 1024), j = ix3 u r h := ⟨j 0, j 1, j 2, eq_ix3 j⟩
  have hb : t.val / 8 < 4 := by omega
  have hi : 1024 * (t.val / 4 % 2) + r.val < 2048 := by have := r.isLt; omega
  have hemb : ((cfg1.win 4).blk t).view.emb (ix3 u r h)
      = (ix3 (⟨t.val / 8, hb⟩ : Fin 4) (⟨1024 * (t.val / 4 % 2) + r.val, hi⟩ : Fin 2048) h : S4x2048x1024.Idx) := by
    have u0 : u.val = 0 := by omega
    funext a
    apply Fin.ext
    match a with
    | ⟨0, _⟩ => show win1_4.index t (0 : Fin 3) * 1 + 1 * u.val = t.val / 8; rw [e0, u0]; omega
    | ⟨1, _⟩ => show win1_4.index t (1 : Fin 3) * 1024 + 1 * r.val = 1024 * (t.val / 4 % 2) + r.val; rw [e1]; omega
    | ⟨2, _⟩ => show win1_4.index t (2 : Fin 3) * 1024 + 1 * h.val = h.val; rw [e2]; omega
  show (fin1 (scr t.val t.isLt) : S1x1024x1024.Idx → EReal) (ix3 u r h)
      = G V (c := c) (((cfg1.win 4).blk t).view.emb (ix3 u r h))
  rw [hemb, fin1_apply]
  have hlt3 : t.val - 3 + 3 < cfg1.N := by omega
  obtain ⟨-, hl, ha⟩ := scr_inv V c scr hfirst hnext (t.val - 3) (by omega) (⟨t.val / 8, hb⟩ : Fin 4)
    (⟨1024 * (t.val / 4 % 2) + r.val, hi⟩ : Fin 2048) r h (by show t.val / 8 = (t.val - 3) / 8; omega)
    (by show 1024 * (t.val / 4 % 2) + r.val = 1024 * ((t.val - 3) / 4 % 2) + r.val; omega) 3 (le_refl _) hlt3
  have hs : scr (t.val - 3 + 3) hlt3 = scr t.val t.isLt := scr_congr scr (by omega) _ _
  rw [hs] at hl ha
  obtain ⟨oL, oA⟩ := online_row (Srow V c ⟨t.val / 8, hb⟩ ⟨1024 * (t.val / 4 % 2) + r.val, hi⟩) (Vcol V c ⟨t.val / 8, hb⟩ h)
    (fun k => score_real (Qa V c) (Ka V c) (Ma V c) (fun b s h => hQ (ix3 b s h)) (fun b s h => hK (ix3 b s h)) _ _ k)
    (fun k => hVv (ix3 _ k h))
  rw [ha, hl]
  exact (congrArg₂ Ideal.div oA oL).trans rfl

end Final

end Cert.KernelIdeal.HandValue.AttnCall

namespace Cert.KernelIdeal.HandValue

/-- The attention call's output array, entry by entry, is plain attention of the arrays the call finds. -/
theorem attn_value {c : Dev nD} (V : (c : Dev nD) → (b : Ref sig .tc) → Buf (Elt Ideal) ((c : Thread nD τ).loc b))
    (dat : Dat τ (Elt Ideal) Unit ℕ (UR sig nD τ) ℕ cfg1 c) (scr : (n : ℕ) → n < cfg1.N → Run3 Ideal)
    (hA : ∀ w, dat.A w = V c (Pipeline.arrRef spec1 w))
    (hfirst : ∀ t : Fin cfg1.N, t.val % 4 = 0 → scr t.val t.isLt = step1 (iblk1 V c 0 t) (iblk1 V c 1 t) (iblk1 V c 2 t) (iblk1 V c 3 t) init1)
    (hnext : ∀ t : Fin cfg1.N, t.val % 4 ≠ 0 → scr t.val t.isLt = step1 (iblk1 V c 0 t) (iblk1 V c 1 t) (iblk1 V c 2 t) (iblk1 V c 3 t) (scr (t.val - 1) (Nat.lt_of_le_of_lt (Nat.sub_le _ _) t.isLt)))
    (hlast : ∀ t : Fin cfg1.N, t.val % 4 = 3 → dat.after 4 t = fin1 (scr t.val t.isLt))
    (hQ : ∀ i, ∃ x : ℝ, (V c main_v11 : S4x2048x1024.Idx → EReal) i = (x : EReal))
    (hK : ∀ i, ∃ x : ℝ, (V c main_v12 : S4x2048x1024.Idx → EReal) i = (x : EReal))
    (hVv : ∀ i, ∃ x : ℝ, (V c main_v13 : S4x2048x1024.Idx → EReal) i = (x : EReal))
    (b : Fin 4) (q : Fin 2048) (h : Fin 1024) :
    (dat.arrAt 4 cfg1.N : S4x2048x1024.Idx → EReal) (ix3 b q h)
      = Cert.Attn.attn (fun b s h => (V c main_v11 : S4x2048x1024.Idx → EReal) (ix3 b s h)) (fun b s h => (V c main_v12 : S4x2048x1024.Idx → EReal) (ix3 b s h))
          (fun b s h => (V c main_v13 : S4x2048x1024.Idx → EReal) (ix3 b s h)) (fun b q k => (V c main_arg1 : S4x2048x2048.Idx → BitVec 32) (ix3 b q k)) b q h := by
  have e := dat.arrAt_eq_of_cover 4 (AttnCall.G V (c := c))
    (fun t hf => AttnCall.flushed_eq V dat scr hfirst hnext hlast hQ hK hVv t hf) AttnCall.cover
  exact congrFun e (ix3 b q h)

end Cert.KernelIdeal.HandValue

end
-- ==== Proof.IdealBridge.lean ====
/-
  The kernel's result is the reference's function of the arguments.

  The attention call is entered with query, key and value arrays that are — read entry by entry through the three
  reshapes, the projection call's write-backs, and the host operations before it (flattening of the input, transposition
  of the weights, biases made rows) — the linear layers  x·Wᵀ + b  of the arguments; with finite inputs these are real.
  On real data the streaming softmax of the attention call is plain attention in the kernel's order (weighted sum over
  the sum of weights, scores times 1/32), which equals attention in the reference's order (scores over 32, weights
  normalised first).
-/
import proofs.«151986_j46763603919067_2_alg».proof.Proof.IdealRun
import proofs.«151986_j46763603919067_2_alg».proof.Proof.IdealProjValue
import proofs.«151986_j46763603919067_2_alg».proof.Proof.IdealHostGlue
import proofs.«151986_j46763603919067_2_alg».proof.Proof.IdealFiniteInputs
import proofs.«151986_j46763603919067_2_alg».proof.Proof.AttnBridge
import proofs.«151986_j46763603919067_2_alg».proof.Proof.IdealRefValue
import proofs.«151986_j46763603919067_2_alg».proof.Proof.IdealAttnValue

set_option maxRecDepth 16384

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand
open Idealize.ShloMosaic.Pipeline (Dat)

variable (m : (ℓ : Loc nD τ sig) → Buf (Elt Ideal) ℓ) (ρ : Dev nD → PrngReg)

/-! ## The arrays the attention call is entered with -/

/-- The query array entering the attention call, entry (b, s, o): the query layer of the arguments. -/
theorem q_entry (c : Dev nD) (b : Fin 4) (s : Fin 2048) (o : Fin 1024) :
    (E3 m ρ c main_v11 : S4x2048x1024.Idx → EReal) (ix3 b s o)
      = Cert.Attn.linR (fun b s h => (m ((c.tc : Thread nD τ).loc main_arg0) : S4x2048x1024.Idx → EReal) (ix3 b s h))
          (fun o h => (m ((c.tc : Thread nD τ).loc main_arg2) : S1024x1024.Idx → EReal) (ix2 o h))
          (fun o => (m ((c.tc : Thread nD τ).loc main_arg3) : S1024.Idx → EReal) (ix1 o)) b s o := by
  refine (glue_q (B2 m ρ c) b s o).trans ?_
  rw [show (B2 m ρ c main_v10_0) = (dat0 (E1 m ρ) c).arrAt 7 cfg0.N from B2_arr m ρ c 7]
  rw [proj_value7 (E1 m ρ) (dat0 (E1 m ρ) c) (A_eq0 (E1 m ρ) c) (after0_7 (E1 m ρ) c)]
  rw [show (fun (r : Fin 8192) (h : Fin 1024) => (E1 m ρ c main_v0 : S8192x1024.Idx → EReal) (ix2 r h))
        = fun r h => (m ((c.tc : Thread nD τ).loc main_arg0) : S4x2048x1024.Idx → EReal) (ix3 ⟨r.val / 2048, by omega⟩ ⟨r.val % 2048, Nat.mod_lt _ (by norm_num)⟩ h)
        from funext fun r => funext fun h => glue_x (B0 m ρ c) r h,
      show (fun (h o : Fin 1024) => (E1 m ρ c main_v2 : S1024x1024.Idx → EReal) (ix2 h o))
        = fun h o => (m ((c.tc : Thread nD τ).loc main_arg2) : S1024x1024.Idx → EReal) (ix2 o h)
        from funext fun h => funext fun o => glue_wq (B0 m ρ c) h o,
      show (fun (o : Fin 1024) => (E1 m ρ c main_v7 : S1x1024.Idx → EReal) (ix2 0 o))
        = fun o => (m ((c.tc : Thread nD τ).loc main_arg3) : S1024.Idx → EReal) (ix1 o)
        from funext fun o => glue_bq (B0 m ρ c) o]
  exact Cert.Attn.lin_eq_linR (fun b s h => (m ((c.tc : Thread nD τ).loc main_arg0) : S4x2048x1024.Idx → EReal) (ix3 b s h))
    (fun o h => (m ((c.tc : Thread nD τ).loc main_arg2) : S1024x1024.Idx → EReal) (ix2 o h))
    (fun o => (m ((c.tc : Thread nD τ).loc main_arg3) : S1024.Idx → EReal) (ix1 o)) b s o

/-- The key array entering the attention call: the key layer of the arguments. -/
theorem k_entry (c : Dev nD) (b : Fin 4) (s : Fin 2048) (o : Fin 1024) :
    (E3 m ρ c main_v12 : S4x2048x1024.Idx → EReal) (ix3 b s o)
      = Cert.Attn.linR (fun b s h => (m ((c.tc : Thread nD τ).loc main_arg0) : S4x2048x1024.Idx → EReal) (ix3 b s h))
          (fun o h => (m ((c.tc : Thread nD τ).loc main_arg4) : S1024x1024.Idx → EReal) (ix2 o h))
          (fun o => (m ((c.tc : Thread nD τ).loc main_arg5) : S1024.Idx → EReal) (ix1 o)) b s o := by
  refine (glue_k (B2 m ρ c) b s o).trans ?_
  rw [show (B2 m ρ c main_v10_1) = (dat0 (E1 m ρ) c).arrAt 8 cfg0.N from B2_arr m ρ c 8]
  rw [proj_value8 (E1 m ρ) (dat0 (E1 m ρ) c) (A_eq0 (E1 m ρ) c) (after0_8 (E1 m ρ) c)]
  rw [show (fun (r : Fin 8192) (h : Fin 1024) => (E1 m ρ c main_v0 : S8192x1024.Idx → EReal) (ix2 r h))
        = fun r h => (m ((c.tc : Thread nD τ).loc main_arg0) : S4x2048x1024.Idx → EReal) (ix3 ⟨r.val / 2048, by omega⟩ ⟨r.val % 2048, Nat.mod_lt _ (by norm_num)⟩ h)
        from funext fun r => funext fun h => glue_x (B0 m ρ c) r h,
      show (fun (h o : Fin 1024) => (E1 m ρ c main_v4 : S1024x1024.Idx → EReal) (ix2 h o))
        = fun h o => (m ((c.tc : Thread nD τ).loc main_arg4) : S1024x1024.Idx → EReal) (ix2 o h)
        from funext fun h => funext fun o => glue_wk (B0 m ρ c) h o,
      show (fun (o : Fin 1024) => (E1 m ρ c main_v8 : S1x1024.Idx → EReal) (ix2 0 o))
        = fun o => (m ((c.tc : Thread nD τ).loc main_arg5) : S1024.Idx → EReal) (ix1 o)
        from funext fun o => glue_bk (B0 m ρ c) o]
  exact Cert.Attn.lin_eq_linR (fun b s h => (m ((c.tc : Thread nD τ).loc main_arg0) : S4x2048x1024.Idx → EReal) (ix3 b s h))
    (fun o h => (m ((c.tc : Thread nD τ).loc main_arg4) : S1024x1024.Idx → EReal) (ix2 o h))
    (fun o => (m ((c.tc : Thread nD τ).loc main_arg5) : S1024.Idx → EReal) (ix1 o)) b s o

/-- The value array entering the attention call: the value layer of the arguments. -/
theorem v_entry (c : Dev nD) (b : Fin 4) (s : Fin 2048) (o : Fin 1024) :
    (E3 m ρ c main_v13 : S4x2048x1024.Idx → EReal) (ix3 b s o)
      = Cert.Attn.linR (fun b s h => (m ((c.tc : Thread nD τ).loc main_arg0) : S4x2048x1024.Idx → EReal) (ix3 b s h))
          (fun o h => (m ((c.tc : Thread nD τ).loc main_arg6) : S1024x1024.Idx → EReal) (ix2 o h))
          (fun o => (m ((c.tc : Thread nD τ).loc main_arg7) : S1024.Idx → EReal) (ix1 o)) b s o := by
  refine (glue_v (B2 m ρ c) b s o).trans ?_
  rw [show (B2 m ρ c main_v10_2) = (dat0 (E1 m ρ) c).arrAt 9 cfg0.N from B2_arr m ρ c 9]
  rw [proj_value9 (E1 m ρ) (dat0 (E1 m ρ) c) (A_eq0 (E1 m ρ) c) (after0_9 (E1 m ρ) c)]
  rw [show (fun (r : Fin 8192) (h : Fin 1024) => (E1 m ρ c main_v0 : S8192x1024.Idx → EReal) (ix2 r h))
        = fun r h => (m ((c.tc : Thread nD τ).loc main_arg0) : S4x2048x1024.Idx → EReal) (ix3 ⟨r.val / 2048, by omega⟩ ⟨r.val % 2048, Nat.mod_lt _ (by norm_num)⟩ h)
        from funext fun r => funext fun h => glue_x (B0 m ρ c) r h,
      show (fun (h o : Fin 1024) => (E1 m ρ c main_v6 : S1024x1024.Idx → EReal) (ix2 h o))
        = fun h o => (m ((c.tc : Thread nD τ).loc main_arg6) : S1024x1024.Idx → EReal) (ix2 o h)
        from funext fun h => funext fun o => glue_wv (B0 m ρ c) h o,
      show (fun (o : Fin 1024) => (E1 m ρ c main_v9 : S1x1024.Idx → EReal) (ix2 0 o))
        = fun o => (m ((c.tc : Thread nD τ).loc main_arg7) : S1024.Idx → EReal) (ix1 o)
        from funext fun o => glue_bv (B0 m ρ c) o]
  exact Cert.Attn.lin_eq_linR (fun b s h => (m ((c.tc : Thread nD τ).loc main_arg0) : S4x2048x1024.Idx → EReal) (ix3 b s h))
    (fun o h => (m ((c.tc : Thread nD τ).loc main_arg6) : S1024x1024.Idx → EReal) (ix2 o h))
    (fun o => (m ((c.tc : Thread nD τ).loc main_arg7) : S1024.Idx → EReal) (ix1 o)) b s o

/-- The mask entering the attention call is the argument: nothing before the call writes it. -/
theorem mask_entry (c : Dev nD) : E3 m ρ c main_arg1 = m ((c.tc : Thread nD τ).loc main_arg1) :=
  calc B3 m ρ c (Proc.devRef .tc main_arg1)
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl

/-! ## The result -/

variable [Cert.Pre_finite_inputs.Facts]

/-- Under the precondition (every float input finite) the attention call's output array, after its last grid point, is
    the reference's function of the arguments. -/
theorem kernel_value (hpre : Cert.Pre_KernelIdeal m) (c : Dev nD) :
    (dat1 (E3 m ρ) c).arrAt 4 cfg1.N
      = Cert.ReferenceIdeal.RefValue.refG (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  obtain ⟨r0, r2, r3, r4, r5, r6, r7⟩ := real_inputs m hpre c
  -- the three layers are real
  have hx : ∀ b s h, ∃ r : ℝ, (m ((c.tc : Thread nD τ).loc main_arg0) : S4x2048x1024.Idx → EReal) (ix3 b s h) = (r : EReal) := fun b s h => r0 _
  have hQr := Cert.Attn.linR_real _ _ _ hx (fun o h => r2 (ix2 o h)) (fun o => r3 (ix1 o))
  have hKr := Cert.Attn.linR_real _ _ _ hx (fun o h => r4 (ix2 o h)) (fun o => r5 (ix1 o))
  have hVr := Cert.Attn.linR_real _ _ _ hx (fun o h => r6 (ix2 o h)) (fun o => r7 (ix1 o))
  funext i
  obtain ⟨b, q, h, rfl⟩ : ∃ (b : Fin 4) (q : Fin 2048) (h : Fin 1024), i = ix3 b q h := ⟨i 0, i 1, i 2, eq_ix3 i⟩
  rw [attn_value (E3 m ρ) (dat1 (E3 m ρ) c) (scr1 (E3 m ρ) c) (A_eq1 (E3 m ρ) c)
    (fun t ht => scr1_first (E3 m ρ) c t ht) (fun t ht => scr1_next (E3 m ρ) c t ht) (fun t ht => after1_4_last (E3 m ρ) c t ht)
    (fun i => by
      obtain ⟨b', s', o', rfl⟩ : ∃ (b' : Fin 4) (s' : Fin 2048) (o' : Fin 1024), i = ix3 b' s' o' := ⟨i 0, i 1, i 2, eq_ix3 i⟩
      rw [q_entry]; exact hQr _ _ _) (fun i => by
      obtain ⟨b', s', o', rfl⟩ : ∃ (b' : Fin 4) (s' : Fin 2048) (o' : Fin 1024), i = ix3 b' s' o' := ⟨i 0, i 1, i 2, eq_ix3 i⟩
      rw [k_entry]; exact hKr _ _ _)
    (fun i => by
      obtain ⟨b', s', o', rfl⟩ : ∃ (b' : Fin 4) (s' : Fin 2048) (o' : Fin 1024), i = ix3 b' s' o' := ⟨i 0, i 1, i 2, eq_ix3 i⟩
      rw [v_entry]; exact hVr _ _ _) b q h]
  rw [show (fun (b : Fin 4) (s : Fin 2048) (h : Fin 1024) => (E3 m ρ c main_v11 : S4x2048x1024.Idx → EReal) (ix3 b s h)) = _
        from funext fun b => funext fun s => funext fun h => q_entry m ρ c b s h,
      show (fun (b : Fin 4) (s : Fin 2048) (h : Fin 1024) => (E3 m ρ c main_v12 : S4x2048x1024.Idx → EReal) (ix3 b s h)) = _
        from funext fun b => funext fun s => funext fun h => k_entry m ρ c b s h,
      show (fun (b : Fin 4) (s : Fin 2048) (h : Fin 1024) => (E3 m ρ c main_v13 : S4x2048x1024.Idx → EReal) (ix3 b s h)) = _
        from funext fun b => funext fun s => funext fun h => v_entry m ρ c b s h,
      mask_entry m ρ c]
  rw [Cert.Attn.attn_eq_attnR _ _ _ _ hQr hKr hVr]
  rfl

end Cert.KernelIdeal.HandValue

end
-- ==== Proof.lean ====
/-
  A fused query/key/value projection followed by flash attention, against plain jnp attention, over the extended reals.

  Both programs form  q, k, v = x·Wᵀ + b,  scores  q·kᵀ  with -10⁹ written where the mask is zero and then scaled by 1/32,
  a softmax along the keys, and the weighted sum of the value rows.  The kernel computes the projections block by block
  in one call and the attention in a second call that walks the keys in four tiles, keeping per query row a running
  maximum, a running sum of weights and a running weighted sum, rescaled whenever the maximum grows, and divides at the
  last tile; the reference forms the whole score matrix, normalises each weight and sums.  With finite inputs every
  score is real, the running quantities after the last tile are the row maximum, the sum of the weights and the weighted
  sum over all keys, and  (Σ e·v)/(Σ e) = Σ (e/Σ e)·v.

  The three frames: the kernel's program, at both readings of its floats, is run item by item (host operations, the
  projection call, three reshapes, the attention call) with every buffer's content between items named, which shows the
  arguments untouched; the reference's is its straight-line run.  The idealised kernel is the kernel's own text read at
  exact arithmetic, so nothing is owed for the idealisation.
-/
import proofs.«151986_j46763603919067_2_alg».proof.Defs
import proofs.«151986_j46763603919067_2_alg».proof.Proof.Gen.Kernel
import proofs.«151986_j46763603919067_2_alg».proof.Proof.Gen.KernelIdeal
import proofs.«151986_j46763603919067_2_alg».proof.Proof.Gen.ReferenceIdeal
import proofs.«151986_j46763603919067_2_alg».proof.Proof.Gen.ReferenceIdeal.Run
import proofs.«151986_j46763603919067_2_alg».proof.Proof.Gen.ReferenceIdeal.Read
import proofs.«151986_j46763603919067_2_alg».proof.Proof.Gen.Pre_finite_inputs
import proofs.«151986_j46763603919067_2_alg».proof.Proof.BitsRun
import proofs.«151986_j46763603919067_2_alg».proof.Proof.IdealRun
import proofs.«151986_j46763603919067_2_alg».proof.Proof.IdealBridge
import proofs.«151986_j46763603919067_2_alg».proof.Proof.IdealRefValue
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Hand.frame m ρ

/-- So does the kernel read at exact arithmetic. -/
theorem frame_kernelIdeal : Cert.frame_KernelIdeal := fun m ρ _ => Cert.KernelIdeal.Hand.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the reference's function of the arguments in their
    result buffers: the kernel by the streaming softmax's value on real data, the reference by its own stages. -/
theorem algebraic : Cert.algebraic_KernelIdeal_ReferenceIdeal := by
  intro m ρ m' ρ' hpre hagree
  refine ⟨fun c => Cert.ReferenceIdeal.RefValue.refG
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HandValue.kernel_value m ρ hpre c), (h c).2⟩)
      (Cert.KernelIdeal.Hand.run_named (F := Ideal) m ρ)
  · refine (θ_run Cert.ReferenceIdeal.defs _ _).mono (fun r h c => ⟨(h c).1.trans ?_, (h c).2⟩)
      (Cert.ReferenceIdeal.RefValue.run_refG m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
